-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1000000 : Shape := ⟨2, ![2, 1000000]⟩
abbrev S2x500000 : Shape := ⟨2, ![2, 500000]⟩
abbrev S128x64 : Shape := ⟨2, ![128, 64]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg17 : FVec F S128x256 .f32) (main_arg18 : FVec F S128 .f32) (main_arg19 : FVec F S1x128 .f32) (main_arg20 : FVec F S1 .f32) (main_v63 : IVec S_ 1) (main_v67 : IVec S_ 1) : IVec S_ 1 :=
  let main_v68 : IVec S_ 1 := andi main_v63 main_v67
  let main_v69 : FVec F S128x256 .f32 := Host.absf main_arg17
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S1x128 .f32 := Host.absf main_arg19
  let main_cst_30 : FVec F S_ .f32 := constant S_ .f32 0x7F800000#32
  let main_v80 : FVec F S1x128 .f32 := broadcastInDim S1x128 ![] bcast_S_S1x128 main_cst_30
  let main_v81 : IVec S1x128 1 := cmpf .olt main_v79 main_v80
  let main_c_31 : IVec S_ 1 := constantI S_ 1 1#1
  let main_v82 : IVec S_ 1 := (fun x v => Host.reduce IntOp.andi x v reducesTo_S1x128_S_d0_1 h_S_) main_v81 main_c_31
  let main_v83 : IVec S_ 1 := andi main_v78 main_v82
  let main_v84 : FVec F S1 .f32 := Host.absf main_arg20
  let main_cst_32 : FVec F S_ .f32 := constant S_ .f32 0x7F800000#32
  fn_part5 (F := F) main_v83 main_v84 main_cst_32

def fn_part3 {F : FTy → Type} [FloatOps F] (main_arg14 : FVec F S128x128 .f32) (main_arg15 : FVec F S128 .f32) (main_arg16 : FVec F S128x128 .f32) (main_arg17 : FVec F S128x256 .f32) (main_arg18 : FVec F S128 .f32) (main_arg19 : FVec F S1x128 .f32) (main_arg20 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_arg20 main_v63 main_v67

def fn_part2 {F : FTy → Type} [FloatOps F] (main_arg10 : FVec F S128x64 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x256 .f32) (main_arg18 : FVec F S128 .f32) (main_arg19 : FVec F S1x128 .f32) (main_arg20 : FVec F S1 .f32) (main_v33 : IVec S_ 1) : IVec S_ 1 :=
  let main_v34 : FVec F S128x64 .f32 := Host.absf main_arg10
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_arg19 main_arg20 main_v48 main_v49 main_v50

def fn_part1 {F : FTy → Type} [FloatOps F] (main_arg7 : FVec F S128x64 .f32) (main_arg8 : FVec F S128x64 .f32) (main_arg9 : FVec F S128 .f32) (main_arg10 : FVec F S128x64 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x256 .f32) (main_arg18 : FVec F S128 .f32) (main_arg19 : FVec F S1x128 .f32) (main_arg20 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg7
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg8
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_v33

def fn {F : FTy → Type} [FloatOps F] (main_arg0 : FVec F S50000x64 .f32) (main_arg1 : FVec F S50000x64 .f32) (main_arg2 : IVec S2x1000000 32) (main_arg3 : IVec S2x1000000 32) (main_arg4 : IVec S2x500000 32) (main_arg5 : FVec F S128x64 .f32) (main_arg6 : FVec F S128 .f32) (main_arg7 : FVec F S128x64 .f32) (main_arg8 : FVec F S128x64 .f32) (main_arg9 : FVec F S128 .f32) (main_arg10 : FVec F S128x64 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x256 .f32) (main_arg18 : FVec F S128 .f32) (main_arg19 : FVec F S1x128 .f32) (main_arg20 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_arg19 main_arg20 main_v13 main_v16
-- ==== Kernel.lean ====
abbrev S50000x64 : Shape := ⟨2, ![50000, 64]⟩
abbrev S2x1000000 : Shape := ⟨2, ![2, 1000000]⟩
abbrev S2x500000 : Shape := ⟨2, ![2, 500000]⟩
abbrev S128x64 : Shape := ⟨2, ![128, 64]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S50000 : Shape := ⟨1, ![50000]⟩
abbrev S1000000x1 : Shape := ⟨2, ![1000000, 1]⟩
abbrev S50000x1 : Shape := ⟨2, ![50000, 1]⟩
abbrev S1000000x64 : Shape := ⟨2, ![1000000, 64]⟩
abbrev S64x128 : Shape := ⟨2, ![64, 128]⟩
abbrev S50000x128 : Shape := ⟨2, ![50000, 128]⟩
abbrev S5000x64 : Shape := ⟨2, ![5000, 64]⟩
abbrev S5000x128 : Shape := ⟨2, ![5000, 128]⟩
abbrev S1000000x128 : Shape := ⟨2, ![1000000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S1x1 : Shape := ⟨2, ![1, 1]⟩
abbrev S5000x1 : Shape := ⟨2, ![5000, 1]⟩
abbrev S5000 : Shape := ⟨1, ![5000]⟩

abbrev nBuf : Space → Nat
  | .hbm => 163
  | .vmem => 47
  | .smem => 0
  | _ => 0

abbrev hbmTy0_0 (i : Nat) : BufTy := match i % 128 with
  | 0 => ⟨S50000x64, .f32⟩
  | 1 => ⟨S50000x64, .f32⟩
  | 2 => ⟨S2x1000000, .i32⟩
  | 3 => ⟨S2x1000000, .i32⟩
  | 4 => ⟨S2x500000, .i32⟩
  | 5 => ⟨S128x64, .f32⟩
  | 6 => ⟨S128, .f32⟩
  | 7 => ⟨S128x64, .f32⟩
  | 8 => ⟨S128x64, .f32⟩
  | 9 => ⟨S128, .f32⟩
  | 10 => ⟨S128x64, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x256, .f32⟩
  | 18 => ⟨S128, .f32⟩
  | 19 => ⟨S1x128, .f32⟩
  | 20 => ⟨S1, .f32⟩
  | 21 => ⟨S1x1000000, .i32⟩
  | 22 => ⟨S1000000, .i32⟩
  | 23 => ⟨S1x1000000, .i32⟩
  | 24 => ⟨S1000000, .i32⟩
  | 25 => ⟨S1x1000000, .i32⟩
  | 26 => ⟨S1000000, .i32⟩
  | 27 => ⟨S1x1000000, .i32⟩
  | 28 => ⟨S1000000, .i32⟩
  | 29 => ⟨S_, .f32⟩
  | 30 => ⟨S1000000, .f32⟩
  | 31 => ⟨S_, .f32⟩
  | 32 => ⟨S50000, .f32⟩
  | 33 => ⟨S1000000x1, .i32⟩
  | 34 => ⟨S50000, .f32⟩
  | 35 => ⟨S_, .f32⟩
  | 36 => ⟨S1000000, .f32⟩
  | 37 => ⟨S_, .f32⟩
  | 38 => ⟨S50000, .f32⟩
  | 39 => ⟨S1000000x1, .i32⟩
  | 40 => ⟨S50000, .f32⟩
  | 41 => ⟨S_, .f32⟩
  | 42 => ⟨S50000, .f32⟩
  | 43 => ⟨S50000, .f32⟩
  | 44 => ⟨S_, .f32⟩
  | 45 => ⟨S50000, .f32⟩
  | 46 => ⟨S50000, .f32⟩
  | 47 => ⟨S50000x1, .f32⟩
  | 48 => ⟨S_, .f32⟩
  | 49 => ⟨S50000, .f32⟩
  | 50 => ⟨S50000, .f32⟩
  | 51 => ⟨S_, .f32⟩
  | 52 => ⟨S50000, .f32⟩
  | 53 => ⟨S50000, .f32⟩
  | 54 => ⟨S50000x1, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x64, .f32⟩
  | 64 => ⟨S_, .f32⟩
  | 65 => ⟨S50000x64, .f32⟩
  | 66 => ⟨S1000000x1, .i32⟩
  | 67 => ⟨S50000x64, .f32⟩
  | 68 => ⟨S50000x64, .f32⟩
  | 69 => ⟨S50000x64, .f32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x64, .f32⟩
  | 79 => ⟨S_, .f32⟩
  | 80 => ⟨S50000x64, .f32⟩
  | 81 => ⟨S1000000x1, .i32⟩
  | 82 => ⟨S50000x64, .f32⟩
  | 83 => ⟨S50000x64, .f32⟩
  | 84 => ⟨S50000x64, .f32⟩
  | 85 => ⟨S64x128, .f32⟩
  | 86 => ⟨S64x128, .f32⟩
  | 87 => ⟨S1x128, .f32⟩
  | 88 => ⟨S50000x128, .bf16⟩
  | 89 => ⟨S64x128, .f32⟩
  | 90 => ⟨S64x128, .f32⟩
  | 91 => ⟨S1x128, .f32⟩
  | 92 => ⟨S50000x128, .bf16⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000x128, .bf16⟩
  | 102 => ⟨S1000000x128, .f32⟩
  | 103 => ⟨S_, .f32⟩
  | 104 => ⟨S50000x128, .f32⟩
  | 105 => ⟨S1000000x1, .i32⟩
  | 106 => ⟨S50000x128, .f32⟩
  | 107 => ⟨S50000x128, .f32⟩
  | 108 => ⟨S50000x128, .f32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x128, .bf16⟩
  | 118 => ⟨S1000000x128, .f32⟩
  | 119 => ⟨S_, .f32⟩
  | 120 => ⟨S50000x128, .f32⟩
  | 121 => ⟨S1000000x1, .i32⟩
  | 122 => ⟨S50000x128, .f32⟩
  | 123 => ⟨S50000x128, .f32⟩
  | 124 => ⟨S50000x128, .f32⟩
  | 125 => ⟨S128x128, .f32⟩
  | 126 => ⟨S128x128, .f32⟩
  | 127 => ⟨S1x128, .f32⟩
  | _ => ⟨S50000x64, .f32⟩

abbrev hbmTy0_1 (i : Nat) : BufTy := match i % 128 with
  | 0 => ⟨S50000x128, .bf16⟩
  | 1 => ⟨S128x128, .f32⟩
  | 2 => ⟨S128x128, .f32⟩
  | 3 => ⟨S1x128, .f32⟩
  | 4 => ⟨S50000x128, .bf16⟩
  | 5 => ⟨S1x500000, .i32⟩
  | 6 => ⟨S500000, .i32⟩
  | 7 => ⟨S1x500000, .i32⟩
  | 8 => ⟨S500000, .i32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x128, .bf16⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x128, .bf16⟩
  | 27 => ⟨S128x128, .f32⟩
  | 28 => ⟨S128x128, .f32⟩
  | 29 => ⟨S128x128, .f32⟩
  | 30 => ⟨S128x128, .f32⟩
  | 31 => ⟨S1x128, .f32⟩
  | 32 => ⟨S1x1, .f32⟩
  | 33 => ⟨S500000x1, .f32⟩
  | 34 => ⟨S500000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .bf16⟩
  | .local _ .vmem, ⟨8, _⟩ => ⟨S5000x128, .bf16⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x128, .f32⟩
  | .local _ .vmem, ⟨14, _⟩ => ⟨S64x128, .f32⟩
  | .local _ .vmem, ⟨15, _⟩ => ⟨S1x128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .f32⟩
  | .local _ .vmem, ⟨19, _⟩ => ⟨S5000x128, .f32⟩
  | .local _ .vmem, ⟨20, _⟩ => ⟨S5000x128, .bf16⟩
  | .local _ .vmem, ⟨21, _⟩ => ⟨S5000x128, .bf16⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .bf16⟩
  | .local _ .vmem, ⟨26, _⟩ => ⟨S5000x128, .bf16⟩
  | .local _ .vmem, ⟨27, _⟩ => ⟨S5000x128, .f32⟩
  | .local _ .vmem, ⟨28, _⟩ => ⟨S5000x128, .f32⟩
  | .local _ .vmem, ⟨29, _⟩ => ⟨S5000x128, .bf16⟩
  | .local _ .vmem, ⟨30, _⟩ => ⟨S5000x128, .bf16⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .bf16⟩
  | .local _ .vmem, ⟨35, _⟩ => ⟨S5000x128, .bf16⟩
  | .local _ .vmem, ⟨36, _⟩ => ⟨S5000x128, .bf16⟩
  | .local _ .vmem, ⟨37, _⟩ => ⟨S5000x128, .bf16⟩
  | .local _ .vmem, ⟨38, _⟩ => ⟨S5000x128, .bf16⟩
  | .local _ .vmem, ⟨39, _⟩ => ⟨S5000x128, .bf16⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S1x128, .f32⟩
  | .local _ .vmem, ⟨44, _⟩ => ⟨S1x1, .f32⟩
  | .local _ .vmem, ⟨45, _⟩ => ⟨S5000x1, .f32⟩
  | .local _ .vmem, ⟨46, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_3 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_cst_6 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c : Ref sig .tc := ⟨.hbm, 55, rfl⟩
abbrev main_v26 : Ref sig .tc := ⟨.hbm, 56, rfl⟩
abbrev main_v27 : Ref sig .tc := ⟨.hbm, 57, rfl⟩
abbrev main_c_7 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_8 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_9 : Ref sig .tc := ⟨.hbm, 70, rfl⟩
abbrev main_v38 : Ref sig .tc := ⟨.hbm, 71, rfl⟩
abbrev main_v39 : Ref sig .tc := ⟨.hbm, 72, rfl⟩
abbrev main_c_10 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_11 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_12 : Ref sig .tc := ⟨.hbm, 93, rfl⟩
abbrev main_v58 : Ref sig .tc := ⟨.hbm, 94, rfl⟩
abbrev main_v59 : Ref sig .tc := ⟨.hbm, 95, rfl⟩
abbrev main_c_13 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_15 : Ref sig .tc := ⟨.hbm, 109, rfl⟩
abbrev main_v71 : Ref sig .tc := ⟨.hbm, 110, rfl⟩
abbrev main_v72 : Ref sig .tc := ⟨.hbm, 111, rfl⟩
abbrev main_c_16 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_17 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_18 : Ref sig .tc := ⟨.hbm, 137, rfl⟩
abbrev main_v96 : Ref sig .tc := ⟨.hbm, 138, rfl⟩
abbrev main_v97 : Ref sig .tc := ⟨.hbm, 139, rfl⟩
abbrev main_c_19 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_20 : Ref sig .tc := ⟨.hbm, 146, rfl⟩
abbrev main_v103 : Ref sig .tc := ⟨.hbm, 147, rfl⟩
abbrev main_v104 : Ref sig .tc := ⟨.hbm, 148, rfl⟩
abbrev main_c_21 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg7_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S128x64_S64x128_1_0 : S128x64.Transposes [1, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S128x256_S128x128_0_0 : S128x256.Slices ![0, 0] S128x128
  slices_S128x256_S128x128_0_128 : S128x256.Slices ![0, 128] S128x128
  shapeCasts_S1_S1x1 : S1.ShapeCasts S1x1
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  scatter_S50000_S1000000x1_S1000000_n_0_0_1_wf : ScatterDims.WF S50000 S1000000x1 S1000000 [] [0] [0] 1
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  dot_S5000x64_S64x128_S5000x128_1_0_0_1_n_n_wf : DotDims.WF S5000x64 S64x128 S5000x128 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  dot_S5000x128_S128x128_S5000x128_1_0_0_1_n_n_wf : DotDims.WF S5000x128 S128x128 S5000x128 [1] [0] [0] [1] [] []
  gather_S50000x128_S500000x1_S500000x128_1_0_n_n_0_1_1128_wf : GatherDims.WF S50000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .bf16 = 32 ∨ (Rect.block (s := S50000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .bf16 = 32 ∨ (Rect.block (s := S50000x128) S5000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .bf16 = 32 ∨ (Rect.block (s := S50000x128) S5000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .bf16 = 32 ∨ (Rect.block (s := S50000x128) S5000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .bf16 = 32 ∨ (Rect.block (s := S50000x128) S5000x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S500000x128.size a
  hwx4_0 : ∀ i : grid4.Coords, EltTy.bits .bf16 = 32 ∨ (Rect.block (s := S500000x128) S5000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S500000x128.size a
  hwx4_1 : ∀ i : grid4.Coords, EltTy.bits .bf16 = 32 ∨ (Rect.block (s := S500000x128) S5000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x1.size a ≤ S500000x1.size a
  hwx4_7 : ∀ i : grid4.Coords, EltTy.bits .f32 = 32 ∨ (Rect.block (s := S500000x1) S5000x1.size (cc4_transform_7 i) (hinb4_7 i)).WholeWords (EltTy.packing .f32)

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf

abbrev win0_0 : Pipeline.Window sig grid0 :=
  Pipeline.Window.ofSpec (Memref.whole main_v37) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v52) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v53) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v84) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v86) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v87) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v88) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v102) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v112) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v113) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v114) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg19) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v115) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v116) S5000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x1000000 : Shape := ⟨2, ![2, 1000000]⟩
abbrev S2x500000 : Shape := ⟨2, ![2, 500000]⟩
abbrev S128x64 : Shape := ⟨2, ![128, 64]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S50000 : Shape := ⟨1, ![50000]⟩
abbrev S50000x1 : Shape := ⟨2, ![50000, 1]⟩
abbrev S64x128 : Shape := ⟨2, ![64, 128]⟩
abbrev S50000x128 : Shape := ⟨2, ![50000, 128]⟩
abbrev S1000000x128 : Shape := ⟨2, ![1000000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x256 : Shape := ⟨2, ![500000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 212
  | .vmem => 0
  | .smem => 0
  | _ => 0

abbrev hbmTy0_0 (i : Nat) : BufTy := match i % 128 with
  | 0 => ⟨S50000x64, .f32⟩
  | 1 => ⟨S50000x64, .f32⟩
  | 2 => ⟨S2x1000000, .i32⟩
  | 3 => ⟨S2x1000000, .i32⟩
  | 4 => ⟨S2x500000, .i32⟩
  | 5 => ⟨S128x64, .f32⟩
  | 6 => ⟨S128, .f32⟩
  | 7 => ⟨S128x64, .f32⟩
  | 8 => ⟨S128x64, .f32⟩
  | 9 => ⟨S128, .f32⟩
  | 10 => ⟨S128x64, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x256, .f32⟩
  | 18 => ⟨S128, .f32⟩
  | 19 => ⟨S1x128, .f32⟩
  | 20 => ⟨S1, .f32⟩
  | 21 => ⟨S1x1000000, .i32⟩
  | 22 => ⟨S1000000, .i32⟩
  | 23 => ⟨S1x1000000, .i32⟩
  | 24 => ⟨S1000000, .i32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x64, .f32⟩
  | 34 => ⟨S_, .f32⟩
  | 35 => ⟨S50000x64, .f32⟩
  | 36 => ⟨S1000000x1, .i32⟩
  | 37 => ⟨S50000x64, .f32⟩
  | 38 => ⟨S_, .f32⟩
  | 39 => ⟨S1000000, .f32⟩
  | 40 => ⟨S_, .f32⟩
  | 41 => ⟨S50000, .f32⟩
  | 42 => ⟨S1000000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x64, .f32⟩
  | 49 => ⟨S50000x64, .f32⟩
  | 50 => ⟨S64x128, .f32⟩
  | 51 => ⟨S50000x128, .f32⟩
  | 52 => ⟨S1x128, .f32⟩
  | 53 => ⟨S50000x128, .f32⟩
  | 54 => ⟨S50000x128, .f32⟩
  | 55 => ⟨S64x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S1x1000000, .i32⟩
  | 62 => ⟨S1000000, .i32⟩
  | 63 => ⟨S1x1000000, .i32⟩
  | 64 => ⟨S1000000, .i32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x64, .f32⟩
  | 74 => ⟨S_, .f32⟩
  | 75 => ⟨S50000x64, .f32⟩
  | 76 => ⟨S1000000x1, .i32⟩
  | 77 => ⟨S50000x64, .f32⟩
  | 78 => ⟨S_, .f32⟩
  | 79 => ⟨S1000000, .f32⟩
  | 80 => ⟨S_, .f32⟩
  | 81 => ⟨S50000, .f32⟩
  | 82 => ⟨S1000000x1, .i32⟩
  | 83 => ⟨S50000, .f32⟩
  | 84 => ⟨S_, .f32⟩
  | 85 => ⟨S50000, .f32⟩
  | 86 => ⟨S50000, .f32⟩
  | 87 => ⟨S50000x1, .f32⟩
  | 88 => ⟨S50000x64, .f32⟩
  | 89 => ⟨S50000x64, .f32⟩
  | 90 => ⟨S64x128, .f32⟩
  | 91 => ⟨S50000x128, .f32⟩
  | 92 => ⟨S1x128, .f32⟩
  | 93 => ⟨S50000x128, .f32⟩
  | 94 => ⟨S50000x128, .f32⟩
  | 95 => ⟨S64x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S1x1000000, .i32⟩
  | 102 => ⟨S1000000, .i32⟩
  | 103 => ⟨S1x1000000, .i32⟩
  | 104 => ⟨S1000000, .i32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x128, .f32⟩
  | 114 => ⟨S_, .f32⟩
  | 115 => ⟨S50000x128, .f32⟩
  | 116 => ⟨S1000000x1, .i32⟩
  | 117 => ⟨S50000x128, .f32⟩
  | 118 => ⟨S_, .f32⟩
  | 119 => ⟨S1000000, .f32⟩
  | 120 => ⟨S_, .f32⟩
  | 121 => ⟨S50000, .f32⟩
  | 122 => ⟨S1000000x1, .i32⟩
  | 123 => ⟨S50000, .f32⟩
  | 124 => ⟨S_, .f32⟩
  | 125 => ⟨S50000, .f32⟩
  | 126 => ⟨S50000, .f32⟩
  | 127 => ⟨S50000x1, .f32⟩
  | _ => ⟨S50000x64, .f32⟩

abbrev hbmTy0_1 (i : Nat) : BufTy := match i % 128 with
  | 0 => ⟨S50000x128, .f32⟩
  | 1 => ⟨S50000x128, .f32⟩
  | 2 => ⟨S128x128, .f32⟩
  | 3 => ⟨S50000x128, .f32⟩
  | 4 => ⟨S1x128, .f32⟩
  | 5 => ⟨S50000x128, .f32⟩
  | 6 => ⟨S50000x128, .f32⟩
  | 7 => ⟨S128x128, .f32⟩
  | 8 => ⟨S50000x128, .f32⟩
  | 9 => ⟨S50000x128, .f32⟩
  | 10 => ⟨S1x1000000, .i32⟩
  | 11 => ⟨S1000000, .i32⟩
  | 12 => ⟨S1x1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x128, .f32⟩
  | 23 => ⟨S_, .f32⟩
  | 24 => ⟨S50000x128, .f32⟩
  | 25 => ⟨S1000000x1, .i32⟩
  | 26 => ⟨S50000x128, .f32⟩
  | 27 => ⟨S_, .f32⟩
  | 28 => ⟨S1000000, .f32⟩
  | 29 => ⟨S_, .f32⟩
  | 30 => ⟨S50000, .f32⟩
  | 31 => ⟨S1000000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S128x128, .f32⟩
  | 40 => ⟨S50000x128, .f32⟩
  | 41 => ⟨S1x128, .f32⟩
  | 42 => ⟨S50000x128, .f32⟩
  | 43 => ⟨S50000x128, .f32⟩
  | 44 => ⟨S128x128, .f32⟩
  | 45 => ⟨S50000x128, .f32⟩
  | 46 => ⟨S50000x128, .f32⟩
  | 47 => ⟨S1x500000, .i32⟩
  | 48 => ⟨S500000, .i32⟩
  | 49 => ⟨S1x500000, .i32⟩
  | 50 => ⟨S500000, .i32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x128, .f32⟩
  | 69 => ⟨S500000x256, .f32⟩
  | 70 => ⟨S256x128, .f32⟩
  | 71 => ⟨S500000x128, .f32⟩
  | 72 => ⟨S1x128, .f32⟩
  | 73 => ⟨S500000x128, .f32⟩
  | 74 => ⟨S500000x128, .f32⟩
  | 75 => ⟨S_, .f32⟩
  | 76 => ⟨S500000x128, .f32⟩
  | 77 => ⟨S500000x128, .f32⟩
  | 78 => ⟨S128x1, .f32⟩
  | 79 => ⟨S500000x1, .f32⟩
  | 80 => ⟨S1x1, .f32⟩
  | 81 => ⟨S500000x1, .f32⟩
  | 82 => ⟨S500000x1, .f32⟩
  | 83 => ⟨S500000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call0_cst : Ref sig .tc := ⟨.hbm, 58, rfl⟩
abbrev main_call0_v0 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_4 : Ref sig .tc := ⟨.hbm, 65, rfl⟩
abbrev main_v36 : Ref sig .tc := ⟨.hbm, 66, rfl⟩
abbrev main_v37 : Ref sig .tc := ⟨.hbm, 67, rfl⟩
abbrev main_c_5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_7 : Ref sig .tc := ⟨.hbm, 78, rfl⟩
abbrev main_v46 : Ref sig .tc := ⟨.hbm, 79, rfl⟩
abbrev main_cst_8 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_9 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_call1_cst : Ref sig .tc := ⟨.hbm, 98, rfl⟩
abbrev main_call1_v0 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_10 : Ref sig .tc := ⟨.hbm, 105, rfl⟩
abbrev main_v68 : Ref sig .tc := ⟨.hbm, 106, rfl⟩
abbrev main_v69 : Ref sig .tc := ⟨.hbm, 107, rfl⟩
abbrev main_c_11 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_12 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_13 : Ref sig .tc := ⟨.hbm, 118, rfl⟩
abbrev main_v78 : Ref sig .tc := ⟨.hbm, 119, rfl⟩
abbrev main_cst_14 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_15 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_16 : Ref sig .tc := ⟨.hbm, 142, rfl⟩
abbrev main_v99 : Ref sig .tc := ⟨.hbm, 143, rfl⟩
abbrev main_v100 : Ref sig .tc := ⟨.hbm, 144, rfl⟩
abbrev main_c_17 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_18 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_19 : Ref sig .tc := ⟨.hbm, 155, rfl⟩
abbrev main_v109 : Ref sig .tc := ⟨.hbm, 156, rfl⟩
abbrev main_cst_20 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_21 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_c_22 : Ref sig .tc := ⟨.hbm, 179, rfl⟩
abbrev main_v130 : Ref sig .tc := ⟨.hbm, 180, rfl⟩
abbrev main_v131 : Ref sig .tc := ⟨.hbm, 181, rfl⟩
abbrev main_c_23 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_c_24 : Ref sig .tc := ⟨.hbm, 188, rfl⟩
abbrev main_v137 : Ref sig .tc := ⟨.hbm, 189, rfl⟩
abbrev main_v138 : Ref sig .tc := ⟨.hbm, 190, rfl⟩
abbrev main_c_25 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_call2_cst : Ref sig .tc := ⟨.hbm, 203, rfl⟩
abbrev main_call2_v0 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  transposes_S128x256_S256x128_1_0 : S128x256.Transposes [1, 0] S256x128
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  dot_S50000x64_S64x128_S50000x128_1_0_0_1_n_n_wf : DotDims.WF S50000x64 S64x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KernelRun.lean ====
/-
  The idealized kernel's run with its result named.  Every weakly fair execution of the program terminates without a
  fault; in the final state every buffer that is never released holds what the last of the program's segments leaves
  in it — host operations applied in order, and each kernel region's arrays at what its grid's write-backs leave —, and
  the arguments are as launched.  Here that is said of the result buffer beside the arguments.
-/
import proofs.«117231_j34548716929465_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates, nothing faults, the result buffer ends at the last boundary's contents and the arguments
    end as launched. -/
theorem run_result : θ_run defs (onTc (τ := τ) (main (F := F))) ⟨m, fun _ => 0, ρ⟩ (fun r => ∀ c : Dev nD,
      r.2.mem ((c.tc : Thread nD τ).loc main_v117) = W11 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v117 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c)⟩)

end Cert.KernelIdeal.Result

end
-- ==== Proof.HostChains.lean ====
/-
  The host operations the idealized kernel's program applies around its kernel regions, as functions of arrays.

  An edge list is a [2, E] array of index words: row 0 the sources, row 1 the destinations.  For one edge type,
    * `cnt d` counts, per destination node, the edges that arrive there (ones scatter-added at the destination words);
    * `recip d` is the column of 1 / max(count, 1);
    * `norm s` is the source words made non-negative (a negative word gets the number of nodes added), as a column;
    * `agg x s d` gathers row `s e` of x for every edge e and scatter-adds it at row `d e`;
    * `mean x e` is that sum times the reciprocal column repeated along the row: the mean of the neighbours' rows.
  Which rows a gather reads, and where a scatter adds, depends on the words; nothing below looks inside either.
-/
import proofs.«117231_j34548716929465_2_alg».proof.KernelIdeal
import proofs.«117231_j34548716929465_2_alg».proof.Proof.Gen.KernelIdeal
import Idealize.ShloMosaic.PureOps.Ideal

noncomputable section

namespace Cert.KernelIdeal.Chains

open Cert.KernelIdeal Cert.KernelIdeal.Gen Idealize.ShloMosaic

/-- Arrays of a shape at the extended reals (long and short float format), of 32-bit words, of truth values. -/
abbrev FArr (s : Shape) : Type := (⟨s, .f32⟩ : BufTy).Contents (Elt Ideal)
abbrev HArr (s : Shape) : Type := (⟨s, .bf16⟩ : BufTy).Contents (Elt Ideal)
abbrev WArr (s : Shape) : Type := (⟨s, .i32⟩ : BufTy).Contents (Elt Ideal)
abbrev TArr (s : Shape) : Type := (⟨s, .i1⟩ : BufTy).Contents (Elt Ideal)

/-- Row 0 of an edge list of a million edges, as a vector of words. -/
def src (e : WArr S2x1000000) : WArr S1000000 :=
  shapeCast _ (extractStridedSlice S1x1000000 ![0, 0] e slices_S2x1000000_S1x1000000_0_0) shapeCasts_S1x1000000_S1000000

/-- Row 1 of it. -/
def dst (e : WArr S2x1000000) : WArr S1000000 :=
  shapeCast _ (extractStridedSlice S1x1000000 ![1, 0] e slices_S2x1000000_S1x1000000_1_0) shapeCasts_S1x1000000_S1000000

/-- The vector of ones over the nodes. -/
def ones : FArr S50000 :=
  broadcastInDim S50000 ![] bcast_S_S50000 (constant (F := Ideal) S_ .f32 0x3F800000#32)

/-- How many edges arrive at each node. -/
def cnt (d : WArr S1000000) : FArr S50000 :=
  Host.scatterAdd scatter_S50000_S1000000x1_S1000000_n_0_0_1
    (broadcastInDim S50000 ![] bcast_S_S50000 (constant (F := Ideal) S_ .f32 0x00000000#32))
    (broadcastInDim S1000000x1 ![0] bcast_S1000000_S1000000x1_0 d)
    (broadcastInDim S1000000 ![] bcast_S_S1000000 (constant (F := Ideal) S_ .f32 0x3F800000#32))

/-- The column of reciprocals of max(count, 1). -/
def recip (d : WArr S1000000) : FArr S50000x1 :=
  broadcastInDim S50000x1 ![0] bcast_S50000_S50000x1_0
    ((Host.divf (F := Ideal) (φ := .f32) : FArr S50000 → FArr S50000 → FArr S50000) ones ((maximumf (F := Ideal) (φ := .f32) : FArr S50000 → FArr S50000 → FArr S50000) (cnt d) ones))

/-- The source words made non-negative, as a column. -/
def norm (s : WArr S1000000) : WArr S1000000x1 :=
  broadcastInDim S1000000x1 ![0] bcast_S1000000_S1000000x1_0
    ((select : TArr S1000000 → WArr S1000000 → WArr S1000000 → WArr S1000000)
      ((cmpi .slt : WArr S1000000 → WArr S1000000 → TArr S1000000) s
        ((broadcastInDim S1000000 ![] bcast_S_S1000000 : WArr S_ → WArr S1000000) (constantI S_ 32 0#32)))
      ((addi : WArr S1000000 → WArr S1000000 → WArr S1000000) s
        ((broadcastInDim S1000000 ![] bcast_S_S1000000 : WArr S_ → WArr S1000000) (constantI S_ 32 50000#32))) s)

/-- The neighbours' rows of a 64-wide feature array, summed per destination. -/
def agg64 (x : FArr S50000x64) (s d : WArr S1000000) :
    FArr S50000x64 :=
  Host.scatterAdd scatter_S50000x64_S1000000x1_S1000000x64_1_0_0_1
    (broadcastInDim S50000x64 ![] bcast_S_S50000x64 (constant (F := Ideal) S_ .f32 0x00000000#32))
    (broadcastInDim S1000000x1 ![0] bcast_S1000000_S1000000x1_0 d)
    (Host.gather gather_S50000x64_S1000000x1_S1000000x64_1_0_n_n_0_1_164 x (norm s))

/-- Their mean, spelt as the sum times the reciprocal of the count. -/
def mean64 (x : FArr S50000x64) (e : WArr S2x1000000) :
    FArr S50000x64 :=
  (mulf (F := Ideal) (φ := .f32) : FArr S50000x64 → FArr S50000x64 → FArr S50000x64) (agg64 x (src e) (dst e))
    (broadcastInDim S50000x64 ![0, 1] bcast_S50000x1_S50000x64_0_1 (recip (dst e)))

/-- The same for a 128-wide array kept in the short float format: gathered, widened, summed. -/
def agg128 (h : HArr S50000x128) (s d : WArr S1000000) :
    FArr S50000x128 :=
  Host.scatterAdd scatter_S50000x128_S1000000x1_S1000000x128_1_0_0_1
    (broadcastInDim S50000x128 ![] bcast_S_S50000x128 (constant (F := Ideal) S_ .f32 0x00000000#32))
    (broadcastInDim S1000000x1 ![0] bcast_S1000000_S1000000x1_0 d)
    (((extf (F := Ideal) (φ := .bf16) .f32 · bitsLt_bf16_f32) : HArr S1000000x128 → FArr S1000000x128)
      (Host.gather gather_S50000x128_S1000000x1_S1000000x128_1_0_n_n_0_1_1128 h (norm s)))

def mean128 (h : HArr S50000x128) (s d : WArr S1000000)
    (r : FArr S50000x1) : FArr S50000x128 :=
  (mulf (F := Ideal) (φ := .f32) : FArr S50000x128 → FArr S50000x128 → FArr S50000x128) (agg128 h s d)
    (broadcastInDim S50000x128 ![0, 1] bcast_S50000x1_S50000x128_0_1 r)

end Cert.KernelIdeal.Chains

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«117231_j34548716929465_2_alg».proof.Proof.LibMatmul2
import proofs.«117231_j34548716929465_2_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«117231_j34548716929465_2_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.LibDenseLayers.lean ====
/-
  One layer of a graph-SAGE network with mean aggregation, entry by entry, on the extended reals.

  A layer takes the aggregated neighbour features a (N rows of K entries), the node features x (same shape), two
  weight matrices wl, wr (K rows of B entries) and a bias vector b (B entries); its value at (p, q) before the
  activation is

      pre a x wl wr b p q = ∑ₖ a(p,k)·wl(k,q) + ∑ₖ x(p,k)·wr(k,q) + b(q).

  A hidden layer takes the maximum of that with zero; the last layer is a log-softmax along each row: with
  M(p) the running maximum of row p of `pre` from −∞,  out(p,q) = (pre(p,q) − M(p)) − log ∑ₖ exp(pre(p,k) − M(p)).
  Both are stated as ONE function of the result index.  Then the two ways the programs spell these: a tile of rows
  computed by two matrix products into zero accumulators, their sum, a bias row repeated along the rows, and the
  activation (the tile form reads the bias as a one-row matrix); and the same on whole arrays with the host's
  products, sums and repetitions.  Only sums, products, maxima and differences occur, each applied in the same
  order on both sides, so no law of the extended reals beyond "the maximum of a bound with something at least that
  bound" is needed, and nothing has to be finite.
-/
import Idealize.ShloMosaic.PureOps.Ideal.Laws
import Idealize.ShloMosaic.Lib.ValueIdx
import Idealize.ShloMosaic.Lib.ValueLayout
import proofs.«117231_j34548716929465_2_alg».proof.Proof.LibEntryReads
import proofs.«117231_j34548716929465_2_alg».proof.Proof.LibHostReads

noncomputable section

open scoped BigOperators

namespace Cert.Sage

open Idealize.ShloMosaic Idealize.ShloMosaic.ValueIdx

variable {N K B : ℕ}

/-- The layer before its activation, at row p and column q. -/
def pre (a x : FVec Ideal ⟨2, ![N, K]⟩ .f32) (wl wr : FVec Ideal ⟨2, ![K, B]⟩ .f32) (b : FVec Ideal ⟨1, ![B]⟩ .f32)
    (p : Fin N) (q : Fin B) : EReal :=
  (∑ k : Fin K, a (ix2 p k) * wl (ix2 k q)) + (∑ k : Fin K, x (ix2 p k) * wr (ix2 k q)) + b (ix1 q)

/-- A hidden layer: the maximum of the pre-activation with zero, as one function of the result index. -/
def hidden (a x : FVec Ideal ⟨2, ![N, K]⟩ .f32) (wl wr : FVec Ideal ⟨2, ![K, B]⟩ .f32) (b : FVec Ideal ⟨1, ![B]⟩ .f32) :
    FVec Ideal ⟨2, ![N, B]⟩ .f32 := fun i =>
  max (pre a x wl wr b ⟨(i 0).val, idx2_lt0 i⟩ ⟨(i 1).val, idx2_lt1 i⟩) (Ideal.ofBits .f32 0x00000000#32)

/-- The running maximum of row p of the pre-activation, from −∞. -/
def rowTop (a x : FVec Ideal ⟨2, ![N, K]⟩ .f32) (wl wr : FVec Ideal ⟨2, ![K, B]⟩ .f32) (b : FVec Ideal ⟨1, ![B]⟩ .f32)
    (p : Fin N) : EReal :=
  (Finset.univ : Finset (Fin B)).fold max (Ideal.ofBits .f32 0xFF800000#32) (fun k => pre a x wl wr b p k)

/-- The last layer at row p and column q: the log-softmax of row p of the pre-activation. -/
def lsm (a x : FVec Ideal ⟨2, ![N, K]⟩ .f32) (wl wr : FVec Ideal ⟨2, ![K, B]⟩ .f32) (b : FVec Ideal ⟨1, ![B]⟩ .f32)
    (p : Fin N) (q : Fin B) : EReal :=
  (pre a x wl wr b p q - rowTop a x wl wr b p)
    - Ideal.log (∑ k : Fin B, Ideal.exp (pre a x wl wr b p k - rowTop a x wl wr b p))

/-- The last layer as one function of the result index. -/
def final (a x : FVec Ideal ⟨2, ![N, K]⟩ .f32) (wl wr : FVec Ideal ⟨2, ![K, B]⟩ .f32) (b : FVec Ideal ⟨1, ![B]⟩ .f32) :
    FVec Ideal ⟨2, ![N, B]⟩ .f32 := fun i =>
  lsm a x wl wr b ⟨(i 0).val, idx2_lt0 i⟩ ⟨(i 1).val, idx2_lt1 i⟩

theorem hidden_ix2 (a x : FVec Ideal ⟨2, ![N, K]⟩ .f32) (wl wr : FVec Ideal ⟨2, ![K, B]⟩ .f32) (b : FVec Ideal ⟨1, ![B]⟩ .f32)
    (p : Fin N) (q : Fin B) :
    hidden a x wl wr b (ix2 p q) = max (pre a x wl wr b p q) (Ideal.ofBits .f32 0x00000000#32) := rfl

theorem final_ix2 (a x : FVec Ideal ⟨2, ![N, K]⟩ .f32) (wl wr : FVec Ideal ⟨2, ![K, B]⟩ .f32) (b : FVec Ideal ⟨1, ![B]⟩ .f32)
    (p : Fin N) (q : Fin B) : final a x wl wr b (ix2 p q) = lsm a x wl wr b p q := rfl

/-- A one-row matrix read as a vector. -/
def rowOf (r : FVec Ideal ⟨2, ![1, B]⟩ .f32) : FVec Ideal ⟨1, ![B]⟩ .f32 := fun i =>
  r (ix2 (0 : Fin 1) (⟨(i 0).val, (i 0).isLt⟩ : Fin B))

theorem rowOf_ix1 (r : FVec Ideal ⟨2, ![1, B]⟩ .f32) (q : Fin B) : rowOf r (ix1 q) = r (ix2 (0 : Fin 1) q) := rfl

/-- A vector cast to a one-row matrix and read back as a vector is the vector. -/
theorem rowOf_shapeCast (v : FVec Ideal ⟨1, ![B]⟩ .f32) (h : (⟨1, ![B]⟩ : Shape).ShapeCasts ⟨2, ![1, B]⟩) :
    rowOf (shapeCast ⟨2, ![1, B]⟩ v h) = v := by
  funext i
  obtain ⟨q, rfl⟩ : ∃ q : Fin B, i = ix1 q := ⟨i 0, eq_ix1 i⟩
  exact shapeCast_a_1a_apply v h 0 q

/-! ## A tile of rows, as a kernel body computes it -/

/-- Two matrix products of row tiles (after any change of float format) into zero accumulators, added, plus a bias row
    repeated along the rows, at (p, q): the layer's pre-activation of the tiles. -/
theorem tile_pre (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    {φ : FTy} (a x : FVec Ideal ⟨2, ![N, K]⟩ φ) (wl wr : FVec Ideal ⟨2, ![K, B]⟩ φ) (r : FVec Ideal ⟨2, ![1, B]⟩ .f32)
    (hb : (⟨2, ![1, B]⟩ : Shape).Broadcasts ⟨2, ![N, B]⟩) (p : Fin N) (q : Fin B) :
    addf (addf (matmul D none a wl (constant ⟨2, ![N, B]⟩ .f32 0x00000000#32))
        (matmul D none x wr (constant ⟨2, ![N, B]⟩ .f32 0x00000000#32))) (broadcastTo ⟨2, ![N, B]⟩ r hb) (ix2 p q)
      = (∑ k : Fin K, a (ix2 p k) * wl (ix2 k q)) + (∑ k : Fin K, x (ix2 p k) * wr (ix2 k q)) + r (ix2 (0 : Fin 1) q) := by
  show (matmul D none a wl (constant ⟨2, ![N, B]⟩ .f32 0x00000000#32) (ix2 p q)
      + matmul D none x wr (constant ⟨2, ![N, B]⟩ .f32 0x00000000#32) (ix2 p q)) + broadcastTo ⟨2, ![N, B]⟩ r hb (ix2 p q) = _
  rw [Cert.Lib.matmul_plain_apply D wf hD a wl p q, Cert.Lib.matmul_plain_apply D wf hD x wr p q,
    broadcastTo_1b_ab_apply r hb p q]

/-- The last layer's tile: from the tile's pre-activation z, the row maximum kept as a column and repeated, the
    difference, its exponential summed along the row, the logarithm of that column repeated, and the second difference,
    at (p, q). -/
theorem tile_lsm (z : FVec Ideal ⟨2, ![N, B]⟩ .f32)
    (hred : (⟨2, ![N, B]⟩ : Shape).Reduces [1] ⟨1, ![N]⟩) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![N]⟩ : Shape).ShapeCasts ⟨2, ![N, 1]⟩) (hb : (⟨2, ![N, 1]⟩ : Shape).Broadcasts ⟨2, ![N, B]⟩)
    (p : Fin N) (q : Fin B) :
    subf (subf z (broadcastTo ⟨2, ![N, B]⟩ (shapeCast ⟨2, ![N, 1]⟩ (multiReduction .maximumf [1] ⟨1, ![N]⟩ z 0xFF800000#32 hred hφ hmax) hc) hb))
        (broadcastTo ⟨2, ![N, B]⟩ (log (shapeCast ⟨2, ![N, 1]⟩ (multiReduction .add [1] ⟨1, ![N]⟩
          (exp (subf z (broadcastTo ⟨2, ![N, B]⟩ (shapeCast ⟨2, ![N, 1]⟩ (multiReduction .maximumf [1] ⟨1, ![N]⟩ z 0xFF800000#32 hred hφ hmax) hc) hb)))
          0x00000000#32 hred hφ hadd) hc)) hb) (ix2 p q)
      = (z (ix2 p q) - (Finset.univ : Finset (Fin B)).fold max (Ideal.ofBits .f32 0xFF800000#32) (fun k => z (ix2 p k)))
        - Ideal.log (∑ k : Fin B, Ideal.exp (z (ix2 p k)
            - (Finset.univ : Finset (Fin B)).fold max (Ideal.ofBits .f32 0xFF800000#32) (fun k => z (ix2 p k)))) := by
  have hm : ∀ c : Fin B, broadcastTo ⟨2, ![N, B]⟩ (shapeCast ⟨2, ![N, 1]⟩ (multiReduction .maximumf [1] ⟨1, ![N]⟩ z 0xFF800000#32 hred hφ hmax) hc) hb (ix2 p c)
      = (Finset.univ : Finset (Fin B)).fold max (Ideal.ofBits .f32 0xFF800000#32) (fun k => z (ix2 p k)) :=
    fun c => Cert.Lib.rowMax_keepdims_apply z 0xFF800000#32 hred hφ hmax hc hb p c
  show (z (ix2 p q) - broadcastTo ⟨2, ![N, B]⟩ _ hb (ix2 p q)) - broadcastTo ⟨2, ![N, B]⟩ (log _) hb (ix2 p q) = _
  rw [hm q, Cert.Lib.broadcastTo_a1_ab_apply _ hb p q]
  show _ - Ideal.log (shapeCast ⟨2, ![N, 1]⟩ _ hc (ix2 p (0 : Fin 1))) = _
  rw [Cert.Lib.shapeCast_a_a1_apply _ hc p 0, Cert.Lib.rowSum_apply _ 0x00000000#32 hred hφ hadd p]
  refine congrArg (fun s => _ - Ideal.log s) (Finset.sum_congr rfl fun k _ => ?_)
  show Ideal.exp (z (ix2 p k) - broadcastTo ⟨2, ![N, B]⟩ _ hb (ix2 p k)) = _
  rw [hm k]

/-! ## The same on whole arrays, as the host computes it -/

/-- The host's two products, their sum and the bias vector repeated along the rows, at (p, q). -/
theorem host_pre (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (a x : FVec Ideal ⟨2, ![N, K]⟩ .f32) (wl wr : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) (p : Fin N) (q : Fin B) :
    addf (addf (Host.dotGeneral D none a wl) (Host.dotGeneral D none x wr))
        (broadcastInDim ⟨2, ![N, B]⟩ ![0, 1] h2 (broadcastInDim ⟨2, ![1, B]⟩ ![1] h1 b)) (ix2 p q)
      = pre a x wl wr b p q := by
  show (Host.dotGeneral D none a wl (ix2 p q) + Host.dotGeneral D none x wr (ix2 p q))
      + broadcastInDim ⟨2, ![N, B]⟩ ![0, 1] h2 (broadcastInDim ⟨2, ![1, B]⟩ ![1] h1 b) (ix2 p q) = _
  rw [Cert.Lib.dotGeneral_plain_apply D wf hD a wl p q, Cert.Lib.dotGeneral_plain_apply D wf hD x wr p q,
    Cert.Lib.bcast_vec_rows_apply b h1 h2 p q]
  rfl

/-- The maximum of a bound with a running maximum that starts from that bound is the running maximum. -/
theorem max_fold_start {ι : Type} (s : Finset ι) (b : EReal) (f : ι → EReal) :
    max b (s.fold max b f) = s.fold max b f :=
  max_eq_right ((Finset.le_fold_max b).mpr (Or.inl le_rfl))

/-! ## The network -/

/-- Three layers over features of one width — two hidden, the last a log-softmax — each fed the aggregation `agg`
    of the features it is given beside the features themselves. -/
def net {M D O : ℕ} (agg : FVec Ideal ⟨2, ![M, D]⟩ .f32 → FVec Ideal ⟨2, ![M, D]⟩ .f32)
    (x : FVec Ideal ⟨2, ![M, D]⟩ .f32) (w1l w1r : FVec Ideal ⟨2, ![D, D]⟩ .f32) (b1 : FVec Ideal ⟨1, ![D]⟩ .f32)
    (wml wmr : FVec Ideal ⟨2, ![D, D]⟩ .f32) (bm : FVec Ideal ⟨1, ![D]⟩ .f32)
    (w2l w2r : FVec Ideal ⟨2, ![D, O]⟩ .f32) (b2 : FVec Ideal ⟨1, ![O]⟩ .f32) : FVec Ideal ⟨2, ![M, O]⟩ .f32 :=
  final (agg (hidden (agg (hidden (agg x) x w1l w1r b1)) (hidden (agg x) x w1l w1r b1) wml wmr bm))
    (hidden (agg (hidden (agg x) x w1l w1r b1)) (hidden (agg x) x w1l w1r b1) wml wmr bm) w2l w2r b2

end Cert.Sage

end
-- ==== Proof.Layers.lean ====
/-
  The layers of a two-layer bipartite graph network with mean aggregation and an edge scorer, entry by entry, on the
  extended reals.

  A layer's value before any activation is `Cert.Sage.pre a x wl wr b p q = ∑ₖ a(p,k)·wl(k,q) + ∑ₖ x(p,k)·wr(k,q) + b(q)`:
  a the aggregated neighbour features, x the node's own features.  `linear` is that as an array (the second layer, no
  activation); `Cert.Sage.hidden` its maximum with zero (the first layer).  The scorer of an edge e takes the two
  end points' embeddings zu(e,·), zm(e,·), a hidden layer of them, and its inner product with one weight row plus a bias:

      score e = ∑_q max(pre zu zm wu wm b1 e q, 0) · w2(0,q) + b2(0).

  The mean of the neighbours divides an aggregated sum by the number of neighbours, at least one: a program may also
  multiply by the reciprocal of that number.  On the extended reals a · (1 / c) = a / c for every a as soon as c ≠ 0,
  because the quotient by a non-zero c IS the product with c's inverse; and c = max(n, 1) ≥ 1 is never zero.
-/
import Idealize.ShloMosaic.PureOps.Ideal.Laws
import Idealize.ShloMosaic.Lib.ValueIdx
import proofs.«117231_j34548716929465_2_alg».proof.Proof.LibDenseLayers

noncomputable section

open scoped BigOperators

namespace Cert.Layers

open Idealize.ShloMosaic Idealize.ShloMosaic.ValueIdx

variable {N K B : ℕ}

/-- A layer without activation, as one function of the result index. -/
def linear (a x : FVec Ideal ⟨2, ![N, K]⟩ .f32) (wl wr : FVec Ideal ⟨2, ![K, B]⟩ .f32) (b : FVec Ideal ⟨1, ![B]⟩ .f32) :
    FVec Ideal ⟨2, ![N, B]⟩ .f32 := fun i =>
  Cert.Sage.pre a x wl wr b ⟨(i 0).val, idx2_lt0 i⟩ ⟨(i 1).val, idx2_lt1 i⟩

theorem linear_ix2 (a x : FVec Ideal ⟨2, ![N, K]⟩ .f32) (wl wr : FVec Ideal ⟨2, ![K, B]⟩ .f32) (b : FVec Ideal ⟨1, ![B]⟩ .f32)
    (p : Fin N) (q : Fin B) : linear a x wl wr b (ix2 p q) = Cert.Sage.pre a x wl wr b p q := rfl

/-- The score of edge e: a hidden layer of the end points' embeddings against one weight row, plus a bias. -/
def score (zu zm : FVec Ideal ⟨2, ![N, K]⟩ .f32) (wu wm : FVec Ideal ⟨2, ![K, B]⟩ .f32) (b1 : FVec Ideal ⟨1, ![B]⟩ .f32)
    (w2 : FVec Ideal ⟨2, ![1, B]⟩ .f32) (b2 : FVec Ideal ⟨1, ![1]⟩ .f32) (e : Fin N) : EReal :=
  (∑ q : Fin B, max (Cert.Sage.pre zu zm wu wm b1 e q) (Ideal.ofBits .f32 0x00000000#32) * w2 (ix2 (0 : Fin 1) q))
    + b2 (ix1 (0 : Fin 1))

/-- The scores of all edges, as a vector. -/
def head (zu zm : FVec Ideal ⟨2, ![N, K]⟩ .f32) (wu wm : FVec Ideal ⟨2, ![K, B]⟩ .f32) (b1 : FVec Ideal ⟨1, ![B]⟩ .f32)
    (w2 : FVec Ideal ⟨2, ![1, B]⟩ .f32) (b2 : FVec Ideal ⟨1, ![1]⟩ .f32) : FVec Ideal ⟨1, ![N]⟩ .f32 := fun i =>
  score zu zm wu wm b1 w2 b2 ⟨(i 0).val, (i 0).isLt⟩

theorem head_ix1 (zu zm : FVec Ideal ⟨2, ![N, K]⟩ .f32) (wu wm : FVec Ideal ⟨2, ![K, B]⟩ .f32) (b1 : FVec Ideal ⟨1, ![B]⟩ .f32)
    (w2 : FVec Ideal ⟨2, ![1, B]⟩ .f32) (b2 : FVec Ideal ⟨1, ![1]⟩ .f32) (e : Fin N) :
    head zu zm wu wm b1 w2 b2 (ix1 e) = score zu zm wu wm b1 w2 b2 e := rfl

/-- The scorer's first weight matrix has 128 rows of 256 entries: the first 128 columns meet the first end point's
    embedding, the last 128 the second's.  Each half, transposed: entry (k, q) is the matrix at (q, k), or at (q, 128 + k). -/
def firstHalfT (w : FVec Ideal ⟨2, ![128, 256]⟩ .f32) : FVec Ideal ⟨2, ![128, 128]⟩ .f32 := fun i =>
  w (ix2 (⟨(i 1).val, idx2_lt1 i⟩ : Fin 128) (⟨(i 0).val, by have := idx2_lt0 i; omega⟩ : Fin 256))

def secondHalfT (w : FVec Ideal ⟨2, ![128, 256]⟩ .f32) : FVec Ideal ⟨2, ![128, 128]⟩ .f32 := fun i =>
  w (ix2 (⟨(i 1).val, idx2_lt1 i⟩ : Fin 128) (⟨128 + (i 0).val, by have := idx2_lt0 i; omega⟩ : Fin 256))

theorem firstHalfT_ix2 (w : FVec Ideal ⟨2, ![128, 256]⟩ .f32) (k q : Fin 128) :
    firstHalfT w (ix2 k q) = w (ix2 q (⟨k.val, by have := k.isLt; omega⟩ : Fin 256)) := rfl

theorem secondHalfT_ix2 (w : FVec Ideal ⟨2, ![128, 256]⟩ .f32) (k q : Fin 128) :
    secondHalfT w (ix2 k q) = w (ix2 q (⟨128 + k.val, by have := k.isLt; omega⟩ : Fin 256)) := rfl

/-- The float word of 1.0 is the real number one. -/
theorem one_f32 : Ideal.ofBits .f32 0x3F800000#32 = 1 := by
  simp [Ideal.ofBits, Ideal.ieee, -EReal.coe_mul]; norm_num

/-- Multiplying by the reciprocal of a number at least one is dividing by it, for every extended real. -/
theorem mul_recip (a c : EReal) (hc : (1 : EReal) ≤ c) : a * Ideal.div 1 c = Ideal.div a c := by
  have hne : c ≠ 0 := (lt_of_lt_of_le zero_lt_one hc).ne'
  rw [Ideal.div, if_neg hne, Ideal.div, if_neg hne, one_mul]

/-- The mean's two spellings at one entry: the count n against the word 1.0. -/
theorem mean_forms (a n : EReal) :
    a * Ideal.div (Ideal.ofBits .f32 0x3F800000#32) (max n (Ideal.ofBits .f32 0x3F800000#32))
      = Ideal.div a (max n (Ideal.ofBits .f32 0x3F800000#32)) := by
  rw [one_f32]
  exact mul_recip a _ (le_max_right n 1)

/-- The mean as arrays: the aggregated sums times the broadcast column of reciprocals of max(count, 1) is the aggregated
    sums divided by the broadcast column of max(count, 1) — entry (p, q) of either reads row p's count. -/
theorem mean_arrays {A n : ℕ} (agg : FVec Ideal ⟨2, ![A, n]⟩ .f32) (cnt : FVec Ideal ⟨1, ![A]⟩ .f32)
    (h0 : (⟨0, ![]⟩ : Shape).BroadcastsInDim ⟨1, ![A]⟩ ![])
    (h1 : (⟨1, ![A]⟩ : Shape).BroadcastsInDim ⟨2, ![A, 1]⟩ ![0])
    (h2 : (⟨2, ![A, 1]⟩ : Shape).BroadcastsInDim ⟨2, ![A, n]⟩ ![0, 1]) :
    mulf agg (broadcastInDim ⟨2, ![A, n]⟩ ![0, 1] h2 (broadcastInDim ⟨2, ![A, 1]⟩ ![0] h1
        (Host.divf (broadcastInDim ⟨1, ![A]⟩ ![] h0 (constant (F := Ideal) ⟨0, ![]⟩ .f32 0x3F800000#32))
          (maximumf cnt (broadcastInDim ⟨1, ![A]⟩ ![] h0 (constant (F := Ideal) ⟨0, ![]⟩ .f32 0x3F800000#32))))))
      = Host.divf agg (broadcastInDim ⟨2, ![A, n]⟩ ![0, 1] h2 (broadcastInDim ⟨2, ![A, 1]⟩ ![0] h1
          (maximumf cnt (broadcastInDim ⟨1, ![A]⟩ ![] h0 (constant (F := Ideal) ⟨0, ![]⟩ .f32 0x3F800000#32))))) := by
  funext i
  obtain ⟨p, q, rfl⟩ : ∃ (p : Fin A) (q : Fin n), i = ix2 p q := ⟨i 0, i 1, eq_ix2 i⟩
  show agg (ix2 p q) * broadcastInDim (s := ⟨2, ![A, 1]⟩) ⟨2, ![A, n]⟩ ![0, 1] h2 _ (ix2 p q)
      = Ideal.div (agg (ix2 p q)) (broadcastInDim (s := ⟨2, ![A, 1]⟩) ⟨2, ![A, n]⟩ ![0, 1] h2 _ (ix2 p q))
  rw [Cert.Lib.bcast_col_rows_apply, Cert.Lib.bcast_col_apply, Cert.Lib.bcast_col_rows_apply, Cert.Lib.bcast_col_apply]
  show agg (ix2 p q) * Ideal.div (broadcastInDim (s := ⟨0, ![]⟩) ⟨1, ![A]⟩ ![] h0 _ (ix1 p))
        (max (cnt (ix1 p)) (broadcastInDim (s := ⟨0, ![]⟩) ⟨1, ![A]⟩ ![] h0 _ (ix1 p)))
      = Ideal.div (agg (ix2 p q)) (max (cnt (ix1 p)) (broadcastInDim (s := ⟨0, ![]⟩) ⟨1, ![A]⟩ ![] h0 _ (ix1 p)))
  rw [Cert.Lib.bcast_scalar_apply]
  exact mean_forms _ _

end Cert.Layers

end
-- ==== Proof.Region0.lean ====
/-
  The first layer's kernel region (rows of the merchant side), as one array.

  The region's grid has 10 points; point t works on rows 5000·t … 5000·t + 4999: it fetches those rows of the aggregated
  features and of the node features, the two whole weight matrices and the bias row, and writes back those rows of the
  result.  Entry (p, q) of what it writes is the maximum with zero of

      ∑ₖ a(5000·t + p, k)·wl(k, q) + ∑ₖ x(5000·t + p, k)·wr(k, q) + r(0, q),

  which depends on row 5000·t + p of a and x only.  So the ten blocks are the restrictions of ONE array, the hidden
  layer `Cert.Sage.hidden a x wl wr (rowOf r)`, and they tile all 50000 rows: after the region the result buffer holds
  that array, whatever it held before.
-/
import proofs.«117231_j34548716929465_2_alg».proof.Proof.Gen.KernelIdeal.Frame
import proofs.«117231_j34548716929465_2_alg».proof.Proof.Layers
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One tile's result at (p, q): the two products, the bias row, the maximum with zero. -/
theorem tile_apply (x0 x1 : Vec Ideal S5000x64 .f32) (x2 x3 : Vec Ideal S64x128 .f32) (x4 : Vec Ideal S1x128 .f32)
    (p : Fin 5000) (q : Fin 128) :
    k0_pay1 (F := Ideal) x0 x1 x2 x3 x4 (ix2 p q)
      = max ((∑ k : Fin 64, x0 (ix2 p k) * x2 (ix2 k q)) + (∑ k : Fin 64, x1 (ix2 p k) * x3 (ix2 k q)) + x4 (ix2 (0 : Fin 1) q))
          (Ideal.ofBits .f32 0x00000000#32) := by
  unfold k0_pay1
  simp only [shapeCast_self]
  exact congrArg (fun z => max z (Ideal.ofBits .f32 0x00000000#32))
    (Cert.Sage.tile_pre dot_S5000x64_S64x128_S5000x128_1_0_0_1_n_n dot_S5000x64_S64x128_S5000x128_1_0_0_1_n_n.wf rfl
      (φ := .bf16) x0 x1 x2 x3 x4 broadcasts_S1x128_S5000x128 p q)

/-- Where the grid's points sit: the row blocks move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 10 := by have h := t.isLt; have hN : cfg0.N = 10 := N_0; omega

/-- Row p of point t's block is row 5000·t + p of the array. -/
def row (t : Fin cfg0.N) (p : Fin 5000) : Fin 50000 := ⟨t.val * 5000 + p.val, by have := t_lt t; have := p.isLt; omega⟩

theorem blk0 (c : Dev nD) (t : Fin cfg0.N) (p : Fin 5000) (k : Fin 64) :
    iblk0 V c 0 t (ix2 p k) = V c main_v37 (ix2 (row t p) k) := by
  obtain ⟨e0, e1, -⟩ := idx_facts t
  show V c main_v37 (((cfg0.win 0).blk t).view.emb (ix2 p k)) = V c main_v37 (ix2 (row t p) k)
  refine congrArg (V c main_v37) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

theorem blk1 (c : Dev nD) (t : Fin cfg0.N) (p : Fin 5000) (k : Fin 64) :
    iblk0 V c 1 t (ix2 p k) = V c main_arg1 (ix2 (row t p) k) := by
  obtain ⟨-, -, e0, e1, -⟩ := idx_facts t
  show V c main_arg1 (((cfg0.win 1).blk t).view.emb (ix2 p k)) = V c main_arg1 (ix2 (row t p) k)
  refine congrArg (V c main_arg1) (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * k.val = k.val; omega

theorem blk2 (c : Dev nD) (t : Fin cfg0.N) (k : Fin 64) (q : Fin 128) :
    iblk0 V c 2 t (ix2 k q) = V c main_v50 (ix2 k q) := by
  obtain ⟨-, -, -, -, e0, e1, -⟩ := idx_facts t
  show V c main_v50 (((cfg0.win 2).blk t).view.emb (ix2 k q)) = V c main_v50 (ix2 k q)
  refine congrArg (V c main_v50) (funext fun a => Fin.ext ?_)
  match a with
  | ⟨0, _⟩ => show win0_2.index t (0 : Fin 2) * 64 + 1 * k.val = k.val; omega
  | ⟨1, _⟩ => show win0_2.index t (1 : Fin 2) * 128 + 1 * q.val = q.val; omega

theorem blk3 (c : Dev nD) (t : Fin cfg0.N) (k : Fin 64) (q : Fin 128) :
    iblk0 V c 3 t (ix2 k q) = V c main_v51 (ix2 k q) := by
  obtain ⟨-, -, -, -, -, -, e0, e1, -⟩ := idx_facts t
  show V c main_v51 (((cfg0.win 3).blk t).view.emb (ix2 k q)) = V c main_v51 (ix2 k q)
  refine congrArg (V c main_v51) (funext fun a => Fin.ext ?_)
  match a with
  | ⟨0, _⟩ => show win0_3.index t (0 : Fin 2) * 64 + 1 * k.val = k.val; omega
  | ⟨1, _⟩ => show win0_3.index t (1 : Fin 2) * 128 + 1 * q.val = q.val; omega

theorem blk4 (c : Dev nD) (t : Fin cfg0.N) (q : Fin 128) :
    iblk0 V c 4 t (ix2 (0 : Fin 1) q) = V c main_v52 (ix2 (0 : Fin 1) q) := by
  obtain ⟨-, -, -, -, -, -, -, -, e0, e1, -⟩ := idx_facts t
  show V c main_v52 (((cfg0.win 4).blk t).view.emb (ix2 (0 : Fin 1) q)) = V c main_v52 (ix2 (0 : Fin 1) q)
  refine congrArg (V c main_v52) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

theorem emb5 (t : Fin cfg0.N) (p : Fin 5000) (q : Fin 128) :
    ((cfg0.win 5).blk t).view.emb (ix2 p q) = ix2 (row t p) q := by
  obtain ⟨-, -, -, -, -, -, -, -, -, -, e0, e1⟩ := idx_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- The array the region leaves: the hidden layer of the arrays it finds. -/
abbrev G (c : Dev nD) : S50000x128.Idx → Elt Ideal .bf16 :=
  Cert.Sage.hidden (N := 50000) (K := 64) (B := 128) (V c main_v37) (V c main_arg1) (V c main_v50) (V c main_v51)
    (Cert.Sage.rowOf (V c main_v52))

/-- What point t writes back is block t of that array. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  funext j
  have hj0 : (j 0).val < 5000 := (j 0).isLt
  have hj1 : (j 1).val < 128 := (j 1).isLt
  have ej : j = ix2 (⟨(j 0).val, hj0⟩ : Fin 5000) (⟨(j 1).val, hj1⟩ : Fin 128) := eq_ix2 (n0 := 5000) (n1 := 128) j
  refine (congrArg (k0_pay1 (F := Ideal) (iblk0 V c 0 t) (iblk0 V c 1 t) (iblk0 V c 2 t) (iblk0 V c 3 t) (iblk0 V c 4 t)) ej).trans ?_
  refine (tile_apply (iblk0 V c 0 t) (iblk0 V c 1 t) (iblk0 V c 2 t) (iblk0 V c 3 t) (iblk0 V c 4 t) ⟨(j 0).val, hj0⟩ ⟨(j 1).val, hj1⟩).trans ?_
  show _ = G V c (((cfg0.win 5).blk t).view.emb j)
  rw [show ((cfg0.win 5).blk t).view.emb j = ((cfg0.win 5).blk t).view.emb (ix2 (⟨(j 0).val, hj0⟩ : Fin 5000) (⟨(j 1).val, hj1⟩ : Fin 128)) from congrArg _ ej,
    emb5 t ⟨(j 0).val, hj0⟩ ⟨(j 1).val, hj1⟩]
  show _ = max (Cert.Sage.pre _ _ _ _ _ (row t ⟨(j 0).val, hj0⟩) ⟨(j 1).val, hj1⟩) (Ideal.ofBits .f32 0x00000000#32)
  unfold Cert.Sage.pre
  rw [blk4 V c t ⟨(j 1).val, hj1⟩, Cert.Sage.rowOf_ix1]
  simp only [blk0 V c t, blk1 V c t, blk2 V c t, blk3 V c t]

theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v53).slice (win0_5.rect t)).set ↔ _
  rw [View.set_slice_whole, Rect.mem_set_unit]
  exact Iff.rfl

/-- Every row is in some point's block: row r in point r / 5000's. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by omega⟩
  obtain ⟨-, -, -, -, -, -, -, -, -, -, e0, e1⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the region its result array is the hidden layer of the arrays the region found. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.Entry0.lean ====
/-
  The idealized kernel's program up to its first kernel region.

  Before region 0 the host operations have written, from the arguments alone: the mean of each merchant's neighbours'
  rows (the users' rows gathered along the edges, summed per merchant, times the reciprocal of the neighbour count), the
  two weight matrices transposed, and the bias as a one-row matrix.  Region 0 turns these and the merchants' own rows
  into the hidden layer (`Region0.final`): that is what its result buffer holds afterwards.
-/
import proofs.«117231_j34548716929465_2_alg».proof.Proof.Gen.KernelIdeal.Frame
import proofs.«117231_j34548716929465_2_alg».proof.Proof.HostChains
import proofs.«117231_j34548716929465_2_alg».proof.Proof.Region0
import Idealize.ShloMosaic.Lib.StableHlo.Run

set_option maxRecDepth 16384

noncomputable section

namespace Cert.KernelIdeal.Peel

open Cert.KernelIdeal Cert.KernelIdeal.Gen Cert.KernelIdeal.Chains
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer no operation of a host stretch writes holds after the stretch what it held before. -/
local macro "skip_host " ops:ident : tactic => `(tactic|
  refine (StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- A buffer that is none of a region's arrays holds after the region what it held before. -/
local macro "skip_region " lem:ident : tactic => `(tactic| refine ($lem:ident _ _ _ _ (by decide)).trans ?_)

/-! ## What region 0 finds -/

set_option maxHeartbeats 40000000 in
theorem V1_v37 (c : Dev nD) : V1 m ρ c main_v37 = mean64 (m ((c : Thread nD τ).loc main_arg0)) (m ((c : Thread nD τ).loc main_arg2)) := by
  show StableHlo.after hostOps0 (W0 m ρ c) (Proc.devRef .tc main_v37) = _
  after_results
  rfl

theorem V1_arg1 (c : Dev nD) : V1 m ρ c main_arg1 = (m ((c : Thread nD τ).loc main_arg1)) := by
  show StableHlo.after hostOps0 (W0 m ρ c) (Proc.devRef .tc main_arg1) = _
  skip_host hostOps0
  rfl

set_option maxHeartbeats 40000000 in
theorem V1_v50 (c : Dev nD) :
    V1 m ρ c main_v50 = transpose S64x128 [1, 0] (m ((c : Thread nD τ).loc main_arg5)) transposes_S128x64_S64x128_1_0 := by
  show StableHlo.after hostOps0 (W0 m ρ c) (Proc.devRef .tc main_v50) = _
  after_results

set_option maxHeartbeats 40000000 in
theorem V1_v51 (c : Dev nD) :
    V1 m ρ c main_v51 = transpose S64x128 [1, 0] (m ((c : Thread nD τ).loc main_arg7)) transposes_S128x64_S64x128_1_0 := by
  show StableHlo.after hostOps0 (W0 m ρ c) (Proc.devRef .tc main_v51) = _
  after_results

set_option maxHeartbeats 40000000 in
theorem V1_v52 (c : Dev nD) : V1 m ρ c main_v52 = shapeCast S1x128 (m ((c : Thread nD τ).loc main_arg6)) shapeCasts_S128_S1x128 := by
  show StableHlo.after hostOps0 (W0 m ρ c) (Proc.devRef .tc main_v52) = _
  after_results
  rfl

/-! ## What region 0 leaves -/

/-- The merchants' hidden layer. -/
theorem hm (c : Dev nD) :
    W2 m ρ c (Proc.devRef .tc main_v53)
      = Cert.Sage.hidden (N := 50000) (K := 64) (B := 128) (mean64 (m ((c : Thread nD τ).loc main_arg0)) (m ((c : Thread nD τ).loc main_arg2))) (m ((c : Thread nD τ).loc main_arg1))
          (transpose S64x128 [1, 0] (m ((c : Thread nD τ).loc main_arg5)) transposes_S128x64_S64x128_1_0)
          (transpose S64x128 [1, 0] (m ((c : Thread nD τ).loc main_arg7)) transposes_S128x64_S64x128_1_0) (m ((c : Thread nD τ).loc main_arg6)) := by
  refine (W2_arr m ρ c 5).trans ?_
  rw [Region0.final]
  show Cert.Sage.hidden (N := 50000) (K := 64) (B := 128) (V1 m ρ c main_v37) (V1 m ρ c main_arg1) (V1 m ρ c main_v50)
      (V1 m ρ c main_v51) (Cert.Sage.rowOf (V1 m ρ c main_v52)) = _
  rw [V1_v37, V1_arg1, V1_v50, V1_v51, V1_v52, Cert.Sage.rowOf_shapeCast]

end Cert.KernelIdeal.Peel

end
-- ==== Proof.Region1.lean ====
/-
  The first layer's second kernel region (rows of the user side), as one array.

  The region's grid has 10 points; point t works on rows 5000·t … 5000·t + 4999: it fetches those rows of the aggregated
  features and of the node features, the two whole weight matrices and the bias row, and writes back those rows of the
  result.  Entry (p, q) of what it writes is the maximum with zero of

      ∑ₖ a(5000·t + p, k)·wl(k, q) + ∑ₖ x(5000·t + p, k)·wr(k, q) + r(0, q),

  which depends on row 5000·t + p of a and x only.  So the ten blocks are the restrictions of ONE array, the hidden
  layer `Cert.Sage.hidden a x wl wr (rowOf r)`, and they tile all 50000 rows: after the region the result buffer holds
  that array, whatever it held before.
-/
import proofs.«117231_j34548716929465_2_alg».proof.Proof.Gen.KernelIdeal.Frame
import proofs.«117231_j34548716929465_2_alg».proof.Proof.Layers
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One tile's result at (p, q): the two products, the bias row, the maximum with zero. -/
theorem tile_apply (x0 x1 : Vec Ideal S5000x64 .f32) (x2 x3 : Vec Ideal S64x128 .f32) (x4 : Vec Ideal S1x128 .f32)
    (p : Fin 5000) (q : Fin 128) :
    k1_pay1 (F := Ideal) x0 x1 x2 x3 x4 (ix2 p q)
      = max ((∑ k : Fin 64, x0 (ix2 p k) * x2 (ix2 k q)) + (∑ k : Fin 64, x1 (ix2 p k) * x3 (ix2 k q)) + x4 (ix2 (0 : Fin 1) q))
          (Ideal.ofBits .f32 0x00000000#32) := by
  unfold k1_pay1
  simp only [shapeCast_self]
  exact congrArg (fun z => max z (Ideal.ofBits .f32 0x00000000#32))
    (Cert.Sage.tile_pre dot_S5000x64_S64x128_S5000x128_1_0_0_1_n_n dot_S5000x64_S64x128_S5000x128_1_0_0_1_n_n.wf rfl
      (φ := .bf16) x0 x1 x2 x3 x4 broadcasts_S1x128_S5000x128 p q)

/-- Where the grid's points sit: the row blocks move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 10 := by have h := t.isLt; have hN : cfg1.N = 10 := N_1; omega

/-- Row p of point t's block is row 5000·t + p of the array. -/
def row (t : Fin cfg1.N) (p : Fin 5000) : Fin 50000 := ⟨t.val * 5000 + p.val, by have := t_lt t; have := p.isLt; omega⟩

theorem blk0 (c : Dev nD) (t : Fin cfg1.N) (p : Fin 5000) (k : Fin 64) :
    iblk1 V c 0 t (ix2 p k) = V c main_v49 (ix2 (row t p) k) := by
  obtain ⟨e0, e1, -⟩ := idx_facts t
  show V c main_v49 (((cfg1.win 0).blk t).view.emb (ix2 p k)) = V c main_v49 (ix2 (row t p) k)
  refine congrArg (V c main_v49) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

theorem blk1 (c : Dev nD) (t : Fin cfg1.N) (p : Fin 5000) (k : Fin 64) :
    iblk1 V c 1 t (ix2 p k) = V c main_arg0 (ix2 (row t p) k) := by
  obtain ⟨-, -, e0, e1, -⟩ := idx_facts t
  show V c main_arg0 (((cfg1.win 1).blk t).view.emb (ix2 p k)) = V c main_arg0 (ix2 (row t p) k)
  refine congrArg (V c main_arg0) (funext fun a => Fin.ext ?_)
  match a with
  | ⟨0, _⟩ => show win1_1.index t (0 : Fin 2) * 5000 + 1 * p.val = t.val * 5000 + p.val; omega
  | ⟨1, _⟩ => show win1_1.index t (1 : Fin 2) * 64 + 1 * k.val = k.val; omega

theorem blk2 (c : Dev nD) (t : Fin cfg1.N) (k : Fin 64) (q : Fin 128) :
    iblk1 V c 2 t (ix2 k q) = V c main_v54 (ix2 k q) := by
  obtain ⟨-, -, -, -, e0, e1, -⟩ := idx_facts t
  show V c main_v54 (((cfg1.win 2).blk t).view.emb (ix2 k q)) = V c main_v54 (ix2 k q)
  refine congrArg (V c main_v54) (funext fun a => Fin.ext ?_)
  match a with
  | ⟨0, _⟩ => show win1_2.index t (0 : Fin 2) * 64 + 1 * k.val = k.val; omega
  | ⟨1, _⟩ => show win1_2.index t (1 : Fin 2) * 128 + 1 * q.val = q.val; omega

theorem blk3 (c : Dev nD) (t : Fin cfg1.N) (k : Fin 64) (q : Fin 128) :
    iblk1 V c 3 t (ix2 k q) = V c main_v55 (ix2 k q) := by
  obtain ⟨-, -, -, -, -, -, e0, e1, -⟩ := idx_facts t
  show V c main_v55 (((cfg1.win 3).blk t).view.emb (ix2 k q)) = V c main_v55 (ix2 k q)
  refine congrArg (V c main_v55) (funext fun a => Fin.ext ?_)
  match a with
  | ⟨0, _⟩ => show win1_3.index t (0 : Fin 2) * 64 + 1 * k.val = k.val; omega
  | ⟨1, _⟩ => show win1_3.index t (1 : Fin 2) * 128 + 1 * q.val = q.val; omega

theorem blk4 (c : Dev nD) (t : Fin cfg1.N) (q : Fin 128) :
    iblk1 V c 4 t (ix2 (0 : Fin 1) q) = V c main_v56 (ix2 (0 : Fin 1) q) := by
  obtain ⟨-, -, -, -, -, -, -, -, e0, e1, -⟩ := idx_facts t
  show V c main_v56 (((cfg1.win 4).blk t).view.emb (ix2 (0 : Fin 1) q)) = V c main_v56 (ix2 (0 : Fin 1) q)
  refine congrArg (V c main_v56) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

theorem emb5 (t : Fin cfg1.N) (p : Fin 5000) (q : Fin 128) :
    ((cfg1.win 5).blk t).view.emb (ix2 p q) = ix2 (row t p) q := by
  obtain ⟨-, -, -, -, -, -, -, -, -, -, e0, e1⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 128 + 1 * q.val = q.val; omega

/-- The array the region leaves: the hidden layer of the arrays it finds. -/
abbrev G (c : Dev nD) : S50000x128.Idx → Elt Ideal .bf16 :=
  Cert.Sage.hidden (N := 50000) (K := 64) (B := 128) (V c main_v49) (V c main_arg0) (V c main_v54) (V c main_v55)
    (Cert.Sage.rowOf (V c main_v56))

/-- What point t writes back is block t of that array. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x128) hz, View.ld_unit_zero (S := S1x128) hz]
  funext j
  have hj0 : (j 0).val < 5000 := (j 0).isLt
  have hj1 : (j 1).val < 128 := (j 1).isLt
  have ej : j = ix2 (⟨(j 0).val, hj0⟩ : Fin 5000) (⟨(j 1).val, hj1⟩ : Fin 128) := eq_ix2 (n0 := 5000) (n1 := 128) j
  refine (congrArg (k1_pay1 (F := Ideal) (iblk1 V c 0 t) (iblk1 V c 1 t) (iblk1 V c 2 t) (iblk1 V c 3 t) (iblk1 V c 4 t)) ej).trans ?_
  refine (tile_apply (iblk1 V c 0 t) (iblk1 V c 1 t) (iblk1 V c 2 t) (iblk1 V c 3 t) (iblk1 V c 4 t) ⟨(j 0).val, hj0⟩ ⟨(j 1).val, hj1⟩).trans ?_
  show _ = G V c (((cfg1.win 5).blk t).view.emb j)
  rw [show ((cfg1.win 5).blk t).view.emb j = ((cfg1.win 5).blk t).view.emb (ix2 (⟨(j 0).val, hj0⟩ : Fin 5000) (⟨(j 1).val, hj1⟩ : Fin 128)) from congrArg _ ej,
    emb5 t ⟨(j 0).val, hj0⟩ ⟨(j 1).val, hj1⟩]
  show _ = max (Cert.Sage.pre _ _ _ _ _ (row t ⟨(j 0).val, hj0⟩) ⟨(j 1).val, hj1⟩) (Ideal.ofBits .f32 0x00000000#32)
  unfold Cert.Sage.pre
  rw [blk4 V c t ⟨(j 1).val, hj1⟩, Cert.Sage.rowOf_ix1]
  simp only [blk0 V c t, blk1 V c t, blk2 V c t, blk3 V c t]

theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v57).slice (win1_5.rect t)).set ↔ _
  rw [View.set_slice_whole, Rect.mem_set_unit]
  exact Iff.rfl

/-- Every row is in some point's block: row r in point r / 5000's. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by omega⟩
  obtain ⟨-, -, -, -, -, -, -, -, -, -, e0, e1⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the region its result array is the hidden layer of the arrays the region found. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.Entry1.lean ====
/-
  The idealized kernel's program from its first kernel region to its second.

  Region 1 is the first layer on the users' side.  The users' mean of neighbours was written by the first host stretch,
  before region 0, and nothing in between writes it; the three host operations between the regions transpose the two
  weight matrices and recast the bias.  So region 1 finds exactly the users' counterparts of what region 0 found, and
  leaves the users' hidden layer.
-/
import proofs.«117231_j34548716929465_2_alg».proof.Proof.Gen.KernelIdeal.Frame
import proofs.«117231_j34548716929465_2_alg».proof.Proof.HostChains
import proofs.«117231_j34548716929465_2_alg».proof.Proof.Region1
import Idealize.ShloMosaic.Lib.StableHlo.Run

set_option maxRecDepth 16384

noncomputable section

namespace Cert.KernelIdeal.Peel

open Cert.KernelIdeal Cert.KernelIdeal.Gen Cert.KernelIdeal.Chains
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer no operation of a host stretch writes holds after the stretch what it held before. -/
local macro "skip_host " ops:ident : tactic => `(tactic|
  refine (StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- A buffer that is none of a region's arrays holds after the region what it held before. -/
local macro "skip_region " lem:ident : tactic => `(tactic| refine ($lem:ident _ _ _ _ (by decide)).trans ?_)

/-! ## What the first host stretch left, still there -/

set_option maxHeartbeats 40000000 in
theorem W1_v49 (c : Dev nD) : W1 m ρ c (Proc.devRef .tc main_v49) = mean64 (m ((c : Thread nD τ).loc main_arg1)) (m ((c : Thread nD τ).loc main_arg3)) := by
  show StableHlo.after hostOps0 (W0 m ρ c) (Proc.devRef .tc main_v49) = _
  after_results
  rfl

theorem W2_arg8 (c : Dev nD) : W2 m ρ c (Proc.devRef .tc main_arg8) = (m ((c : Thread nD τ).loc main_arg8)) := by
  skip_region W2_of_ne
  show StableHlo.after hostOps0 (W0 m ρ c) (Proc.devRef .tc main_arg8) = _
  skip_host hostOps0
  rfl

theorem W2_arg9 (c : Dev nD) : W2 m ρ c (Proc.devRef .tc main_arg9) = (m ((c : Thread nD τ).loc main_arg9)) := by
  skip_region W2_of_ne
  show StableHlo.after hostOps0 (W0 m ρ c) (Proc.devRef .tc main_arg9) = _
  skip_host hostOps0
  rfl

theorem W2_arg10 (c : Dev nD) : W2 m ρ c (Proc.devRef .tc main_arg10) = (m ((c : Thread nD τ).loc main_arg10)) := by
  skip_region W2_of_ne
  show StableHlo.after hostOps0 (W0 m ρ c) (Proc.devRef .tc main_arg10) = _
  skip_host hostOps0
  rfl

/-! ## What region 1 finds -/

theorem V3_v49 (c : Dev nD) : V3 m ρ c main_v49 = mean64 (m ((c : Thread nD τ).loc main_arg1)) (m ((c : Thread nD τ).loc main_arg3)) := by
  show StableHlo.after hostOps1 (W2 m ρ c) (Proc.devRef .tc main_v49) = _
  skip_host hostOps1
  skip_region W2_of_ne
  exact W1_v49 m ρ c

theorem V3_arg0 (c : Dev nD) : V3 m ρ c main_arg0 = (m ((c : Thread nD τ).loc main_arg0)) := by
  show StableHlo.after hostOps1 (W2 m ρ c) (Proc.devRef .tc main_arg0) = _
  skip_host hostOps1
  skip_region W2_of_ne
  show StableHlo.after hostOps0 (W0 m ρ c) (Proc.devRef .tc main_arg0) = _
  skip_host hostOps0
  rfl

theorem V3_v54 (c : Dev nD) :
    V3 m ρ c main_v54 = transpose S64x128 [1, 0] (m ((c : Thread nD τ).loc main_arg8)) transposes_S128x64_S64x128_1_0 := by
  show StableHlo.after hostOps1 (W2 m ρ c) (Proc.devRef .tc main_v54) = _
  after_results
  rw [W2_arg8]

theorem V3_v55 (c : Dev nD) :
    V3 m ρ c main_v55 = transpose S64x128 [1, 0] (m ((c : Thread nD τ).loc main_arg10)) transposes_S128x64_S64x128_1_0 := by
  show StableHlo.after hostOps1 (W2 m ρ c) (Proc.devRef .tc main_v55) = _
  after_results
  rw [W2_arg10]

theorem V3_v56 (c : Dev nD) : V3 m ρ c main_v56 = shapeCast S1x128 (m ((c : Thread nD τ).loc main_arg9)) shapeCasts_S128_S1x128 := by
  show StableHlo.after hostOps1 (W2 m ρ c) (Proc.devRef .tc main_v56) = _
  after_results
  rw [W2_arg9]
  rfl

/-! ## What region 1 leaves -/

/-- The users' hidden layer. -/
theorem hu (c : Dev nD) :
    W4 m ρ c (Proc.devRef .tc main_v57)
      = Cert.Sage.hidden (N := 50000) (K := 64) (B := 128) (mean64 (m ((c : Thread nD τ).loc main_arg1)) (m ((c : Thread nD τ).loc main_arg3))) (m ((c : Thread nD τ).loc main_arg0))
          (transpose S64x128 [1, 0] (m ((c : Thread nD τ).loc main_arg8)) transposes_S128x64_S64x128_1_0)
          (transpose S64x128 [1, 0] (m ((c : Thread nD τ).loc main_arg10)) transposes_S128x64_S64x128_1_0) (m ((c : Thread nD τ).loc main_arg9)) := by
  refine (W4_arr m ρ c 5).trans ?_
  rw [Region1.final]
  show Cert.Sage.hidden (N := 50000) (K := 64) (B := 128) (V3 m ρ c main_v49) (V3 m ρ c main_arg0) (V3 m ρ c main_v54)
      (V3 m ρ c main_v55) (Cert.Sage.rowOf (V3 m ρ c main_v56)) = _
  rw [V3_v49, V3_arg0, V3_v54, V3_v55, V3_v56, Cert.Sage.rowOf_shapeCast]

end Cert.KernelIdeal.Peel

end
-- ==== Proof.Region2.lean ====
/-
  The second layer's first kernel region, as one array.

  The region's grid has 10 points; point t works on rows 5000·t … 5000·t + 4999: it fetches those rows of the aggregated
  hidden features and of the nodes' own hidden features, the two whole 128 × 128 weight matrices and the bias row, and
  writes back those rows of the result.  Entry (p, q) of what it writes is

      ∑ₖ a(5000·t + p, k)·wl(k, q) + ∑ₖ x(5000·t + p, k)·wr(k, q) + r(0, q)

  (no activation in this layer), which depends on row 5000·t + p of a and x only.  So the ten blocks are the restrictions
  of ONE array, `Cert.Layers.linear a x wl wr (rowOf r)`, and they tile all 50000 rows.
-/
import proofs.«117231_j34548716929465_2_alg».proof.Proof.Gen.KernelIdeal.Frame
import proofs.«117231_j34548716929465_2_alg».proof.Proof.Layers
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One tile's result at (p, q): the two products and the bias row. -/
theorem tile_apply (x0 : Vec Ideal S5000x128 .f32) (x1 : Vec Ideal S5000x128 .bf16) (x2 x3 : Vec Ideal S128x128 .f32) (x4 : Vec Ideal S1x128 .f32)
    (p : Fin 5000) (q : Fin 128) :
    k2_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k2_pay1
  simp only [shapeCast_self]
  exact (Cert.Sage.tile_pre dot_S5000x128_S128x128_S5000x128_1_0_0_1_n_n dot_S5000x128_S128x128_S5000x128_1_0_0_1_n_n.wf rfl
      (φ := .bf16) x0 x1 x2 x3 x4 broadcasts_S1x128_S5000x128 p q)

/-- Where the grid's points sit: the row blocks move with the point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 10 := by have h := t.isLt; have hN : cfg2.N = 10 := N_2; omega

/-- Row p of point t's block is row 5000·t + p of the array. -/
def row (t : Fin cfg2.N) (p : Fin 5000) : Fin 50000 := ⟨t.val * 5000 + p.val, by have := t_lt t; have := p.isLt; omega⟩

theorem blk0 (c : Dev nD) (t : Fin cfg2.N) (p : Fin 5000) (k : Fin 128) :
    iblk2 V c 0 t (ix2 p k) = V c main_v70 (ix2 (row t p) k) := by
  obtain ⟨e0, e1, -⟩ := idx_facts t
  show V c main_v70 (((cfg2.win 0).blk t).view.emb (ix2 p k)) = V c main_v70 (ix2 (row t p) k)
  refine congrArg (V c main_v70) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

theorem blk1 (c : Dev nD) (t : Fin cfg2.N) (p : Fin 5000) (k : Fin 128) :
    iblk2 V c 1 t (ix2 p k) = V c main_v53 (ix2 (row t p) k) := by
  obtain ⟨-, -, e0, e1, -⟩ := idx_facts t
  show V c main_v53 (((cfg2.win 1).blk t).view.emb (ix2 p k)) = V c main_v53 (ix2 (row t p) k)
  refine congrArg (V c main_v53) (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

theorem blk2 (c : Dev nD) (t : Fin cfg2.N) (k : Fin 128) (q : Fin 128) :
    iblk2 V c 2 t (ix2 k q) = V c main_v84 (ix2 k q) := by
  obtain ⟨-, -, -, -, e0, e1, -⟩ := idx_facts t
  show V c main_v84 (((cfg2.win 2).blk t).view.emb (ix2 k q)) = V c main_v84 (ix2 k q)
  refine congrArg (V c main_v84) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

theorem blk3 (c : Dev nD) (t : Fin cfg2.N) (k : Fin 128) (q : Fin 128) :
    iblk2 V c 3 t (ix2 k q) = V c main_v85 (ix2 k q) := by
  obtain ⟨-, -, -, -, -, -, e0, e1, -⟩ := idx_facts t
  show V c main_v85 (((cfg2.win 3).blk t).view.emb (ix2 k q)) = V c main_v85 (ix2 k q)
  refine congrArg (V c main_v85) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

theorem blk4 (c : Dev nD) (t : Fin cfg2.N) (q : Fin 128) :
    iblk2 V c 4 t (ix2 (0 : Fin 1) q) = V c main_v86 (ix2 (0 : Fin 1) q) := by
  obtain ⟨-, -, -, -, -, -, -, -, e0, e1, -⟩ := idx_facts t
  show V c main_v86 (((cfg2.win 4).blk t).view.emb (ix2 (0 : Fin 1) q)) = V c main_v86 (ix2 (0 : Fin 1) q)
  refine congrArg (V c main_v86) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

theorem emb5 (t : Fin cfg2.N) (p : Fin 5000) (q : Fin 128) :
    ((cfg2.win 5).blk t).view.emb (ix2 p q) = ix2 (row t p) q := by
  obtain ⟨-, -, -, -, -, -, -, -, -, -, e0, e1⟩ := idx_facts t
  refine funext fun a => Fin.ext ?_
  match a with
  | ⟨0, _⟩ => show win2_5.index t (0 : Fin 2) * 5000 + 1 * p.val = t.val * 5000 + p.val; omega
  | ⟨1, _⟩ => show win2_5.index t (1 : Fin 2) * 128 + 1 * q.val = q.val; omega

/-- The array the region leaves: the layer, without activation, of the arrays it finds. -/
abbrev G (c : Dev nD) : S50000x128.Idx → Elt Ideal .bf16 :=
  Cert.Layers.linear (N := 50000) (K := 128) (B := 128) (V c main_v70) (V c main_v53) (V c main_v84) (V c main_v85)
    (Cert.Sage.rowOf (V c main_v86))

/-- What point t writes back is block t of that array. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  have hj0 : (j 0).val < 5000 := (j 0).isLt
  have hj1 : (j 1).val < 128 := (j 1).isLt
  have ej : j = ix2 (⟨(j 0).val, hj0⟩ : Fin 5000) (⟨(j 1).val, hj1⟩ : Fin 128) := eq_ix2 (n0 := 5000) (n1 := 128) j
  refine (congrArg (k2_pay1 (F := Ideal) (iblk2 V c 0 t) (iblk2 V c 1 t) (iblk2 V c 2 t) (iblk2 V c 3 t) (iblk2 V c 4 t)) ej).trans ?_
  refine (tile_apply (iblk2 V c 0 t) (iblk2 V c 1 t) (iblk2 V c 2 t) (iblk2 V c 3 t) (iblk2 V c 4 t) ⟨(j 0).val, hj0⟩ ⟨(j 1).val, hj1⟩).trans ?_
  show _ = G V c (((cfg2.win 5).blk t).view.emb j)
  rw [show ((cfg2.win 5).blk t).view.emb j = ((cfg2.win 5).blk t).view.emb (ix2 (⟨(j 0).val, hj0⟩ : Fin 5000) (⟨(j 1).val, hj1⟩ : Fin 128)) from congrArg _ ej,
    emb5 t ⟨(j 0).val, hj0⟩ ⟨(j 1).val, hj1⟩]
  show _ = Cert.Sage.pre _ _ _ _ _ (row t ⟨(j 0).val, hj0⟩) ⟨(j 1).val, hj1⟩
  unfold Cert.Sage.pre
  rw [blk4 V c t ⟨(j 1).val, hj1⟩, Cert.Sage.rowOf_ix1]
  simp only [blk0 V c t, blk1 V c t, blk2 V c t, blk3 V c t]

theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v87).slice (win2_5.rect t)).set ↔ _
  rw [View.set_slice_whole, Rect.mem_set_unit]
  exact Iff.rfl

/-- Every row is in some point's block: row r in point r / 5000's. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  let t : Fin cfg2.N := ⟨(i 0).val / 5000, by omega⟩
  obtain ⟨-, -, -, -, -, -, -, -, -, -, e0, e1⟩ := idx_facts t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the region its result array is the layer of the arrays the region found. -/
theorem final (c : Dev nD) : (dat2 V c).arrAt 5 cfg2.N = G V c :=
  (dat2 V c).arrAt_eq_of_cover 5 (G V c) (fun t _ => flushed_eq V c t) (cover)

end Cert.KernelIdeal.Region2

end
-- ==== Proof.Shared.lean ====
/-
  What the idealized kernel's program keeps from its first host stretch.

  The first host stretch cuts each edge list into its source words and its destination words and computes, per edge
  type, the column of reciprocals of max(neighbour count, 1).  The second layer reads them again after two kernel
  regions; no region and no later host operation writes them, so they are still what the first stretch made of the
  arguments.  The same holds of every argument array: nothing ever writes one.
-/
import proofs.«117231_j34548716929465_2_alg».proof.Proof.Gen.KernelIdeal.Frame
import proofs.«117231_j34548716929465_2_alg».proof.Proof.HostChains

import Idealize.ShloMosaic.Lib.StableHlo.Run

set_option maxRecDepth 16384

noncomputable section

namespace Cert.KernelIdeal.Peel

open Cert.KernelIdeal Cert.KernelIdeal.Gen Cert.KernelIdeal.Chains
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer no operation of a host stretch writes holds after the stretch what it held before. -/
local macro "skip_host " ops:ident : tactic => `(tactic|
  refine (StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- A buffer that is none of a region's arrays holds after the region what it held before. -/
local macro "skip_region " lem:ident : tactic => `(tactic| refine ($lem:ident _ _ _ _ (by decide)).trans ?_)

/-! ## The edge words and the reciprocal columns, as first written -/

set_option maxHeartbeats 40000000 in
theorem W1_v1 (c : Dev nD) : W1 m ρ c (Proc.devRef .tc main_v1) = src (m ((c : Thread nD τ).loc main_arg2)) := by
  show StableHlo.after hostOps0 (W0 m ρ c) (Proc.devRef .tc main_v1) = _
  after_results
  rfl

set_option maxHeartbeats 40000000 in
theorem W1_v3 (c : Dev nD) : W1 m ρ c (Proc.devRef .tc main_v3) = dst (m ((c : Thread nD τ).loc main_arg2)) := by
  show StableHlo.after hostOps0 (W0 m ρ c) (Proc.devRef .tc main_v3) = _
  after_results
  rfl

set_option maxHeartbeats 40000000 in
theorem W1_v5 (c : Dev nD) : W1 m ρ c (Proc.devRef .tc main_v5) = src (m ((c : Thread nD τ).loc main_arg3)) := by
  show StableHlo.after hostOps0 (W0 m ρ c) (Proc.devRef .tc main_v5) = _
  after_results
  rfl

set_option maxHeartbeats 40000000 in
theorem W1_v7 (c : Dev nD) : W1 m ρ c (Proc.devRef .tc main_v7) = dst (m ((c : Thread nD τ).loc main_arg3)) := by
  show StableHlo.after hostOps0 (W0 m ρ c) (Proc.devRef .tc main_v7) = _
  after_results
  rfl

set_option maxHeartbeats 40000000 in
theorem W1_v20 (c : Dev nD) : W1 m ρ c (Proc.devRef .tc main_v20) = recip (dst (m ((c : Thread nD τ).loc main_arg2))) := by
  show StableHlo.after hostOps0 (W0 m ρ c) (Proc.devRef .tc main_v20) = _
  after_results
  rfl

set_option maxHeartbeats 40000000 in
theorem W1_v25 (c : Dev nD) : W1 m ρ c (Proc.devRef .tc main_v25) = recip (dst (m ((c : Thread nD τ).loc main_arg3))) := by
  show StableHlo.after hostOps0 (W0 m ρ c) (Proc.devRef .tc main_v25) = _
  after_results
  rfl

/-! ## …and when the second layer reads them (after regions 0 and 1) -/

theorem W4_v1 (c : Dev nD) : W4 m ρ c (Proc.devRef .tc main_v1) = src (m ((c : Thread nD τ).loc main_arg2)) := by
  skip_region W4_of_ne
  skip_host hostOps1
  skip_region W2_of_ne
  exact W1_v1 m ρ c

theorem W4_v3 (c : Dev nD) : W4 m ρ c (Proc.devRef .tc main_v3) = dst (m ((c : Thread nD τ).loc main_arg2)) := by
  skip_region W4_of_ne
  skip_host hostOps1
  skip_region W2_of_ne
  exact W1_v3 m ρ c

theorem W4_v5 (c : Dev nD) : W4 m ρ c (Proc.devRef .tc main_v5) = src (m ((c : Thread nD τ).loc main_arg3)) := by
  skip_region W4_of_ne
  skip_host hostOps1
  skip_region W2_of_ne
  exact W1_v5 m ρ c

theorem W4_v7 (c : Dev nD) : W4 m ρ c (Proc.devRef .tc main_v7) = dst (m ((c : Thread nD τ).loc main_arg3)) := by
  skip_region W4_of_ne
  skip_host hostOps1
  skip_region W2_of_ne
  exact W1_v7 m ρ c

theorem W4_v20 (c : Dev nD) : W4 m ρ c (Proc.devRef .tc main_v20) = recip (dst (m ((c : Thread nD τ).loc main_arg2))) := by
  skip_region W4_of_ne
  skip_host hostOps1
  skip_region W2_of_ne
  exact W1_v20 m ρ c

theorem W4_v25 (c : Dev nD) : W4 m ρ c (Proc.devRef .tc main_v25) = recip (dst (m ((c : Thread nD τ).loc main_arg3))) := by
  skip_region W4_of_ne
  skip_host hostOps1
  skip_region W2_of_ne
  exact W1_v25 m ρ c

/-! ## The arguments, wherever they are read -/

theorem W4_arg11 (c : Dev nD) : W4 m ρ c (Proc.devRef .tc main_arg11) = (m ((c : Thread nD τ).loc main_arg11)) := by
  skip_region W4_of_ne
  skip_host hostOps1
  skip_region W2_of_ne
  show StableHlo.after hostOps0 (W0 m ρ c) (Proc.devRef .tc main_arg11) = _
  skip_host hostOps0
  rfl

theorem W4_arg12 (c : Dev nD) : W4 m ρ c (Proc.devRef .tc main_arg12) = (m ((c : Thread nD τ).loc main_arg12)) := by
  skip_region W4_of_ne
  skip_host hostOps1
  skip_region W2_of_ne
  show StableHlo.after hostOps0 (W0 m ρ c) (Proc.devRef .tc main_arg12) = _
  skip_host hostOps0
  rfl

theorem W4_arg13 (c : Dev nD) : W4 m ρ c (Proc.devRef .tc main_arg13) = (m ((c : Thread nD τ).loc main_arg13)) := by
  skip_region W4_of_ne
  skip_host hostOps1
  skip_region W2_of_ne
  show StableHlo.after hostOps0 (W0 m ρ c) (Proc.devRef .tc main_arg13) = _
  skip_host hostOps0
  rfl

theorem W6_arg14 (c : Dev nD) : W6 m ρ c (Proc.devRef .tc main_arg14) = (m ((c : Thread nD τ).loc main_arg14)) := by
  skip_region W6_of_ne
  skip_host hostOps2
  skip_region W4_of_ne
  skip_host hostOps1
  skip_region W2_of_ne
  show StableHlo.after hostOps0 (W0 m ρ c) (Proc.devRef .tc main_arg14) = _
  skip_host hostOps0
  rfl

theorem W6_arg15 (c : Dev nD) : W6 m ρ c (Proc.devRef .tc main_arg15) = (m ((c : Thread nD τ).loc main_arg15)) := by
  skip_region W6_of_ne
  skip_host hostOps2
  skip_region W4_of_ne
  skip_host hostOps1
  skip_region W2_of_ne
  show StableHlo.after hostOps0 (W0 m ρ c) (Proc.devRef .tc main_arg15) = _
  skip_host hostOps0
  rfl

theorem W6_arg16 (c : Dev nD) : W6 m ρ c (Proc.devRef .tc main_arg16) = (m ((c : Thread nD τ).loc main_arg16)) := by
  skip_region W6_of_ne
  skip_host hostOps2
  skip_region W4_of_ne
  skip_host hostOps1
  skip_region W2_of_ne
  show StableHlo.after hostOps0 (W0 m ρ c) (Proc.devRef .tc main_arg16) = _
  skip_host hostOps0
  rfl

theorem W8_arg4 (c : Dev nD) : W8 m ρ c (Proc.devRef .tc main_arg4) = (m ((c : Thread nD τ).loc main_arg4)) := by
  skip_region W8_of_ne
  skip_host hostOps3
  skip_region W6_of_ne
  skip_host hostOps2
  skip_region W4_of_ne
  skip_host hostOps1
  skip_region W2_of_ne
  show StableHlo.after hostOps0 (W0 m ρ c) (Proc.devRef .tc main_arg4) = _
  skip_host hostOps0
  rfl

theorem W8_arg17 (c : Dev nD) : W8 m ρ c (Proc.devRef .tc main_arg17) = (m ((c : Thread nD τ).loc main_arg17)) := by
  skip_region W8_of_ne
  skip_host hostOps3
  skip_region W6_of_ne
  skip_host hostOps2
  skip_region W4_of_ne
  skip_host hostOps1
  skip_region W2_of_ne
  show StableHlo.after hostOps0 (W0 m ρ c) (Proc.devRef .tc main_arg17) = _
  skip_host hostOps0
  rfl

theorem W8_arg18 (c : Dev nD) : W8 m ρ c (Proc.devRef .tc main_arg18) = (m ((c : Thread nD τ).loc main_arg18)) := by
  skip_region W8_of_ne
  skip_host hostOps3
  skip_region W6_of_ne
  skip_host hostOps2
  skip_region W4_of_ne
  skip_host hostOps1
  skip_region W2_of_ne
  show StableHlo.after hostOps0 (W0 m ρ c) (Proc.devRef .tc main_arg18) = _
  skip_host hostOps0
  rfl

theorem W8_arg19 (c : Dev nD) : W8 m ρ c (Proc.devRef .tc main_arg19) = (m ((c : Thread nD τ).loc main_arg19)) := by
  skip_region W8_of_ne
  skip_host hostOps3
  skip_region W6_of_ne
  skip_host hostOps2
  skip_region W4_of_ne
  skip_host hostOps1
  skip_region W2_of_ne
  show StableHlo.after hostOps0 (W0 m ρ c) (Proc.devRef .tc main_arg19) = _
  skip_host hostOps0
  rfl

theorem W8_arg20 (c : Dev nD) : W8 m ρ c (Proc.devRef .tc main_arg20) = (m ((c : Thread nD τ).loc main_arg20)) := by
  skip_region W8_of_ne
  skip_host hostOps3
  skip_region W6_of_ne
  skip_host hostOps2
  skip_region W4_of_ne
  skip_host hostOps1
  skip_region W2_of_ne
  show StableHlo.after hostOps0 (W0 m ρ c) (Proc.devRef .tc main_arg20) = _
  skip_host hostOps0
  rfl

end Cert.KernelIdeal.Peel

end
-- ==== Proof.Entry2.lean ====
/-
  The idealized kernel's program from its second kernel region to its third.

  Region 2 is the second layer on the merchants' side.  The host stretch before it gathers the users' hidden rows
  (region 1's result) along the first edge list, widens them, sums them per merchant and multiplies by the reciprocal
  column the first stretch made; the merchants' own hidden rows are region 0's result, untouched since.  Region 2 leaves
  the layer, without activation, of these.
-/
import proofs.«117231_j34548716929465_2_alg».proof.Proof.Gen.KernelIdeal.Frame
import proofs.«117231_j34548716929465_2_alg».proof.Proof.HostChains
import proofs.«117231_j34548716929465_2_alg».proof.Proof.Region2
import proofs.«117231_j34548716929465_2_alg».proof.Proof.Shared
import Idealize.ShloMosaic.Lib.StableHlo.Run

set_option maxRecDepth 16384

noncomputable section

namespace Cert.KernelIdeal.Peel

open Cert.KernelIdeal Cert.KernelIdeal.Gen Cert.KernelIdeal.Chains
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer no operation of a host stretch writes holds after the stretch what it held before. -/
local macro "skip_host " ops:ident : tactic => `(tactic|
  refine (StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- A buffer that is none of a region's arrays holds after the region what it held before. -/
local macro "skip_region " lem:ident : tactic => `(tactic| refine ($lem:ident _ _ _ _ (by decide)).trans ?_)

/-! ## What region 2 finds -/

set_option maxHeartbeats 40000000 in
theorem V5_v70 (c : Dev nD) :
    V5 m ρ c main_v70 = mean128 (W4 m ρ c (Proc.devRef .tc main_v57)) (W4 m ρ c (Proc.devRef .tc main_v1))
      (W4 m ρ c (Proc.devRef .tc main_v3)) (W4 m ρ c (Proc.devRef .tc main_v20)) := by
  show StableHlo.after hostOps2 (W4 m ρ c) (Proc.devRef .tc main_v70) = _
  after_results
  rfl

theorem V5_v53 (c : Dev nD) : V5 m ρ c main_v53 = W2 m ρ c (Proc.devRef .tc main_v53) := by
  show StableHlo.after hostOps2 (W4 m ρ c) (Proc.devRef .tc main_v53) = _
  skip_host hostOps2
  skip_region W4_of_ne
  skip_host hostOps1
  rfl

set_option maxHeartbeats 40000000 in
theorem V5_v84 (c : Dev nD) : V5 m ρ c main_v84 = (transpose S128x128 [1, 0] (m ((c : Thread nD τ).loc main_arg11)) transposes_S128x128_S128x128_1_0) := by
  show StableHlo.after hostOps2 (W4 m ρ c) (Proc.devRef .tc main_v84) = _
  after_results
  rw [W4_arg11]

set_option maxHeartbeats 40000000 in
theorem V5_v85 (c : Dev nD) : V5 m ρ c main_v85 = (transpose S128x128 [1, 0] (m ((c : Thread nD τ).loc main_arg13)) transposes_S128x128_S128x128_1_0) := by
  show StableHlo.after hostOps2 (W4 m ρ c) (Proc.devRef .tc main_v85) = _
  after_results
  rw [W4_arg13]

set_option maxHeartbeats 40000000 in
theorem V5_v86 (c : Dev nD) : V5 m ρ c main_v86 = shapeCast S1x128 (m ((c : Thread nD τ).loc main_arg12)) shapeCasts_S128_S1x128 := by
  show StableHlo.after hostOps2 (W4 m ρ c) (Proc.devRef .tc main_v86) = _
  after_results
  rw [W4_arg12]
  rfl

/-! ## What region 2 leaves -/

/-- The merchants' second layer, from the two hidden layers. -/
theorem zm (c : Dev nD) :
    W6 m ρ c (Proc.devRef .tc main_v87)
      = Cert.Layers.linear (N := 50000) (K := 128) (B := 128)
          (mean128 (W4 m ρ c (Proc.devRef .tc main_v57)) (src (m ((c : Thread nD τ).loc main_arg2))) (dst (m ((c : Thread nD τ).loc main_arg2))) (recip (dst (m ((c : Thread nD τ).loc main_arg2)))))
          (W2 m ρ c (Proc.devRef .tc main_v53)) (transpose S128x128 [1, 0] (m ((c : Thread nD τ).loc main_arg11)) transposes_S128x128_S128x128_1_0) (transpose S128x128 [1, 0] (m ((c : Thread nD τ).loc main_arg13)) transposes_S128x128_S128x128_1_0) (m ((c : Thread nD τ).loc main_arg12)) := by
  refine (W6_arr m ρ c 5).trans ?_
  rw [Region2.final]
  show Cert.Layers.linear (N := 50000) (K := 128) (B := 128) (V5 m ρ c main_v70) (V5 m ρ c main_v53) (V5 m ρ c main_v84)
      (V5 m ρ c main_v85) (Cert.Sage.rowOf (V5 m ρ c main_v86)) = _
  rw [V5_v70, V5_v53, V5_v84, V5_v85, V5_v86, Cert.Sage.rowOf_shapeCast, W4_v1, W4_v3, W4_v20]

end Cert.KernelIdeal.Peel

end
-- ==== Proof.Region3.lean ====
/-
  The second layer's second kernel region, as one array.

  The region's grid has 10 points; point t works on rows 5000·t … 5000·t + 4999: it fetches those rows of the aggregated
  hidden features and of the nodes' own hidden features, the two whole 128 × 128 weight matrices and the bias row, and
  writes back those rows of the result.  Entry (p, q) of what it writes is

      ∑ₖ a(5000·t + p, k)·wl(k, q) + ∑ₖ x(5000·t + p, k)·wr(k, q) + r(0, q)

  (no activation in this layer), which depends on row 5000·t + p of a and x only.  So the ten blocks are the restrictions
  of ONE array, `Cert.Layers.linear a x wl wr (rowOf r)`, and they tile all 50000 rows.
-/
import proofs.«117231_j34548716929465_2_alg».proof.Proof.Gen.KernelIdeal.Frame
import proofs.«117231_j34548716929465_2_alg».proof.Proof.Layers
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One tile's result at (p, q): the two products and the bias row. -/
theorem tile_apply (x0 : Vec Ideal S5000x128 .f32) (x1 : Vec Ideal S5000x128 .bf16) (x2 x3 : Vec Ideal S128x128 .f32) (x4 : Vec Ideal S1x128 .f32)
    (p : Fin 5000) (q : Fin 128) :
    k3_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k3_pay1
  simp only [shapeCast_self]
  exact (Cert.Sage.tile_pre dot_S5000x128_S128x128_S5000x128_1_0_0_1_n_n dot_S5000x128_S128x128_S5000x128_1_0_0_1_n_n.wf rfl
      (φ := .bf16) x0 x1 x2 x3 x4 broadcasts_S1x128_S5000x128 p q)

/-- Where the grid's points sit: the row blocks move with the point, the weights and the bias stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem t_lt (t : Fin cfg3.N) : t.val < 10 := by have h := t.isLt; have hN : cfg3.N = 10 := N_3; omega

/-- Row p of point t's block is row 5000·t + p of the array. -/
def row (t : Fin cfg3.N) (p : Fin 5000) : Fin 50000 := ⟨t.val * 5000 + p.val, by have := t_lt t; have := p.isLt; omega⟩

theorem blk0 (c : Dev nD) (t : Fin cfg3.N) (p : Fin 5000) (k : Fin 128) :
    iblk3 V c 0 t (ix2 p k) = V c main_v83 (ix2 (row t p) k) := by
  obtain ⟨e0, e1, -⟩ := idx_facts t
  show V c main_v83 (((cfg3.win 0).blk t).view.emb (ix2 p k)) = V c main_v83 (ix2 (row t p) k)
  refine congrArg (V c main_v83) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

theorem blk1 (c : Dev nD) (t : Fin cfg3.N) (p : Fin 5000) (k : Fin 128) :
    iblk3 V c 1 t (ix2 p k) = V c main_v57 (ix2 (row t p) k) := by
  obtain ⟨-, -, e0, e1, -⟩ := idx_facts t
  show V c main_v57 (((cfg3.win 1).blk t).view.emb (ix2 p k)) = V c main_v57 (ix2 (row t p) k)
  refine congrArg (V c main_v57) (funext fun a => Fin.ext ?_)
  match a with
  | ⟨0, _⟩ => show win3_1.index t (0 : Fin 2) * 5000 + 1 * p.val = t.val * 5000 + p.val; omega
  | ⟨1, _⟩ => show win3_1.index t (1 : Fin 2) * 128 + 1 * k.val = k.val; omega

theorem blk2 (c : Dev nD) (t : Fin cfg3.N) (k : Fin 128) (q : Fin 128) :
    iblk3 V c 2 t (ix2 k q) = V c main_v88 (ix2 k q) := by
  obtain ⟨-, -, -, -, e0, e1, -⟩ := idx_facts t
  show V c main_v88 (((cfg3.win 2).blk t).view.emb (ix2 k q)) = V c main_v88 (ix2 k q)
  refine congrArg (V c main_v88) (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

theorem blk3 (c : Dev nD) (t : Fin cfg3.N) (k : Fin 128) (q : Fin 128) :
    iblk3 V c 3 t (ix2 k q) = V c main_v89 (ix2 k q) := by
  obtain ⟨-, -, -, -, -, -, e0, e1, -⟩ := idx_facts t
  show V c main_v89 (((cfg3.win 3).blk t).view.emb (ix2 k q)) = V c main_v89 (ix2 k q)
  refine congrArg (V c main_v89) (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

theorem blk4 (c : Dev nD) (t : Fin cfg3.N) (q : Fin 128) :
    iblk3 V c 4 t (ix2 (0 : Fin 1) q) = V c main_v90 (ix2 (0 : Fin 1) q) := by
  obtain ⟨-, -, -, -, -, -, -, -, e0, e1, -⟩ := idx_facts t
  show V c main_v90 (((cfg3.win 4).blk t).view.emb (ix2 (0 : Fin 1) q)) = V c main_v90 (ix2 (0 : Fin 1) q)
  refine congrArg (V c main_v90) (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

theorem emb5 (t : Fin cfg3.N) (p : Fin 5000) (q : Fin 128) :
    ((cfg3.win 5).blk t).view.emb (ix2 p q) = ix2 (row t p) q := by
  obtain ⟨-, -, -, -, -, -, -, -, -, -, e0, e1⟩ := idx_facts t
  refine funext fun a => Fin.ext ?_
  match a with
  | ⟨0, _⟩ => show win3_5.index t (0 : Fin 2) * 5000 + 1 * p.val = t.val * 5000 + p.val; omega
  | ⟨1, _⟩ => show win3_5.index t (1 : Fin 2) * 128 + 1 * q.val = q.val; omega

/-- The array the region leaves: the layer, without activation, of the arrays it finds. -/
abbrev G (c : Dev nD) : S50000x128.Idx → Elt Ideal .bf16 :=
  Cert.Layers.linear (N := 50000) (K := 128) (B := 128) (V c main_v83) (V c main_v57) (V c main_v88) (V c main_v89)
    (Cert.Sage.rowOf (V c main_v90))

/-- What point t writes back is block t of that array. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  funext j
  have hj0 : (j 0).val < 5000 := (j 0).isLt
  have hj1 : (j 1).val < 128 := (j 1).isLt
  have ej : j = ix2 (⟨(j 0).val, hj0⟩ : Fin 5000) (⟨(j 1).val, hj1⟩ : Fin 128) := eq_ix2 (n0 := 5000) (n1 := 128) j
  refine (congrArg (k3_pay1 (F := Ideal) (iblk3 V c 0 t) (iblk3 V c 1 t) (iblk3 V c 2 t) (iblk3 V c 3 t) (iblk3 V c 4 t)) ej).trans ?_
  refine (tile_apply (iblk3 V c 0 t) (iblk3 V c 1 t) (iblk3 V c 2 t) (iblk3 V c 3 t) (iblk3 V c 4 t) ⟨(j 0).val, hj0⟩ ⟨(j 1).val, hj1⟩).trans ?_
  show _ = G V c (((cfg3.win 5).blk t).view.emb j)
  rw [show ((cfg3.win 5).blk t).view.emb j = ((cfg3.win 5).blk t).view.emb (ix2 (⟨(j 0).val, hj0⟩ : Fin 5000) (⟨(j 1).val, hj1⟩ : Fin 128)) from congrArg _ ej,
    emb5 t ⟨(j 0).val, hj0⟩ ⟨(j 1).val, hj1⟩]
  show _ = Cert.Sage.pre _ _ _ _ _ (row t ⟨(j 0).val, hj0⟩) ⟨(j 1).val, hj1⟩
  unfold Cert.Sage.pre
  rw [blk4 V c t ⟨(j 1).val, hj1⟩, Cert.Sage.rowOf_ix1]
  simp only [blk0 V c t, blk1 V c t, blk2 V c t, blk3 V c t]

theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v91).slice (win3_5.rect t)).set ↔ _
  rw [View.set_slice_whole, Rect.mem_set_unit]
  exact Iff.rfl

/-- Every row is in some point's block: row r in point r / 5000's. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  let t : Fin cfg3.N := ⟨(i 0).val / 5000, by omega⟩
  obtain ⟨-, -, -, -, -, -, -, -, -, -, e0, e1⟩ := idx_facts t
  have ht : t.val = (i 0).val / 5000 := rfl
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- After the region its result array is the layer of the arrays the region found. -/
theorem final (c : Dev nD) : (dat3 V c).arrAt 5 cfg3.N = G V c :=
  (dat3 V c).arrAt_eq_of_cover 5 (G V c) (fun t _ => flushed_eq V c t) (cover)

end Cert.KernelIdeal.Region3

end
-- ==== Proof.Entry3.lean ====
/-
  The idealized kernel's program from its third kernel region to its fourth.

  Region 3 is the second layer on the users' side.  Its aggregated input was written by the host stretch before region 2
  (the merchants' hidden rows gathered along the second edge list, widened, summed per user, times the reciprocal
  column) and nothing since writes it; the users' own hidden rows are region 1's result, untouched since.  Region 3
  leaves the layer, without activation, of these.
-/
import proofs.«117231_j34548716929465_2_alg».proof.Proof.Gen.KernelIdeal.Frame
import proofs.«117231_j34548716929465_2_alg».proof.Proof.HostChains
import proofs.«117231_j34548716929465_2_alg».proof.Proof.Region3
import proofs.«117231_j34548716929465_2_alg».proof.Proof.Shared
import Idealize.ShloMosaic.Lib.StableHlo.Run

set_option maxRecDepth 16384

noncomputable section

namespace Cert.KernelIdeal.Peel

open Cert.KernelIdeal Cert.KernelIdeal.Gen Cert.KernelIdeal.Chains
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer no operation of a host stretch writes holds after the stretch what it held before. -/
local macro "skip_host " ops:ident : tactic => `(tactic|
  refine (StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- A buffer that is none of a region's arrays holds after the region what it held before. -/
local macro "skip_region " lem:ident : tactic => `(tactic| refine ($lem:ident _ _ _ _ (by decide)).trans ?_)

/-! ## What region 3 finds -/

theorem W4_v53 (c : Dev nD) : W4 m ρ c (Proc.devRef .tc main_v53) = W2 m ρ c (Proc.devRef .tc main_v53) := by
  skip_region W4_of_ne
  skip_host hostOps1
  rfl

set_option maxHeartbeats 40000000 in
theorem W5_v83 (c : Dev nD) :
    W5 m ρ c (Proc.devRef .tc main_v83) = mean128 (W4 m ρ c (Proc.devRef .tc main_v53)) (W4 m ρ c (Proc.devRef .tc main_v5))
      (W4 m ρ c (Proc.devRef .tc main_v7)) (W4 m ρ c (Proc.devRef .tc main_v25)) := by
  show StableHlo.after hostOps2 (W4 m ρ c) (Proc.devRef .tc main_v83) = _
  after_results
  rfl

theorem V7_v83 (c : Dev nD) :
    V7 m ρ c main_v83 = mean128 (W2 m ρ c (Proc.devRef .tc main_v53)) (src (m ((c : Thread nD τ).loc main_arg3))) (dst (m ((c : Thread nD τ).loc main_arg3))) (recip (dst (m ((c : Thread nD τ).loc main_arg3)))) := by
  show StableHlo.after hostOps3 (W6 m ρ c) (Proc.devRef .tc main_v83) = _
  skip_host hostOps3
  skip_region W6_of_ne
  rw [W5_v83, W4_v53, W4_v5, W4_v7, W4_v25]

theorem V7_v57 (c : Dev nD) : V7 m ρ c main_v57 = W4 m ρ c (Proc.devRef .tc main_v57) := by
  show StableHlo.after hostOps3 (W6 m ρ c) (Proc.devRef .tc main_v57) = _
  skip_host hostOps3
  skip_region W6_of_ne
  skip_host hostOps2
  rfl

theorem V7_v88 (c : Dev nD) : V7 m ρ c main_v88 = (transpose S128x128 [1, 0] (m ((c : Thread nD τ).loc main_arg14)) transposes_S128x128_S128x128_1_0) := by
  show StableHlo.after hostOps3 (W6 m ρ c) (Proc.devRef .tc main_v88) = _
  after_results
  rw [W6_arg14]

theorem V7_v89 (c : Dev nD) : V7 m ρ c main_v89 = (transpose S128x128 [1, 0] (m ((c : Thread nD τ).loc main_arg16)) transposes_S128x128_S128x128_1_0) := by
  show StableHlo.after hostOps3 (W6 m ρ c) (Proc.devRef .tc main_v89) = _
  after_results
  rw [W6_arg16]

theorem V7_v90 (c : Dev nD) : V7 m ρ c main_v90 = shapeCast S1x128 (m ((c : Thread nD τ).loc main_arg15)) shapeCasts_S128_S1x128 := by
  show StableHlo.after hostOps3 (W6 m ρ c) (Proc.devRef .tc main_v90) = _
  after_results
  rw [W6_arg15]
  rfl

/-! ## What region 3 leaves -/

/-- The users' second layer, from the two hidden layers. -/
theorem zu (c : Dev nD) :
    W8 m ρ c (Proc.devRef .tc main_v91)
      = Cert.Layers.linear (N := 50000) (K := 128) (B := 128)
          (mean128 (W2 m ρ c (Proc.devRef .tc main_v53)) (src (m ((c : Thread nD τ).loc main_arg3))) (dst (m ((c : Thread nD τ).loc main_arg3))) (recip (dst (m ((c : Thread nD τ).loc main_arg3)))))
          (W4 m ρ c (Proc.devRef .tc main_v57)) (transpose S128x128 [1, 0] (m ((c : Thread nD τ).loc main_arg14)) transposes_S128x128_S128x128_1_0) (transpose S128x128 [1, 0] (m ((c : Thread nD τ).loc main_arg16)) transposes_S128x128_S128x128_1_0) (m ((c : Thread nD τ).loc main_arg15)) := by
  refine (W8_arr m ρ c 5).trans ?_
  rw [Region3.final]
  show Cert.Layers.linear (N := 50000) (K := 128) (B := 128) (V7 m ρ c main_v83) (V7 m ρ c main_v57) (V7 m ρ c main_v88)
      (V7 m ρ c main_v89) (Cert.Sage.rowOf (V7 m ρ c main_v90)) = _
  rw [V7_v83, V7_v57, V7_v88, V7_v89, V7_v90, Cert.Sage.rowOf_shapeCast]

end Cert.KernelIdeal.Peel

end
-- ==== Proof.Region4.lean ====
/-
  The edge scorer's kernel region, as one array.

  The region's grid has 100 points; point t works on edges 5000·t … 5000·t + 4999: it fetches those rows of the two
  gathered embedding arrays, the two 128 × 128 halves of the first weight matrix, the first bias row, the second weight
  row and the second bias, and writes back those 5000 scores as a column.  The score of row p is

      ∑_q max(∑ₖ zu(5000·t + p, k)·wu(k, q) + ∑ₖ zm(5000·t + p, k)·wm(k, q) + b1(0, q), 0) · w2(0, q) + b2(0, 0):

  it depends on row 5000·t + p of zu and zm only.  So the hundred blocks are the restrictions of ONE column, and they tile
  all 500000 rows: after the region the result buffer holds that column.
-/
import proofs.«117231_j34548716929465_2_alg».proof.Proof.Gen.KernelIdeal.Frame
import proofs.«117231_j34548716929465_2_alg».proof.Proof.Layers
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One tile's score of row p. -/
theorem tile_apply (x0 x1 : Vec Ideal S5000x128 .bf16) (x2 x3 : Vec Ideal S128x128 .f32) (x4 x5 : Vec Ideal S1x128 .f32)
    (x6 : Vec Ideal S1x1 .f32) (p : Fin 5000) (u : Fin 1) :
    k4_pay1 (F := Ideal) x0 x1 x2 x3 x4 x5 x6 (ix2 p u)
      = (∑ q : Fin 128, max ((∑ k : Fin 128, x0 (ix2 p k) * x2 (ix2 k q)) + (∑ k : Fin 128, x1 (ix2 p k) * x3 (ix2 k q))
            + x4 (ix2 (0 : Fin 1) q)) (Ideal.ofBits .f32 0x00000000#32) * x5 (ix2 (0 : Fin 1) q))
        + x6 (ix2 (0 : Fin 1) u) := by
  unfold k4_pay1
  simp only [shapeCast_self]
  show shapeCast S5000x1 _ shapeCasts_S5000_S5000x1 (ix2 p u) + broadcastTo S5000x1 x6 broadcasts_S1x1_S5000x1 (ix2 p u) = _
  rw [Cert.Lib.shapeCast_a_a1_apply (a := 5000) _ shapeCasts_S5000_S5000x1 p u,
    broadcastTo_1b_ab_apply (a := 5000) (b := 1) x6 broadcasts_S1x1_S5000x1 p u,
    Cert.Lib.rowSum_apply (a := 5000) (n := 128) _ 0x00000000#32 reduces_S5000x128_S5000 (.inl rfl) rfl p]
  refine congrArg (· + x6 (ix2 (0 : Fin 1) u)) (Finset.sum_congr rfl fun q _ => ?_)
  show max (_ : EReal) (Ideal.ofBits .f32 0x00000000#32) * broadcastTo S5000x128 x5 broadcasts_S1x128_S5000x128 (ix2 p q) = _
  rw [broadcastTo_1b_ab_apply (a := 5000) (b := 128) x5 broadcasts_S1x128_S5000x128 p q]
  exact congrArg (fun z => max z (Ideal.ofBits .f32 0x00000000#32) * x5 (ix2 (0 : Fin 1) q))
    (Cert.Sage.tile_pre dot_S5000x128_S128x128_S5000x128_1_0_0_1_n_n dot_S5000x128_S128x128_S5000x128_1_0_0_1_n_n.wf rfl
      (φ := .bf16) x0 x1 x2 x3 x4 broadcasts_S1x128_S5000x128 p q)

/-- Where the grid's points sit. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

theorem t_lt (t : Fin cfg4.N) : t.val < 100 := by have h := t.isLt; have hN : cfg4.N = 100 := N_4; omega

/-- Row p of point t's block is row 5000·t + p of the array. -/
def row (t : Fin cfg4.N) (p : Fin 5000) : Fin 500000 := ⟨t.val * 5000 + p.val, by have := t_lt t; have := p.isLt; omega⟩

theorem blk0 (c : Dev nD) (t : Fin cfg4.N) (p : Fin 5000) (k : Fin 128) :
    iblk4 V c 0 t (ix2 p k) = V c main_v102 (ix2 (row t p) k) := by
  obtain ⟨e0, e1, -⟩ := idx_facts t
  show V c main_v102 (((cfg4.win 0).blk t).view.emb (ix2 p k)) = V c main_v102 (ix2 (row t p) k)
  refine congrArg (V c main_v102) (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * k.val = k.val; omega

theorem blk1 (c : Dev nD) (t : Fin cfg4.N) (p : Fin 5000) (k : Fin 128) :
    iblk4 V c 1 t (ix2 p k) = V c main_v109 (ix2 (row t p) k) := by
  obtain ⟨-, -, e0, e1, -⟩ := idx_facts t
  show V c main_v109 (((cfg4.win 1).blk t).view.emb (ix2 p k)) = V c main_v109 (ix2 (row t p) k)
  refine congrArg (V c main_v109) (funext fun a => Fin.ext ?_)
  match a with
  | ⟨0, _⟩ => show win4_1.index t (0 : Fin 2) * 5000 + 1 * p.val = t.val * 5000 + p.val; omega
  | ⟨1, _⟩ => show win4_1.index t (1 : Fin 2) * 128 + 1 * k.val = k.val; omega

theorem blk2 (c : Dev nD) (t : Fin cfg4.N) (k : Fin 128) (q : Fin 128) :
    iblk4 V c 2 t (ix2 k q) = V c main_v112 (ix2 k q) := by
  obtain ⟨-, -, -, -, e0, e1, -⟩ := idx_facts t
  show V c main_v112 (((cfg4.win 2).blk t).view.emb (ix2 k q)) = V c main_v112 (ix2 k q)
  refine congrArg (V c main_v112) (funext fun a => Fin.ext ?_)
  match a with
  | ⟨0, _⟩ => show win4_2.index t (0 : Fin 2) * 128 + 1 * k.val = k.val; omega
  | ⟨1, _⟩ => show win4_2.index t (1 : Fin 2) * 128 + 1 * q.val = q.val; omega

theorem blk3 (c : Dev nD) (t : Fin cfg4.N) (k : Fin 128) (q : Fin 128) :
    iblk4 V c 3 t (ix2 k q) = V c main_v113 (ix2 k q) := by
  obtain ⟨-, -, -, -, -, -, e0, e1, -⟩ := idx_facts t
  show V c main_v113 (((cfg4.win 3).blk t).view.emb (ix2 k q)) = V c main_v113 (ix2 k q)
  refine congrArg (V c main_v113) (funext fun a => Fin.ext ?_)
  match a with
  | ⟨0, _⟩ => show win4_3.index t (0 : Fin 2) * 128 + 1 * k.val = k.val; omega
  | ⟨1, _⟩ => show win4_3.index t (1 : Fin 2) * 128 + 1 * q.val = q.val; omega

theorem blk4 (c : Dev nD) (t : Fin cfg4.N) (q : Fin 128) :
    iblk4 V c 4 t (ix2 (0 : Fin 1) q) = V c main_v114 (ix2 (0 : Fin 1) q) := by
  obtain ⟨-, -, -, -, -, -, -, -, e0, e1, -⟩ := idx_facts t
  show V c main_v114 (((cfg4.win 4).blk t).view.emb (ix2 (0 : Fin 1) q)) = V c main_v114 (ix2 (0 : Fin 1) q)
  refine congrArg (V c main_v114) (funext fun a => Fin.ext ?_)
  match a with
  | ⟨0, _⟩ => show win4_4.index t (0 : Fin 2) * 1 + 1 * 0 = 0; omega
  | ⟨1, _⟩ => show win4_4.index t (1 : Fin 2) * 128 + 1 * q.val = q.val; omega

theorem blk5 (c : Dev nD) (t : Fin cfg4.N) (q : Fin 128) :
    iblk4 V c 5 t (ix2 (0 : Fin 1) q) = V c main_arg19 (ix2 (0 : Fin 1) q) := by
  obtain ⟨-, -, -, -, -, -, -, -, -, -, e0, e1, -⟩ := idx_facts t
  show V c main_arg19 (((cfg4.win 5).blk t).view.emb (ix2 (0 : Fin 1) q)) = V c main_arg19 (ix2 (0 : Fin 1) q)
  refine congrArg (V c main_arg19) (funext fun a => Fin.ext ?_)
  match a with
  | ⟨0, _⟩ => show win4_5.index t (0 : Fin 2) * 1 + 1 * 0 = 0; omega
  | ⟨1, _⟩ => show win4_5.index t (1 : Fin 2) * 128 + 1 * q.val = q.val; omega

theorem blk6 (c : Dev nD) (t : Fin cfg4.N) (u : Fin 1) :
    iblk4 V c 6 t (ix2 (0 : Fin 1) u) = V c main_v115 (ix2 (0 : Fin 1) (0 : Fin 1)) := by
  obtain ⟨-, -, -, -, -, -, -, -, -, -, -, -, e0, e1, -⟩ := idx_facts t
  have hu : u.val = 0 := by omega
  show V c main_v115 (((cfg4.win 6).blk t).view.emb (ix2 (0 : Fin 1) u)) = V c main_v115 (ix2 (0 : Fin 1) (0 : Fin 1))
  refine congrArg (V c main_v115) (funext fun a => Fin.ext ?_)
  match a with
  | ⟨0, _⟩ => show win4_6.index t (0 : Fin 2) * 1 + 1 * 0 = 0; omega
  | ⟨1, _⟩ => show win4_6.index t (1 : Fin 2) * 1 + 1 * u.val = 0; omega

theorem emb7 (t : Fin cfg4.N) (p : Fin 5000) (u : Fin 1) :
    ((cfg4.win 7).blk t).view.emb (ix2 p u) = ix2 (row t p) (0 : Fin 1) := by
  obtain ⟨-, -, -, -, -, -, -, -, -, -, -, -, -, -, e0, e1⟩ := idx_facts t
  have hu : u.val = 0 := by omega
  refine funext fun a => Fin.ext ?_
  match a with
  | ⟨0, _⟩ => show win4_7.index t (0 : Fin 2) * 5000 + 1 * p.val = t.val * 5000 + p.val; omega
  | ⟨1, _⟩ => show win4_7.index t (1 : Fin 2) * 1 + 1 * u.val = 0; omega

/-- The column the region leaves: the scores of the edges, from the arrays it finds. -/
def G (c : Dev nD) : S500000x1.Idx → Elt Ideal .f32 := fun i =>
  Cert.Layers.score (N := 500000) (K := 128) (B := 128) (V c main_v102) (V c main_v109) (V c main_v112) (V c main_v113)
    (Cert.Sage.rowOf (V c main_v114)) (V c main_arg19) (Cert.Sage.rowOf (V c main_v115)) ⟨(i 0).val, idx2_lt0 i⟩

/-- What point t writes back is block t of that column. -/
theorem flushed_eq (c : Dev nD) (t : Fin cfg4.N) :
    (dat4 V c).flushed 7 t = ((cfg4.win 7).blk t).view.read (Elt Ideal) (G V c) := by
  show (cfg4.win 7).cut (grid4.coords t) ((dat4 V c).after 7 t) = _
  rw [after4_7]
  unfold out4_7
  rw [View.canon_unit_zero hz]
  simp only [View.ld_unit_zero (S := S5000x128) hz, View.ld_unit_zero (S := S128x128) hz, View.ld_unit_zero (S := S1x128) hz,
    View.ld_unit_zero (S := S1x1) hz]
  funext j
  have hj0 : (j 0).val < 5000 := (j 0).isLt
  have hj1 : (j 1).val < 1 := (j 1).isLt
  have ej : j = ix2 (⟨(j 0).val, hj0⟩ : Fin 5000) (⟨(j 1).val, hj1⟩ : Fin 1) := eq_ix2 (n0 := 5000) (n1 := 1) j
  refine (congrArg (k4_pay1 (F := Ideal) (iblk4 V c 0 t) (iblk4 V c 1 t) (iblk4 V c 2 t) (iblk4 V c 3 t) (iblk4 V c 4 t) (iblk4 V c 5 t) (iblk4 V c 6 t)) ej).trans ?_
  refine (tile_apply (iblk4 V c 0 t) (iblk4 V c 1 t) (iblk4 V c 2 t) (iblk4 V c 3 t) (iblk4 V c 4 t) (iblk4 V c 5 t) (iblk4 V c 6 t) ⟨(j 0).val, hj0⟩ ⟨(j 1).val, hj1⟩).trans ?_
  show _ = G V c (((cfg4.win 7).blk t).view.emb j)
  rw [show ((cfg4.win 7).blk t).view.emb j = ((cfg4.win 7).blk t).view.emb (ix2 (⟨(j 0).val, hj0⟩ : Fin 5000) (⟨(j 1).val, hj1⟩ : Fin 1)) from congrArg _ ej,
    emb7 t ⟨(j 0).val, hj0⟩ ⟨(j 1).val, hj1⟩]
  show _ = Cert.Layers.score _ _ _ _ _ _ _ (row t ⟨(j 0).val, hj0⟩)
  unfold Cert.Layers.score Cert.Sage.pre
  rw [blk6 V c t ⟨(j 1).val, hj1⟩, Cert.Sage.rowOf_ix1]
  simp only [blk0 V c t, blk1 V c t, blk2 V c t, blk3 V c t, blk4 V c t, blk5 V c t, Cert.Sage.rowOf_ix1]

theorem mem_blk (t : Fin cfg4.N) (i : S500000x1.Idx) :
    i ∈ ((cfg4.win 7).blk t).view.set ↔ ∀ a : Fin 2, win4_7.index t a * S5000x1.size a ≤ (i a).val ∧ (i a).val < win4_7.index t a * S5000x1.size a + S5000x1.size a := by
  show i ∈ ((View.whole main_v116).slice (win4_7.rect t)).set ↔ _
  rw [View.set_slice_whole, Rect.mem_set_unit]
  exact Iff.rfl

/-- Every row is in some point's block: row r in point r / 5000's. -/
theorem cover (i : S500000x1.Idx) :
    ∃ t : Fin cfg4.N, (cfg4.win 7).flush t = true ∧ i ∈ ((cfg4.win 7).blk t).view.set := by
  have hi0 : (i 0).val < 500000 := (i 0).isLt
  have hi1 : (i 1).val < 1 := (i 1).isLt
  have hN : cfg4.N = 100 := N_4
  let t : Fin cfg4.N := ⟨(i 0).val / 5000, by omega⟩
  obtain ⟨-, -, -, -, -, -, -, -, -, -, -, -, -, -, e0, e1⟩ := idx_facts t
  have ht : t.val = (i 0).val / 5000 := rfl
  refine ⟨t, flush4_7 t, ?_⟩
  rw [mem_blk]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 1 ≤ (i 1).val ∧ (i 1).val < win4_7.index t (1 : Fin 2) * 1 + 1; omega

/-- After the region its result column holds the scores. -/
theorem final (c : Dev nD) : (dat4 V c).arrAt 7 cfg4.N = G V c :=
  (dat4 V c).arrAt_eq_of_cover 7 (G V c) (fun t _ => flushed_eq V c t) (cover)

end Cert.KernelIdeal.Region4

end
-- ==== Proof.HostChains2.lean ====
/-
  The host operations the idealized kernel's program applies before its edge scorer, as functions of arrays.

  The list of edges to score is a [2, E] array of index words: row 0 names a user, row 1 a merchant.  The words are made
  non-negative the same way as for the graph's edges, and `pick z s` gathers row `s e` of the embeddings z for every
  edge e.  Which row a gather reads depends on the word; nothing below looks inside it.
-/
import proofs.«117231_j34548716929465_2_alg».proof.Proof.HostChains

noncomputable section

namespace Cert.KernelIdeal.Chains

open Cert.KernelIdeal Cert.KernelIdeal.Gen Idealize.ShloMosaic

/-- Row 0 of the list of edges to score, as a vector of words. -/
def tsrc (e : WArr S2x500000) : WArr S500000 :=
  shapeCast _ (extractStridedSlice S1x500000 ![0, 0] e slices_S2x500000_S1x500000_0_0) shapeCasts_S1x500000_S500000

/-- Row 1 of it. -/
def tdst (e : WArr S2x500000) : WArr S500000 :=
  shapeCast _ (extractStridedSlice S1x500000 ![1, 0] e slices_S2x500000_S1x500000_1_0) shapeCasts_S1x500000_S500000

/-- The words made non-negative, as a column. -/
def tnorm (s : WArr S500000) : WArr S500000x1 :=
  broadcastInDim S500000x1 ![0] bcast_S500000_S500000x1_0
    ((select : TArr S500000 → WArr S500000 → WArr S500000 → WArr S500000)
      ((cmpi .slt : WArr S500000 → WArr S500000 → TArr S500000) s
        ((broadcastInDim S500000 ![] bcast_S_S500000 : WArr S_ → WArr S500000) (constantI S_ 32 0#32)))
      ((addi : WArr S500000 → WArr S500000 → WArr S500000) s
        ((broadcastInDim S500000 ![] bcast_S_S500000 : WArr S_ → WArr S500000) (constantI S_ 32 50000#32))) s)

/-- The embeddings' rows the words name, one per edge. -/
def pick (z : HArr S50000x128) (s : WArr S500000) : HArr S500000x128 :=
  Host.gather gather_S50000x128_S500000x1_S500000x128_1_0_n_n_0_1_1128 z (tnorm s)

/-- The two halves of the scorer's first weight matrix, cut along its columns and transposed. -/
def cutFirstT (w : FArr S128x256) : FArr S128x128 :=
  transpose S128x128 [1, 0] (extractStridedSlice S128x128 ![0, 0] w slices_S128x256_S128x128_0_0) transposes_S128x128_S128x128_1_0

def cutSecondT (w : FArr S128x256) : FArr S128x128 :=
  transpose S128x128 [1, 0] (extractStridedSlice S128x128 ![0, 128] w slices_S128x256_S128x128_0_128) transposes_S128x128_S128x128_1_0

end Cert.KernelIdeal.Chains

end
-- ==== Proof.Entry4.lean ====
/-
  The idealized kernel's program from its fourth kernel region to the end.

  The last host stretch before region 4 cuts the list of edges to score into its user words and its merchant words,
  gathers the users' second-layer rows (region 3's result) and the merchants' (region 2's result) along them, cuts the
  scorer's first weight matrix into its two halves and transposes each, and recasts the two biases.  Region 4 leaves the
  column of scores; one last host operation recasts the column as a vector: the program's result.
-/
import proofs.«117231_j34548716929465_2_alg».proof.Proof.Gen.KernelIdeal.Frame
import proofs.«117231_j34548716929465_2_alg».proof.Proof.HostChains
import proofs.«117231_j34548716929465_2_alg».proof.Proof.Region4
import proofs.«117231_j34548716929465_2_alg».proof.Proof.Shared
import proofs.«117231_j34548716929465_2_alg».proof.Proof.HostChains2
import Idealize.ShloMosaic.Lib.StableHlo.Run

set_option maxRecDepth 16384

noncomputable section

namespace Cert.KernelIdeal.Peel

open Cert.KernelIdeal Cert.KernelIdeal.Gen Cert.KernelIdeal.Chains
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer no operation of a host stretch writes holds after the stretch what it held before. -/
local macro "skip_host " ops:ident : tactic => `(tactic|
  refine (StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- A buffer that is none of a region's arrays holds after the region what it held before. -/
local macro "skip_region " lem:ident : tactic => `(tactic| refine ($lem:ident _ _ _ _ (by decide)).trans ?_)

/-! ## What region 4 finds -/

theorem W8_v87 (c : Dev nD) : W8 m ρ c (Proc.devRef .tc main_v87) = W6 m ρ c (Proc.devRef .tc main_v87) := by
  skip_region W8_of_ne
  skip_host hostOps3
  rfl

set_option maxHeartbeats 40000000 in
theorem V9_v102 (c : Dev nD) : V9 m ρ c main_v102 = pick (W8 m ρ c (Proc.devRef .tc main_v91)) (tsrc (m ((c : Thread nD τ).loc main_arg4))) := by
  show StableHlo.after hostOps4 (W8 m ρ c) (Proc.devRef .tc main_v102) = _
  after_results
  rw [W8_arg4]
  rfl

set_option maxHeartbeats 40000000 in
theorem V9_v109 (c : Dev nD) : V9 m ρ c main_v109 = pick (W6 m ρ c (Proc.devRef .tc main_v87)) (tdst (m ((c : Thread nD τ).loc main_arg4))) := by
  show StableHlo.after hostOps4 (W8 m ρ c) (Proc.devRef .tc main_v109) = _
  after_results
  rw [W8_arg4, W8_v87]
  rfl

set_option maxHeartbeats 40000000 in
theorem V9_v112 (c : Dev nD) : V9 m ρ c main_v112 = cutFirstT (m ((c : Thread nD τ).loc main_arg17)) := by
  show StableHlo.after hostOps4 (W8 m ρ c) (Proc.devRef .tc main_v112) = _
  after_results
  rw [W8_arg17]
  rfl

set_option maxHeartbeats 40000000 in
theorem V9_v113 (c : Dev nD) : V9 m ρ c main_v113 = cutSecondT (m ((c : Thread nD τ).loc main_arg17)) := by
  show StableHlo.after hostOps4 (W8 m ρ c) (Proc.devRef .tc main_v113) = _
  after_results
  rw [W8_arg17]
  rfl

set_option maxHeartbeats 40000000 in
theorem V9_v114 (c : Dev nD) : V9 m ρ c main_v114 = shapeCast S1x128 (m ((c : Thread nD τ).loc main_arg18)) shapeCasts_S128_S1x128 := by
  show StableHlo.after hostOps4 (W8 m ρ c) (Proc.devRef .tc main_v114) = _
  after_results
  rw [W8_arg18]
  rfl

theorem V9_arg19 (c : Dev nD) : V9 m ρ c main_arg19 = (m ((c : Thread nD τ).loc main_arg19)) := by
  show StableHlo.after hostOps4 (W8 m ρ c) (Proc.devRef .tc main_arg19) = _
  skip_host hostOps4
  exact W8_arg19 m ρ c

set_option maxHeartbeats 40000000 in
theorem V9_v115 (c : Dev nD) : V9 m ρ c main_v115 = shapeCast S1x1 (m ((c : Thread nD τ).loc main_arg20)) shapeCasts_S1_S1x1 := by
  show StableHlo.after hostOps4 (W8 m ρ c) (Proc.devRef .tc main_v115) = _
  after_results
  rw [W8_arg20]
  rfl

/-! ## What region 4 leaves, and the result -/

/-- The column of scores after region 4. -/
theorem scores (c : Dev nD) : W10 m ρ c (Proc.devRef .tc main_v116) = Region4.G (V9 m ρ) c :=
  (W10_arr m ρ c 7).trans (Region4.final (V9 m ρ) c)

/-- The program's result: the column recast as a vector. -/
theorem result (c : Dev nD) :
    W11 m ρ c (Proc.devRef .tc main_v117) = shapeCast S500000 (Region4.G (V9 m ρ) c) shapeCasts_S500000x1_S500000 := by
  show StableHlo.after hostOps5 (W10 m ρ c) (Proc.devRef .tc main_v117) = _
  after_results
  rw [scores]
  rfl

end Cert.KernelIdeal.Peel

end
-- ==== Proof.MeanBridge.lean ====
/-
  The neighbours' mean, as the idealized kernel's program spells it and as the reference does.

  Both gather the same rows through the same words and scatter-add them at the same words; the kernel's program then
  multiplies by the column of 1 / max(count, 1), the reference divides by the column of max(count, 1).  On the extended
  reals these agree at every entry, whatever the sums are (`Cert.Layers.mean_arrays`): a quotient by a non-zero number is
  the product with its inverse, and max(count, 1) is at least one.
-/
import proofs.«117231_j34548716929465_2_alg».proof.Proof.HostChains
import proofs.«117231_j34548716929465_2_alg».proof.Proof.Gen.ReferenceIdeal.Read
import proofs.«117231_j34548716929465_2_alg».proof.Proof.Layers

noncomputable section

namespace Cert.MeanBridge

open Idealize.ShloMosaic
open Cert.KernelIdeal.Chains

/-- First layer, edges from the first node type to the second. -/
theorem mean_um (x0 : (⟨Cert.KernelIdeal.S50000x64, .f32⟩ : BufTy).Contents (Elt Ideal))
    (x2 : (⟨Cert.KernelIdeal.S2x1000000, .i32⟩ : BufTy).Contents (Elt Ideal)) :
    mean64 x0 x2 = Cert.ReferenceIdeal.Read.val_main_v22 (F := Ideal) x0 x2 :=
  Cert.Layers.mean_arrays (A := 50000) (n := 64) (agg64 x0 (src x2) (dst x2)) (cnt (dst x2))
    Cert.KernelIdeal.Gen.bcast_S_S50000 Cert.KernelIdeal.Gen.bcast_S50000_S50000x1_0 Cert.KernelIdeal.Gen.bcast_S50000x1_S50000x64_0_1

/-- First layer, the other edge type. -/
theorem mean_mu (x1 : (⟨Cert.KernelIdeal.S50000x64, .f32⟩ : BufTy).Contents (Elt Ideal))
    (x3 : (⟨Cert.KernelIdeal.S2x1000000, .i32⟩ : BufTy).Contents (Elt Ideal)) :
    mean64 x1 x3 = Cert.ReferenceIdeal.Read.val_main_v54 (F := Ideal) x1 x3 :=
  Cert.Layers.mean_arrays (A := 50000) (n := 64) (agg64 x1 (src x3) (dst x3)) (cnt (dst x3))
    Cert.KernelIdeal.Gen.bcast_S_S50000 Cert.KernelIdeal.Gen.bcast_S50000_S50000x1_0 Cert.KernelIdeal.Gen.bcast_S50000x1_S50000x64_0_1

end Cert.MeanBridge

end
-- ==== Proof.Bridge2.lean ====
/-
  The second layer's means, the scorer's row picks and its weight halves, as the idealized kernel's program spells them
  and as the reference does.

  Second layer: both programs gather the hidden rows through the same words and scatter-add them at the same words; the
  kernel's program keeps the hidden rows in the short float format and widens what it gathered — no change on the
  extended reals — and multiplies by the reciprocal column where the reference divides (`Cert.Layers.mean_arrays`).
  Scorer: both gather the second-layer rows through the same non-negative words; the kernel's program cuts the first
  weight matrix along its columns before transposing, so its two pieces at (k, q) are the matrix at (q, k) and (q, 128 + k).
-/
import proofs.«117231_j34548716929465_2_alg».proof.Proof.HostChains2
import proofs.«117231_j34548716929465_2_alg».proof.Proof.Gen.ReferenceIdeal.Read
import proofs.«117231_j34548716929465_2_alg».proof.Proof.Layers
import Idealize.ShloMosaic.Lib.ValueLayout

noncomputable section

namespace Cert.Bridge2

open Idealize.ShloMosaic Idealize.ShloMosaic.ValueIdx
open Cert.KernelIdeal.Chains Cert.ReferenceIdeal.Read

/-- Second layer, merchants: the users' hidden rows averaged over the first edge list. -/
theorem mean2_um (h : HArr Cert.KernelIdeal.S50000x128) (x0 x1 : FArr Cert.KernelIdeal.S50000x64)
    (x2 x3 : WArr Cert.KernelIdeal.S2x1000000) (x8 : FArr Cert.KernelIdeal.S128x64) (x9 : FArr Cert.KernelIdeal.S128)
    (x10 : FArr Cert.KernelIdeal.S128x64) (hh : h = val_main_v63 (F := Ideal) x0 x1 x3 x8 x9 x10) :
    mean128 h (src x2) (dst x2) (recip (dst x2)) = val_main_v86 (F := Ideal) x0 x1 x2 x3 x8 x9 x10 := by
  subst hh
  exact Cert.Layers.mean_arrays (A := 50000) (n := 128) (agg128 _ (src x2) (dst x2)) (cnt (dst x2))
    Cert.KernelIdeal.Gen.bcast_S_S50000 Cert.KernelIdeal.Gen.bcast_S50000_S50000x1_0 Cert.KernelIdeal.Gen.bcast_S50000x1_S50000x128_0_1

/-- Second layer, users: the merchants' hidden rows averaged over the second edge list. -/
theorem mean2_mu (h : HArr Cert.KernelIdeal.S50000x128) (x0 x1 : FArr Cert.KernelIdeal.S50000x64)
    (x2 x3 : WArr Cert.KernelIdeal.S2x1000000) (x5 : FArr Cert.KernelIdeal.S128x64) (x6 : FArr Cert.KernelIdeal.S128)
    (x7 : FArr Cert.KernelIdeal.S128x64) (hh : h = val_main_v31 (F := Ideal) x0 x1 x2 x5 x6 x7) :
    mean128 h (src x3) (dst x3) (recip (dst x3)) = val_main_v117 (F := Ideal) x0 x1 x2 x3 x5 x6 x7 := by
  subst hh
  exact Cert.Layers.mean_arrays (A := 50000) (n := 128) (agg128 _ (src x3) (dst x3)) (cnt (dst x3))
    Cert.KernelIdeal.Gen.bcast_S_S50000 Cert.KernelIdeal.Gen.bcast_S50000_S50000x1_0 Cert.KernelIdeal.Gen.bcast_S50000x1_S50000x128_0_1

/-- The first half of the scorer's weight matrix, cut then transposed. -/
theorem cutFirstT_eq (w : FArr Cert.KernelIdeal.S128x256) : cutFirstT w = Cert.Layers.firstHalfT w := by
  funext i
  obtain ⟨k, q, rfl⟩ : ∃ (k q : Fin 128), i = ix2 k q := ⟨i 0, i 1, eq_ix2 i⟩
  unfold cutFirstT
  rw [transpose_ix2_apply (a := 128) (b := 128) _ Cert.KernelIdeal.Gen.transposes_S128x128_S128x128_1_0 k q,
    slice2_axis1_apply (n0 := 128) (n1 := 256) (m := 128) 0 w Cert.KernelIdeal.Gen.slices_S128x256_S128x128_0_0 q k
      (⟨k.val, by have := k.isLt; omega⟩ : Fin 256) (Nat.zero_add _).symm]
  rfl

/-- The second half. -/
theorem cutSecondT_eq (w : FArr Cert.KernelIdeal.S128x256) : cutSecondT w = Cert.Layers.secondHalfT w := by
  funext i
  obtain ⟨k, q, rfl⟩ : ∃ (k q : Fin 128), i = ix2 k q := ⟨i 0, i 1, eq_ix2 i⟩
  unfold cutSecondT
  rw [transpose_ix2_apply (a := 128) (b := 128) _ Cert.KernelIdeal.Gen.transposes_S128x128_S128x128_1_0 k q,
    slice2_axis1_apply (n0 := 128) (n1 := 256) (m := 128) 128 w Cert.KernelIdeal.Gen.slices_S128x256_S128x128_0_128 q k
      (⟨128 + k.val, by have := k.isLt; omega⟩ : Fin 256) rfl]
  rfl

end Cert.Bridge2

end
-- ==== Proof.LibRefReads.lean ====
import Idealize.ShloMosaic.PureOps.Ideal
import Idealize.ShloMosaic.PureOps.Ideal.Laws
import Idealize.ShloMosaic.Lib.ValueIdx
import Idealize.ShloMosaic.Lib.Pipeline.Value

/-!
# Small general facts for reading a host program index by index

A sum over a rank-1 index set is the sum over its coordinate. The words a `jnp.diagonal` builds its start indices
from: a number below `2³¹`, as a 32-bit word, is not below zero in the signed order and reads back as itself. The
float made from the bit "two numbers are equal" is `1` or `0`. A two-column `gather` out of a matrix reads the
matrix at the row and the column its start indices name. A concatenation of two pieces — matrices stacked by rows,
vectors laid end to end, one-column matrices set side by side — read at an index is the piece the index falls in.
-/

noncomputable section

open scoped BigOperators

namespace Cert.RefLib

open Idealize.ShloMosaic Idealize.ShloMosaic.ValueIdx

/-! ## Rank-1 index sets -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Words -/

/-- A number below `2³¹`, as a 32-bit word, is not below zero in the signed order. -/
theorem toInt_ofNat32 (n : Nat) (hn : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1, if_pos (by omega)]

theorem cmpi_slt_ofNat_zero (n : Nat) (hn : n < 2 ^ 31) : IntOp.cmpi .slt (BitVec.ofNat 32 n) 0#32 = 0#1 := by
  have h : (BitVec.ofNat 32 n).slt 0#32 = false := by
    rw [BitVec.slt, toInt_ofNat32 n hn]
    simp only [BitVec.toInt_zero, decide_eq_false_iff_not, not_lt]
    omega
  show BitVec.ofBool ((BitVec.ofNat 32 n).slt 0#32) = 0#1
  rw [h]; rfl

/-- … and read back as a signed integer it is the number. -/
theorem toInt_toNat_ofNat (n : Nat) (hn : n < 2 ^ 31) : (BitVec.ofNat 32 n).toInt.toNat = n := by
  rw [toInt_ofNat32 n hn]; rfl

/-- The sum of two 32-bit words that are numbers with a sum below `2³²` is the word of the sum. -/
theorem addi_ofNat (a b : Nat) : IntOp.addi (BitVec.ofNat 32 a) (BitVec.ofNat 32 b) = BitVec.ofNat 32 (a + b) := by
  show BitVec.ofNat 32 a + BitVec.ofNat 32 b = _
  rw [BitVec.ofNat_add]

/-- The float made from the bit "the words of `a` and `b` are equal" is `1` when `a = b` and `0` otherwise. -/
theorem uitofp_cmpi_eq (a b : Nat) (ha : a < 2 ^ 32) (hb : b < 2 ^ 32) :
    FloatOps.uitofp (F := Ideal) .f32 (IntOp.cmpi .eq (BitVec.ofNat 32 a) (BitVec.ofNat 32 b))
      = if a = b then (1 : EReal) else 0 := by
  show (((BitVec.ofBool (BitVec.ofNat 32 a == BitVec.ofNat 32 b)).toNat : ℝ) : EReal) = _
  by_cases h : a = b
  · subst h; simp
  · have hne : BitVec.ofNat 32 a ≠ BitVec.ofNat 32 b := by
      intro e
      have := congrArg BitVec.toNat e
      simp only [BitVec.toNat_ofNat] at this
      rw [Nat.mod_eq_of_lt ha, Nat.mod_eq_of_lt hb] at this
      exact h this
    simp [h, hne]

section Pick
variable {α : Type}

/-- The dimension numbers of a `gather` that picks single entries out of a matrix `[N, M]`: start indices `[R, 2]`
    (row and column per result entry), both operand axes collapsed, result `[R]`. -/
abbrev pickDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

theorem pick_coord0 {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    (pickDims N M R wf).start (ix1 r) idx 0 + (pickDims N M R wf).batchCoord (ix1 r) 0
      + (pickDims N M R wf).offCoord (ix1 r) 0 = min (idx (ix2 r 0)).toInt.toNat (N - 1) := by
  have hm : (0 : Fin 2) ∈ (pickDims N M R wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (pickDims N M R wf).siIdx (ix1 r) ⟨List.idxOf (0 : Fin 2) (pickDims N M R wf).startIndexMap,
      List.idxOf_lt_length_iff.2 hm⟩ = ix2 r 0 := by
    funext b; refine Fin.ext ?_
    match b with
    | ⟨0, _⟩ => rfl
    | ⟨1, _⟩ => rfl
  rw [hsi]
  rfl

theorem pick_coord1 {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    (pickDims N M R wf).start (ix1 r) idx 1 + (pickDims N M R wf).batchCoord (ix1 r) 1
      + (pickDims N M R wf).offCoord (ix1 r) 1 = min (idx (ix2 r 1)).toInt.toNat (M - 1) := by
  have hm : (1 : Fin 2) ∈ (pickDims N M R wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (pickDims N M R wf).siIdx (ix1 r) ⟨List.idxOf (1 : Fin 2) (pickDims N M R wf).startIndexMap,
      List.idxOf_lt_length_iff.2 hm⟩ = ix2 r 1 := by
    funext b; refine Fin.ext ?_
    match b with
    | ⟨0, _⟩ => rfl
    | ⟨1, _⟩ => rfl
  rw [hsi]
  rfl

/-- Such a gather at result entry `r` reads the matrix at the row `idx[r, 0]` and the column `idx[r, 1]`, each read
    as a signed integer and clamped into the matrix. -/
theorem gather_pick_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pickDims N M R wf) x idx (ix1 r)
      = x (ix2 (⟨min (idx (ix2 r 0)).toInt.toNat (N - 1), by omega⟩ : Fin N)
               (⟨min (idx (ix2 r 1)).toInt.toNat (M - 1), by omega⟩ : Fin M)) := by
  unfold Host.gather
  congr 1
  funext a
  refine Fin.ext ?_
  match a with
  | ⟨0, _⟩ => exact pick_coord0 wf idx r
  | ⟨1, _⟩ => exact pick_coord1 wf idx r

end Pick

section Concat
variable {α : Type}

/-- Two matrices stacked by rows, read at a row of the first: that row of the first. -/
theorem concat_rows_left {n1 n2 n m : Nat}
    (h : Shape.Concatenates [(⟨2, ![n1, m]⟩ : Shape), ⟨2, ![n2, m]⟩] ⟨2, ![n, m]⟩ 0)
    (a : (⟨2, ![n1, m]⟩ : Shape).Idx → α) (b : (⟨2, ![n2, m]⟩ : Shape).Idx → α) (R : Fin n) (d : Fin m)
    (hR : R.val < n1) :
    concatenate ⟨2, ![n, m]⟩ 0 [⟨⟨2, ![n1, m]⟩, a⟩, ⟨⟨2, ![n2, m]⟩, b⟩] h (ix2 R d) = a (ix2 ⟨R.val, hR⟩ d) :=
  concatenate_pair_apply_left 0 a b h (ix2 R d) rfl (ix2 ⟨R.val, hR⟩ d)
    (fun c => match c with | ⟨0, _⟩ => rfl | ⟨1, _⟩ => rfl)

/-- … and at a row past the first: the second's row, the first's row count less. -/
theorem concat_rows_right {n1 n2 n m : Nat}
    (h : Shape.Concatenates [(⟨2, ![n1, m]⟩ : Shape), ⟨2, ![n2, m]⟩] ⟨2, ![n, m]⟩ 0)
    (a : (⟨2, ![n1, m]⟩ : Shape).Idx → α) (b : (⟨2, ![n2, m]⟩ : Shape).Idx → α) (R : Fin n) (d : Fin m)
    (hR : n1 ≤ R.val) (hlt : R.val - n1 < n2) :
    concatenate ⟨2, ![n, m]⟩ 0 [⟨⟨2, ![n1, m]⟩, a⟩, ⟨⟨2, ![n2, m]⟩, b⟩] h (ix2 R d) = b (ix2 ⟨R.val - n1, hlt⟩ d) :=
  concatenate_pair_apply_right 0 a b h (ix2 R d) rfl rfl (ix2 ⟨R.val - n1, hlt⟩ d)
    (fun c hc => match c, hc with
      | ⟨0, _⟩, hc => absurd rfl hc
      | ⟨1, _⟩, _ => rfl)
    (by show (R.val - n1) + n1 = R.val; omega)

/-- Two vectors laid end to end, read in the first … -/
theorem concat_vec_left {n1 n2 n : Nat}
    (h : Shape.Concatenates [(⟨1, ![n1]⟩ : Shape), ⟨1, ![n2]⟩] ⟨1, ![n]⟩ 0)
    (a : (⟨1, ![n1]⟩ : Shape).Idx → α) (b : (⟨1, ![n2]⟩ : Shape).Idx → α) (R : Fin n) (hR : R.val < n1) :
    concatenate ⟨1, ![n]⟩ 0 [⟨⟨1, ![n1]⟩, a⟩, ⟨⟨1, ![n2]⟩, b⟩] h (ix1 R) = a (ix1 ⟨R.val, hR⟩) :=
  concatenate_pair_apply_left 0 a b h (ix1 R) rfl (ix1 ⟨R.val, hR⟩)
    (fun c => match c with | ⟨0, _⟩ => rfl)

/-- … and past it. -/
theorem concat_vec_right {n1 n2 n : Nat}
    (h : Shape.Concatenates [(⟨1, ![n1]⟩ : Shape), ⟨1, ![n2]⟩] ⟨1, ![n]⟩ 0)
    (a : (⟨1, ![n1]⟩ : Shape).Idx → α) (b : (⟨1, ![n2]⟩ : Shape).Idx → α) (R : Fin n)
    (hR : n1 ≤ R.val) (hlt : R.val - n1 < n2) :
    concatenate ⟨1, ![n]⟩ 0 [⟨⟨1, ![n1]⟩, a⟩, ⟨⟨1, ![n2]⟩, b⟩] h (ix1 R) = b (ix1 ⟨R.val - n1, hlt⟩) :=
  concatenate_pair_apply_right 0 a b h (ix1 R) rfl rfl (ix1 ⟨R.val - n1, hlt⟩)
    (fun c hc => match c, hc with
      | ⟨0, _⟩, hc => absurd rfl hc)
    (by show (R.val - n1) + n1 = R.val; omega)

/-- Two one-column matrices set side by side: column 0 is the first … -/
theorem concat_cols_left {n : Nat}
    (h : Shape.Concatenates [(⟨2, ![n, 1]⟩ : Shape), ⟨2, ![n, 1]⟩] ⟨2, ![n, 2]⟩ 1)
    (a b : (⟨2, ![n, 1]⟩ : Shape).Idx → α) (r : Fin n) :
    concatenate ⟨2, ![n, 2]⟩ 1 [⟨⟨2, ![n, 1]⟩, a⟩, ⟨⟨2, ![n, 1]⟩, b⟩] h (ix2 r 0) = a (ix2 r 0) :=
  concatenate_pair_apply_left 1 a b h (ix2 r 0) rfl (ix2 r 0)
    (fun c => match c with | ⟨0, _⟩ => rfl | ⟨1, _⟩ => rfl)

/-- … and column 1 the second. -/
theorem concat_cols_right {n : Nat}
    (h : Shape.Concatenates [(⟨2, ![n, 1]⟩ : Shape), ⟨2, ![n, 1]⟩] ⟨2, ![n, 2]⟩ 1)
    (a b : (⟨2, ![n, 1]⟩ : Shape).Idx → α) (r : Fin n) :
    concatenate ⟨2, ![n, 2]⟩ 1 [⟨⟨2, ![n, 1]⟩, a⟩, ⟨⟨2, ![n, 1]⟩, b⟩] h (ix2 r 1) = b (ix2 r 0) :=
  concatenate_pair_apply_right 1 a b h (ix2 r 1) rfl rfl (ix2 r 0)
    (fun c hc => match c, hc with
      | ⟨0, _⟩, _ => rfl
      | ⟨1, _⟩, hc => absurd rfl hc)
    (by rfl)

end Concat

end Cert.RefLib

end
-- ==== Proof.RefLayers.lean ====
/-
  The reference network's dense stages, read entry by entry on the extended reals.

  The reference is a two-layer network on a bipartite graph with mean aggregation, followed by a scorer of edges.
  Each of its four layer stages computes, from the aggregated neighbour features a, the node's own features x, two
  weight matrices given row-major as [out, in] and a bias vector b,

      (a · Wlᵀ + b) + x · Wrᵀ,

  the first layer followed by the maximum with zero.  At entry (p, q) this is
  (∑ₖ a(p,k)·Wlᵀ(k,q) + b(q)) + ∑ₖ x(p,k)·Wrᵀ(k,q); the layer's value as the specification writes it is
  (∑ₖ a(p,k)·Wlᵀ(k,q) + ∑ₖ x(p,k)·Wrᵀ(k,q)) + b(q).  The two differ by one exchange of summands, which holds for all
  extended reals (addition there is commutative and associative), so nothing has to be finite.  The aggregated features
  and the transposed weights stay folded: each lemma says a stage IS the layer of the stages it is fed.

  The scorer sets the two end points' embeddings side by side (128 + 128 = 256 columns), contracts the 256 columns with
  the transposed first weight matrix, adds a bias, takes the maximum with zero, contracts the 128 hidden values with one
  weight row, adds a scalar bias and drops the unit axis.  A sum over 256 columns is the sum over the first 128 plus the
  sum over the last 128: in the first half the joined row reads the first embedding and the weight matrix its first 128
  columns, in the second half the second embedding and the last 128 columns.  That is the scorer's hidden layer on the
  two embeddings with the two half matrices, in the order (∑ first + ∑ second) + bias on both sides.
-/
import proofs.«117231_j34548716929465_2_alg».proof.Proof.Gen.ReferenceIdeal.Read
import proofs.«117231_j34548716929465_2_alg».proof.Proof.Layers
import proofs.«117231_j34548716929465_2_alg».proof.Proof.LibRefReads
import Idealize.ShloMosaic.Lib.Pipeline.Value
import Idealize.ShloMosaic.Lib.ValueIdx
import Idealize.ShloMosaic.PureOps.Ideal

noncomputable section

open scoped BigOperators

namespace Cert.ReferenceIdeal.RefLayers

open Cert.ReferenceIdeal Cert.ReferenceIdeal.Read Idealize.ShloMosaic Idealize.ShloMosaic.ValueIdx

/-! ## One layer stage, for any sizes -/

/-- (a · wl + b) + x · wr at (p, q), with b repeated along the rows, is the layer's value before its activation. -/
theorem stage_pre {N K B : ℕ} (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (a x : FVec Ideal ⟨2, ![N, K]⟩ .f32) (wl wr : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) (p : Fin N) (q : Fin B) :
    addf (addf (Host.dotGeneral D none a wl)
          (broadcastInDim ⟨2, ![N, B]⟩ ![0, 1] h2 (broadcastInDim ⟨2, ![1, B]⟩ ![1] h1 b)))
        (Host.dotGeneral D none x wr) (ix2 p q)
      = Cert.Sage.pre a x wl wr b p q := by
  show (Host.dotGeneral D none a wl (ix2 p q)
        + broadcastInDim ⟨2, ![N, B]⟩ ![0, 1] h2 (broadcastInDim ⟨2, ![1, B]⟩ ![1] h1 b) (ix2 p q))
      + Host.dotGeneral D none x wr (ix2 p q) = _
  rw [Cert.Lib.dotGeneral_plain_apply D wf hD a wl p q, Cert.Lib.dotGeneral_plain_apply D wf hD x wr p q,
    Cert.Lib.bcast_vec_rows_apply b h1 h2 p q]
  unfold Cert.Sage.pre
  exact add_right_comm _ _ _

/-! ## The four layer stages -/

/-- The merchants' first layer: the hidden layer of the mean of their users' features and their own features. -/
theorem hm_eq (x0 x1 : (⟨S50000x64, .f32⟩ : BufTy).Contents (Elt Ideal)) (x2 : (⟨S2x1000000, .i32⟩ : BufTy).Contents (Elt Ideal))
    (x5 : (⟨S128x64, .f32⟩ : BufTy).Contents (Elt Ideal)) (x6 : (⟨S128, .f32⟩ : BufTy).Contents (Elt Ideal)) (x7 : (⟨S128x64, .f32⟩ : BufTy).Contents (Elt Ideal)) :
    val_main_v31 (F := Ideal) x0 x1 x2 x5 x6 x7
      = Cert.Sage.hidden (N := 50000) (K := 64) (B := 128) (val_main_v22 (F := Ideal) x0 x2) x1
          (val_main_v23 (F := Ideal) x5) (val_main_v28 (F := Ideal) x7) x6 := by
  funext i
  obtain ⟨p, q, rfl⟩ : ∃ (p : Fin 50000) (q : Fin 128), i = ix2 p q := ⟨i 0, i 1, eq_ix2 i⟩
  rw [Cert.Sage.hidden_ix2]
  have hA : val_main_v30 (F := Ideal) x0 x1 x2 x5 x6 x7 (ix2 p q)
      = Cert.Sage.pre (val_main_v22 (F := Ideal) x0 x2) x1 (val_main_v23 (F := Ideal) x5) (val_main_v28 (F := Ideal) x7) x6 p q := by
    unfold val_main_v30 val_main_v27 val_main_v24 val_main_v26 val_main_v25 val_main_v29
    exact stage_pre (N := 50000) (K := 64) (B := 128) dot_S50000x64_S64x128_S50000x128_1_0_0_1_n_n
      Gen.dot_S50000x64_S64x128_S50000x128_1_0_0_1_n_n_wf rfl (val_main_v22 (F := Ideal) x0 x2) x1
      (val_main_v23 (F := Ideal) x5) (val_main_v28 (F := Ideal) x7) x6
      Gen.bcast_S128_S1x128_1 Gen.bcast_S1x128_S50000x128_0_1 p q
  have hZ : val_main_call0_v0 (F := Ideal) (ix2 p q) = Ideal.ofBits .f32 0x00000000#32 := by
    unfold val_main_call0_v0 val_main_call0_cst
    exact Cert.Lib.bcast_scalar_apply Gen.bcast_S_S50000x128 0x00000000#32 (ix2 p q)
  rw [val_main_v31_apply, Ideal.maximumf_def, hA, hZ]

/-- The users' first layer: the hidden layer of the mean of their merchants' features and their own features. -/
theorem hu_eq (x0 x1 : (⟨S50000x64, .f32⟩ : BufTy).Contents (Elt Ideal)) (x3 : (⟨S2x1000000, .i32⟩ : BufTy).Contents (Elt Ideal))
    (x8 : (⟨S128x64, .f32⟩ : BufTy).Contents (Elt Ideal)) (x9 : (⟨S128, .f32⟩ : BufTy).Contents (Elt Ideal)) (x10 : (⟨S128x64, .f32⟩ : BufTy).Contents (Elt Ideal)) :
    val_main_v63 (F := Ideal) x0 x1 x3 x8 x9 x10
      = Cert.Sage.hidden (N := 50000) (K := 64) (B := 128) (val_main_v54 (F := Ideal) x1 x3) x0
          (val_main_v55 (F := Ideal) x8) (val_main_v60 (F := Ideal) x10) x9 := by
  funext i
  obtain ⟨p, q, rfl⟩ : ∃ (p : Fin 50000) (q : Fin 128), i = ix2 p q := ⟨i 0, i 1, eq_ix2 i⟩
  rw [Cert.Sage.hidden_ix2]
  have hA : val_main_v62 (F := Ideal) x0 x1 x3 x8 x9 x10 (ix2 p q)
      = Cert.Sage.pre (val_main_v54 (F := Ideal) x1 x3) x0 (val_main_v55 (F := Ideal) x8) (val_main_v60 (F := Ideal) x10) x9 p q := by
    unfold val_main_v62 val_main_v59 val_main_v56 val_main_v58 val_main_v57 val_main_v61
    exact stage_pre (N := 50000) (K := 64) (B := 128) dot_S50000x64_S64x128_S50000x128_1_0_0_1_n_n
      Gen.dot_S50000x64_S64x128_S50000x128_1_0_0_1_n_n_wf rfl (val_main_v54 (F := Ideal) x1 x3) x0
      (val_main_v55 (F := Ideal) x8) (val_main_v60 (F := Ideal) x10) x9
      Gen.bcast_S128_S1x128_1 Gen.bcast_S1x128_S50000x128_0_1 p q
  have hZ : val_main_call1_v0 (F := Ideal) (ix2 p q) = Ideal.ofBits .f32 0x00000000#32 := by
    unfold val_main_call1_v0 val_main_call1_cst
    exact Cert.Lib.bcast_scalar_apply Gen.bcast_S_S50000x128 0x00000000#32 (ix2 p q)
  rw [val_main_v63_apply, Ideal.maximumf_def, hA, hZ]

/-- The merchants' second layer: the layer, without activation, of the mean of their users' hidden features and
    their own hidden features. -/
theorem zm_eq (x0 x1 : (⟨S50000x64, .f32⟩ : BufTy).Contents (Elt Ideal)) (x2 x3 : (⟨S2x1000000, .i32⟩ : BufTy).Contents (Elt Ideal))
    (x5 : (⟨S128x64, .f32⟩ : BufTy).Contents (Elt Ideal)) (x6 : (⟨S128, .f32⟩ : BufTy).Contents (Elt Ideal)) (x7 x8 : (⟨S128x64, .f32⟩ : BufTy).Contents (Elt Ideal)) (x9 : (⟨S128, .f32⟩ : BufTy).Contents (Elt Ideal))
    (x10 : (⟨S128x64, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) :
    val_main_v94 (F := Ideal) x0 x1 x2 x3 x5 x6 x7 x8 x9 x10 x11 x12 x13
      = Cert.Layers.linear (N := 50000) (K := 128) (B := 128) (val_main_v86 (F := Ideal) x0 x1 x2 x3 x8 x9 x10)
          (val_main_v31 (F := Ideal) x0 x1 x2 x5 x6 x7) (val_main_v87 (F := Ideal) x11) (val_main_v92 (F := Ideal) x13) x12 := by
  funext i
  obtain ⟨p, q, rfl⟩ : ∃ (p : Fin 50000) (q : Fin 128), i = ix2 p q := ⟨i 0, i 1, eq_ix2 i⟩
  rw [Cert.Layers.linear_ix2]
  unfold val_main_v94 val_main_v91 val_main_v88 val_main_v90 val_main_v89 val_main_v93
  exact stage_pre (N := 50000) (K := 128) (B := 128) dot_S50000x128_S128x128_S50000x128_1_0_0_1_n_n
    Gen.dot_S50000x128_S128x128_S50000x128_1_0_0_1_n_n_wf rfl (val_main_v86 (F := Ideal) x0 x1 x2 x3 x8 x9 x10)
    (val_main_v31 (F := Ideal) x0 x1 x2 x5 x6 x7) (val_main_v87 (F := Ideal) x11) (val_main_v92 (F := Ideal) x13) x12
    Gen.bcast_S128_S1x128_1 Gen.bcast_S1x128_S50000x128_0_1 p q

/-- The users' second layer: the layer, without activation, of the mean of their merchants' hidden features and
    their own hidden features. -/
theorem zu_eq (x0 x1 : (⟨S50000x64, .f32⟩ : BufTy).Contents (Elt Ideal)) (x2 x3 : (⟨S2x1000000, .i32⟩ : BufTy).Contents (Elt Ideal))
    (x5 : (⟨S128x64, .f32⟩ : BufTy).Contents (Elt Ideal)) (x6 : (⟨S128, .f32⟩ : BufTy).Contents (Elt Ideal)) (x7 x8 : (⟨S128x64, .f32⟩ : BufTy).Contents (Elt Ideal)) (x9 : (⟨S128, .f32⟩ : BufTy).Contents (Elt Ideal))
    (x10 : (⟨S128x64, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) :
    val_main_v125 (F := Ideal) x0 x1 x2 x3 x5 x6 x7 x8 x9 x10 x14 x15 x16
      = Cert.Layers.linear (N := 50000) (K := 128) (B := 128) (val_main_v117 (F := Ideal) x0 x1 x2 x3 x5 x6 x7)
          (val_main_v63 (F := Ideal) x0 x1 x3 x8 x9 x10) (val_main_v118 (F := Ideal) x14) (val_main_v123 (F := Ideal) x16) x15 := by
  funext i
  obtain ⟨p, q, rfl⟩ : ∃ (p : Fin 50000) (q : Fin 128), i = ix2 p q := ⟨i 0, i 1, eq_ix2 i⟩
  rw [Cert.Layers.linear_ix2]
  unfold val_main_v125 val_main_v122 val_main_v119 val_main_v121 val_main_v120 val_main_v124
  exact stage_pre (N := 50000) (K := 128) (B := 128) dot_S50000x128_S128x128_S50000x128_1_0_0_1_n_n
    Gen.dot_S50000x128_S128x128_S50000x128_1_0_0_1_n_n_wf rfl (val_main_v117 (F := Ideal) x0 x1 x2 x3 x5 x6 x7)
    (val_main_v63 (F := Ideal) x0 x1 x3 x8 x9 x10) (val_main_v118 (F := Ideal) x14) (val_main_v123 (F := Ideal) x16) x15
    Gen.bcast_S128_S1x128_1 Gen.bcast_S1x128_S50000x128_0_1 p q

/-! ## The scorer -/

section Joined
variable {α : Type}

/-- Two matrices set side by side, read at a column of the first: that column of the first. -/
theorem concat_cols_lo {n m1 m2 m : ℕ}
    (h : Shape.Concatenates [(⟨2, ![n, m1]⟩ : Shape), ⟨2, ![n, m2]⟩] ⟨2, ![n, m]⟩ 1)
    (a : (⟨2, ![n, m1]⟩ : Shape).Idx → α) (b : (⟨2, ![n, m2]⟩ : Shape).Idx → α) (r : Fin n) (c : Fin m1)
    (hc : c.val < m) :
    concatenate ⟨2, ![n, m]⟩ 1 [⟨⟨2, ![n, m1]⟩, a⟩, ⟨⟨2, ![n, m2]⟩, b⟩] h (ix2 r (⟨c.val, hc⟩ : Fin m)) = a (ix2 r c) :=
  concatenate_pair_apply_left 1 a b h (ix2 r (⟨c.val, hc⟩ : Fin m)) rfl (ix2 r c)
    (fun d => match d with | ⟨0, _⟩ => rfl | ⟨1, _⟩ => rfl)

/-- … and at a column past the first's columns: that column of the second, the first's column count less. -/
theorem concat_cols_hi {n m1 m2 m : ℕ}
    (h : Shape.Concatenates [(⟨2, ![n, m1]⟩ : Shape), ⟨2, ![n, m2]⟩] ⟨2, ![n, m]⟩ 1)
    (a : (⟨2, ![n, m1]⟩ : Shape).Idx → α) (b : (⟨2, ![n, m2]⟩ : Shape).Idx → α) (r : Fin n) (c : Fin m2)
    (hc : m1 + c.val < m) :
    concatenate ⟨2, ![n, m]⟩ 1 [⟨⟨2, ![n, m1]⟩, a⟩, ⟨⟨2, ![n, m2]⟩, b⟩] h (ix2 r (⟨m1 + c.val, hc⟩ : Fin m)) = b (ix2 r c) :=
  concatenate_pair_apply_right 1 a b h (ix2 r (⟨m1 + c.val, hc⟩ : Fin m)) rfl rfl (ix2 r c)
    (fun d hd => match d, hd with
      | ⟨0, _⟩, _ => rfl
      | ⟨1, _⟩, hd => absurd rfl hd)
    (by show c.val + m1 = m1 + c.val; omega)

end Joined

/-- A sum of 256 terms is the sum of the first 128 plus the sum of the last 128. -/
theorem sum_halves (f : Fin 256 → EReal) :
    ∑ k : Fin 256, f k
      = (∑ k : Fin 128, f ⟨k.val, by have := k.isLt; omega⟩)
        + ∑ k : Fin 128, f ⟨128 + k.val, by have := k.isLt; omega⟩ :=
  Fin.sum_univ_add (a := 128) (b := 128) f

/-- The joined embeddings against the transposed first weight matrix, at (e, q): the first embedding against the
    matrix's first 128 columns plus the second embedding against its last 128. -/
theorem joined_dot (D : DotDims ⟨2, ![500000, 256]⟩ ⟨2, ![256, 128]⟩ ⟨2, ![500000, 128]⟩)
    (wf : DotDims.WF ⟨2, ![500000, 256]⟩ ⟨2, ![256, 128]⟩ ⟨2, ![500000, 128]⟩ [1] [0] [0] [1] [] []) (hD : D = Cert.Lib.plain2 wf)
    (zu zm : FVec Ideal ⟨2, ![500000, 128]⟩ .f32) (w : FVec Ideal ⟨2, ![128, 256]⟩ .f32)
    (hc : Shape.Concatenates [(⟨2, ![500000, 128]⟩ : Shape), ⟨2, ![500000, 128]⟩] ⟨2, ![500000, 256]⟩ 1)
    (ht : (⟨2, ![128, 256]⟩ : Shape).Transposes [1, 0] ⟨2, ![256, 128]⟩) (e : Fin 500000) (q : Fin 128) :
    Host.dotGeneral D none (concatenate ⟨2, ![500000, 256]⟩ 1 [⟨⟨2, ![500000, 128]⟩, zu⟩, ⟨⟨2, ![500000, 128]⟩, zm⟩] hc) (transpose ⟨2, ![256, 128]⟩ [1, 0] w ht) (ix2 e q)
      = (∑ k : Fin 128, zu (ix2 e k) * Cert.Layers.firstHalfT w (ix2 k q))
        + ∑ k : Fin 128, zm (ix2 e k) * Cert.Layers.secondHalfT w (ix2 k q) := by
  have hlo : ∀ k : Fin 128,
      (concatenate ⟨2, ![500000, 256]⟩ 1 [⟨⟨2, ![500000, 128]⟩, zu⟩, ⟨⟨2, ![500000, 128]⟩, zm⟩] hc) (ix2 e (⟨k.val, by have := k.isLt; omega⟩ : Fin 256))
          * (transpose ⟨2, ![256, 128]⟩ [1, 0] w ht) (ix2 (⟨k.val, by have := k.isLt; omega⟩ : Fin 256) q)
        = zu (ix2 e k) * Cert.Layers.firstHalfT w (ix2 k q) := by
    intro k
    rw [concat_cols_lo hc zu zm e k (by have := k.isLt; omega),
      transpose_apply [1, 0] w ht (ix2 (⟨k.val, by have := k.isLt; omega⟩ : Fin 256) q)
        (ix2 q (⟨k.val, by have := k.isLt; omega⟩ : Fin 256)) (fun c => match c with | ⟨0, _⟩ => rfl | ⟨1, _⟩ => rfl),
      Cert.Layers.firstHalfT_ix2]
  have hhi : ∀ k : Fin 128,
      (concatenate ⟨2, ![500000, 256]⟩ 1 [⟨⟨2, ![500000, 128]⟩, zu⟩, ⟨⟨2, ![500000, 128]⟩, zm⟩] hc) (ix2 e (⟨128 + k.val, by have := k.isLt; omega⟩ : Fin 256))
          * (transpose ⟨2, ![256, 128]⟩ [1, 0] w ht) (ix2 (⟨128 + k.val, by have := k.isLt; omega⟩ : Fin 256) q)
        = zm (ix2 e k) * Cert.Layers.secondHalfT w (ix2 k q) := by
    intro k
    rw [concat_cols_hi hc zu zm e k (by have := k.isLt; omega),
      transpose_apply [1, 0] w ht (ix2 (⟨128 + k.val, by have := k.isLt; omega⟩ : Fin 256) q)
        (ix2 q (⟨128 + k.val, by have := k.isLt; omega⟩ : Fin 256)) (fun c => match c with | ⟨0, _⟩ => rfl | ⟨1, _⟩ => rfl),
      Cert.Layers.secondHalfT_ix2]
  rw [Cert.Lib.dotGeneral_plain_apply D wf hD (concatenate ⟨2, ![500000, 256]⟩ 1 [⟨⟨2, ![500000, 128]⟩, zu⟩, ⟨⟨2, ![500000, 128]⟩, zm⟩] hc) (transpose ⟨2, ![256, 128]⟩ [1, 0] w ht) e q, sum_halves,
    Finset.sum_congr rfl (fun k _ => hlo k), Finset.sum_congr rfl (fun k _ => hhi k)]

/-- The scorer's hidden layer before its activation, at (e, q). -/
theorem joined_pre (D : DotDims ⟨2, ![500000, 256]⟩ ⟨2, ![256, 128]⟩ ⟨2, ![500000, 128]⟩)
    (wf : DotDims.WF ⟨2, ![500000, 256]⟩ ⟨2, ![256, 128]⟩ ⟨2, ![500000, 128]⟩ [1] [0] [0] [1] [] []) (hD : D = Cert.Lib.plain2 wf)
    (zu zm : FVec Ideal ⟨2, ![500000, 128]⟩ .f32) (w : FVec Ideal ⟨2, ![128, 256]⟩ .f32) (b : FVec Ideal ⟨1, ![128]⟩ .f32)
    (hc : Shape.Concatenates [(⟨2, ![500000, 128]⟩ : Shape), ⟨2, ![500000, 128]⟩] ⟨2, ![500000, 256]⟩ 1)
    (ht : (⟨2, ![128, 256]⟩ : Shape).Transposes [1, 0] ⟨2, ![256, 128]⟩)
    (h1 : (⟨1, ![128]⟩ : Shape).BroadcastsInDim ⟨2, ![1, 128]⟩ ![1])
    (h2 : (⟨2, ![1, 128]⟩ : Shape).BroadcastsInDim ⟨2, ![500000, 128]⟩ ![0, 1]) (e : Fin 500000) (q : Fin 128) :
    addf (Host.dotGeneral D none (concatenate ⟨2, ![500000, 256]⟩ 1 [⟨⟨2, ![500000, 128]⟩, zu⟩, ⟨⟨2, ![500000, 128]⟩, zm⟩] hc) (transpose ⟨2, ![256, 128]⟩ [1, 0] w ht)) (broadcastInDim ⟨2, ![500000, 128]⟩ ![0, 1] h2 (broadcastInDim ⟨2, ![1, 128]⟩ ![1] h1 b)) (ix2 e q)
      = Cert.Sage.pre zu zm (Cert.Layers.firstHalfT w) (Cert.Layers.secondHalfT w) b e q := by
  rw [addf_apply, joined_dot D wf hD zu zm w hc ht e q, Cert.Lib.bcast_vec_rows_apply b h1 h2 e q]
  rfl

/-- The score of edge e as the reference computes it. -/
theorem ref_score (D : DotDims ⟨2, ![500000, 256]⟩ ⟨2, ![256, 128]⟩ ⟨2, ![500000, 128]⟩)
    (wf : DotDims.WF ⟨2, ![500000, 256]⟩ ⟨2, ![256, 128]⟩ ⟨2, ![500000, 128]⟩ [1] [0] [0] [1] [] []) (hD : D = Cert.Lib.plain2 wf)
    (D' : DotDims ⟨2, ![500000, 128]⟩ ⟨2, ![128, 1]⟩ ⟨2, ![500000, 1]⟩)
    (wf' : DotDims.WF ⟨2, ![500000, 128]⟩ ⟨2, ![128, 1]⟩ ⟨2, ![500000, 1]⟩ [1] [0] [0] [1] [] []) (hD' : D' = Cert.Lib.plain2 wf')
    (zu zm : FVec Ideal ⟨2, ![500000, 128]⟩ .f32) (w : FVec Ideal ⟨2, ![128, 256]⟩ .f32) (b : FVec Ideal ⟨1, ![128]⟩ .f32)
    (w2 : FVec Ideal ⟨2, ![1, 128]⟩ .f32) (b2 : FVec Ideal ⟨1, ![1]⟩ .f32)
    (hc : Shape.Concatenates [(⟨2, ![500000, 128]⟩ : Shape), ⟨2, ![500000, 128]⟩] ⟨2, ![500000, 256]⟩ 1)
    (ht : (⟨2, ![128, 256]⟩ : Shape).Transposes [1, 0] ⟨2, ![256, 128]⟩)
    (h1 : (⟨1, ![128]⟩ : Shape).BroadcastsInDim ⟨2, ![1, 128]⟩ ![1])
    (h2 : (⟨2, ![1, 128]⟩ : Shape).BroadcastsInDim ⟨2, ![500000, 128]⟩ ![0, 1])
    (h0 : (⟨0, ![]⟩ : Shape).BroadcastsInDim ⟨2, ![500000, 128]⟩ ![])
    (ht' : (⟨2, ![1, 128]⟩ : Shape).Transposes [1, 0] ⟨2, ![128, 1]⟩)
    (h3 : (⟨1, ![1]⟩ : Shape).BroadcastsInDim ⟨2, ![1, 1]⟩ ![1])
    (h4 : (⟨2, ![1, 1]⟩ : Shape).BroadcastsInDim ⟨2, ![500000, 1]⟩ ![0, 1])
    (hs : (⟨2, ![500000, 1]⟩ : Shape).ShapeCasts ⟨1, ![500000]⟩) (e : Fin 500000) :
    shapeCast ⟨1, ![500000]⟩ (addf (Host.dotGeneral D' none (maximumf (addf (Host.dotGeneral D none (concatenate ⟨2, ![500000, 256]⟩ 1 [⟨⟨2, ![500000, 128]⟩, zu⟩, ⟨⟨2, ![500000, 128]⟩, zm⟩] hc) (transpose ⟨2, ![256, 128]⟩ [1, 0] w ht)) (broadcastInDim ⟨2, ![500000, 128]⟩ ![0, 1] h2 (broadcastInDim ⟨2, ![1, 128]⟩ ![1] h1 b))) (broadcastInDim ⟨2, ![500000, 128]⟩ ![] h0 (constant (F := Ideal) ⟨0, ![]⟩ .f32 0x00000000#32))) (transpose ⟨2, ![128, 1]⟩ [1, 0] w2 ht')) (broadcastInDim ⟨2, ![500000, 1]⟩ ![0, 1] h4 (broadcastInDim ⟨2, ![1, 1]⟩ ![1] h3 b2))) hs (ix1 e)
      = Cert.Layers.score zu zm (Cert.Layers.firstHalfT w) (Cert.Layers.secondHalfT w) b w2 b2 e := by
  have hq : ∀ q : Fin 128,
      (maximumf (addf (Host.dotGeneral D none (concatenate ⟨2, ![500000, 256]⟩ 1 [⟨⟨2, ![500000, 128]⟩, zu⟩, ⟨⟨2, ![500000, 128]⟩, zm⟩] hc) (transpose ⟨2, ![256, 128]⟩ [1, 0] w ht)) (broadcastInDim ⟨2, ![500000, 128]⟩ ![0, 1] h2 (broadcastInDim ⟨2, ![1, 128]⟩ ![1] h1 b))) (broadcastInDim ⟨2, ![500000, 128]⟩ ![] h0 (constant (F := Ideal) ⟨0, ![]⟩ .f32 0x00000000#32))) (ix2 e q) * (transpose ⟨2, ![128, 1]⟩ [1, 0] w2 ht') (ix2 q (0 : Fin 1))
        = max (Cert.Sage.pre zu zm (Cert.Layers.firstHalfT w) (Cert.Layers.secondHalfT w) b e q)
            (Ideal.ofBits .f32 0x00000000#32) * w2 (ix2 (0 : Fin 1) q) := by
    intro q
    rw [maximumf_apply, joined_pre D wf hD zu zm w b hc ht h1 h2 e q,
      Cert.Lib.bcast_scalar_apply h0 0x00000000#32 (ix2 e q),
      transpose_apply [1, 0] w2 ht' (ix2 q (0 : Fin 1)) (ix2 (0 : Fin 1) q)
        (fun c => match c with | ⟨0, _⟩ => rfl | ⟨1, _⟩ => rfl)]
  rw [shapeCast_apply _ hs (ix1 e) (ix2 e (0 : Fin 1))
      (by rewrite [Shape.rowMajor_val_two, Shape.rowMajor_val_one]; show e.val * 1 + 0 = e.val; omega),
    addf_apply, Cert.Lib.dotGeneral_plain_apply D' wf' hD' (maximumf (addf (Host.dotGeneral D none (concatenate ⟨2, ![500000, 256]⟩ 1 [⟨⟨2, ![500000, 128]⟩, zu⟩, ⟨⟨2, ![500000, 128]⟩, zm⟩] hc) (transpose ⟨2, ![256, 128]⟩ [1, 0] w ht)) (broadcastInDim ⟨2, ![500000, 128]⟩ ![0, 1] h2 (broadcastInDim ⟨2, ![1, 128]⟩ ![1] h1 b))) (broadcastInDim ⟨2, ![500000, 128]⟩ ![] h0 (constant (F := Ideal) ⟨0, ![]⟩ .f32 0x00000000#32))) (transpose ⟨2, ![128, 1]⟩ [1, 0] w2 ht') e (0 : Fin 1),
    Cert.Lib.bcast_vec_rows_apply b2 h3 h4 e (0 : Fin 1), Finset.sum_congr rfl (fun q _ => hq q)]
  rfl

/-- The reference's result: the scores of all edges, from the two gathered embeddings and the scorer's weights, the
    first weight matrix cut into its two halves. -/
theorem out_eq (x0 x1 : (⟨S50000x64, .f32⟩ : BufTy).Contents (Elt Ideal)) (x2 x3 : (⟨S2x1000000, .i32⟩ : BufTy).Contents (Elt Ideal)) (x4 : (⟨S2x500000, .i32⟩ : BufTy).Contents (Elt Ideal))
    (x5 : (⟨S128x64, .f32⟩ : BufTy).Contents (Elt Ideal)) (x6 : (⟨S128, .f32⟩ : BufTy).Contents (Elt Ideal)) (x7 x8 : (⟨S128x64, .f32⟩ : BufTy).Contents (Elt Ideal)) (x9 : (⟨S128, .f32⟩ : BufTy).Contents (Elt Ideal))
    (x10 : (⟨S128x64, .f32⟩ : BufTy).Contents (Elt Ideal)) (x11 : (⟨S128x128, .f32⟩ : BufTy).Contents (Elt Ideal)) (x12 : (⟨S128, .f32⟩ : BufTy).Contents (Elt Ideal)) (x13 x14 : (⟨S128x128, .f32⟩ : BufTy).Contents (Elt Ideal))
    (x15 : (⟨S128, .f32⟩ : BufTy).Contents (Elt Ideal)) (x16 : (⟨S128x128, .f32⟩ : BufTy).Contents (Elt Ideal)) (x17 : (⟨S128x256, .f32⟩ : BufTy).Contents (Elt Ideal)) (x18 : (⟨S128, .f32⟩ : BufTy).Contents (Elt Ideal))
    (x19 : (⟨S1x128, .f32⟩ : BufTy).Contents (Elt Ideal)) (x20 : (⟨S1, .f32⟩ : BufTy).Contents (Elt Ideal)) :
    val_main_v156 (F := Ideal) x0 x1 x2 x3 x4 x5 x6 x7 x8 x9 x10 x11 x12 x13 x14 x15 x16 x17 x18 x19 x20
      = Cert.Layers.head (N := 500000) (K := 128) (B := 128)
          (val_main_v136 (F := Ideal) x0 x1 x2 x3 x4 x5 x6 x7 x8 x9 x10 x14 x15 x16)
          (val_main_v143 (F := Ideal) x0 x1 x2 x3 x4 x5 x6 x7 x8 x9 x10 x11 x12 x13)
          (Cert.Layers.firstHalfT x17) (Cert.Layers.secondHalfT x17) x18 x19 x20 := by
  funext i
  obtain ⟨e, rfl⟩ : ∃ e : Fin 500000, i = ix1 e := ⟨i 0, eq_ix1 i⟩
  rw [Cert.Layers.head_ix1]
  unfold val_main_v156 val_main_v155 val_main_v154 val_main_v153 val_main_v152 val_main_v151 val_main_v150
    val_main_call2_v0 val_main_call2_cst val_main_v149 val_main_v148 val_main_v147 val_main_v146 val_main_v145
    val_main_v144
  exact ref_score dot_S500000x256_S256x128_S500000x128_1_0_0_1_n_n
    Gen.dot_S500000x256_S256x128_S500000x128_1_0_0_1_n_n_wf rfl
    dot_S500000x128_S128x1_S500000x1_1_0_0_1_n_n Gen.dot_S500000x128_S128x1_S500000x1_1_0_0_1_n_n_wf rfl
    (val_main_v136 (F := Ideal) x0 x1 x2 x3 x4 x5 x6 x7 x8 x9 x10 x14 x15 x16)
    (val_main_v143 (F := Ideal) x0 x1 x2 x3 x4 x5 x6 x7 x8 x9 x10 x11 x12 x13)
    x17 x18 x19 x20 Gen.concatenates_S500000x128_S500000x128_S500000x256_d1 Gen.transposes_S128x256_S256x128_1_0
    Gen.bcast_S128_S1x128_1 Gen.bcast_S1x128_S500000x128_0_1 Gen.bcast_S_S500000x128
    Gen.transposes_S1x128_S128x1_1_0 Gen.bcast_S1_S1x1_1 Gen.bcast_S1x1_S500000x1_0_1
    Gen.shapeCasts_S500000x1_S500000 e

end Cert.ReferenceIdeal.RefLayers

end
-- ==== Proof.KernelValue.lean ====
/-
  The idealized kernel's result is the reference's.

  Layer by layer.  After region 0 the merchants' hidden rows are the reference's first stage of the merchants: both are
  the hidden layer of the same neighbours' mean (the two spellings of the mean agree, `MeanBridge`), own rows, transposed
  weights and bias.  The same for the users after region 1.  After regions 2 and 3 the second-layer rows are the
  reference's, because they are the layer of arrays already known equal.  The scorer's inputs are rows of those picked
  through the same words, its weights the two halves of the same matrix; region 4 leaves the scores as a column, the last
  host operation recasts the column as a vector, and entry e of that vector is the score of edge e: the reference's
  last stage.
-/
import proofs.«117231_j34548716929465_2_alg».proof.Proof.Gen.KernelIdeal.Frame
import proofs.«117231_j34548716929465_2_alg».proof.Proof.HostChains
import proofs.«117231_j34548716929465_2_alg».proof.Proof.Entry0
import proofs.«117231_j34548716929465_2_alg».proof.Proof.Entry1
import proofs.«117231_j34548716929465_2_alg».proof.Proof.Entry2
import proofs.«117231_j34548716929465_2_alg».proof.Proof.Entry3
import proofs.«117231_j34548716929465_2_alg».proof.Proof.Entry4
import proofs.«117231_j34548716929465_2_alg».proof.Proof.MeanBridge
import proofs.«117231_j34548716929465_2_alg».proof.Proof.Bridge2
import proofs.«117231_j34548716929465_2_alg».proof.Proof.RefLayers
import Idealize.ShloMosaic.Lib.StableHlo.Run
import Idealize.ShloMosaic.Lib.Pipeline.Value
import Idealize.ShloMosaic.Lib.ValueIdx

set_option maxRecDepth 16384

noncomputable section

namespace Cert.KernelIdeal.Peel

open Cert.KernelIdeal Cert.KernelIdeal.Gen Cert.KernelIdeal.Chains
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer no operation of a host stretch writes holds after the stretch what it held before. -/
local macro "skip_host " ops:ident : tactic => `(tactic|
  refine (StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- A buffer that is none of a region's arrays holds after the region what it held before. -/
local macro "skip_region " lem:ident : tactic => `(tactic| refine ($lem:ident _ _ _ _ (by decide)).trans ?_)

open Cert.ReferenceIdeal.Read Cert.ReferenceIdeal.RefLayers Idealize.ShloMosaic.ValueIdx

/-- The merchants' hidden rows are the reference's. -/
theorem hm_ref (c : Dev nD) :
    W2 m ρ c (Proc.devRef .tc main_v53) = val_main_v31 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  rw [hm, Cert.MeanBridge.mean_um, hm_eq]
  rfl

/-- The users' hidden rows are the reference's. -/
theorem hu_ref (c : Dev nD) :
    W4 m ρ c (Proc.devRef .tc main_v57) = val_main_v63 (F := Ideal) (m ((c : Thread nD τ).loc main_arg0)) (m ((c : Thread nD τ).loc main_arg1)) (m ((c : Thread nD τ).loc main_arg3)) (m ((c : Thread nD τ).loc main_arg8)) (m ((c : Thread nD τ).loc main_arg9)) (m ((c : Thread nD τ).loc main_arg10)) := by
  rw [hu, Cert.MeanBridge.mean_mu, hu_eq]
  rfl

/-- The merchants' second-layer rows are the reference's. -/
theorem zm_ref (c : Dev nD) :
    W6 m ρ c (Proc.devRef .tc main_v87) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [zm, Cert.Bridge2.mean2_um _ (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (hu_ref m ρ c), hm_ref, zm_eq]
  rfl

/-- The users' second-layer rows are the reference's. -/
theorem zu_ref (c : Dev nD) :
    W8 m ρ c (Proc.devRef .tc main_v91) = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) := by
  rw [zu, Cert.Bridge2.mean2_mu _ (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (hm_ref m ρ c), hu_ref, zu_eq]
  rfl

/-- The users' rows picked for scoring are the reference's. -/
theorem pick_u (c : Dev nD) :
    pick (W8 m ρ c (Proc.devRef .tc main_v91)) (tsrc (m ((c : Thread nD τ).loc main_arg4)))
      = val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) := by
  rw [zu_ref]
  rfl

/-- The merchants' rows picked for scoring are the reference's. -/
theorem pick_m (c : Dev nD) :
    pick (W6 m ρ c (Proc.devRef .tc main_v87)) (tdst (m ((c : Thread nD τ).loc main_arg4)))
      = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [zm_ref]
  rfl

/-- The program's result is the reference's result term of the same arguments. -/
theorem value (c : Dev nD) :
    W11 m ρ c (Proc.devRef .tc main_v117)
      = val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [result, out_eq]
  funext i
  obtain ⟨e, rfl⟩ : ∃ e : Fin 500000, i = ix1 e := ⟨i 0, eq_ix1 i⟩
  rw [Cert.Layers.head_ix1]
  refine (shapeCast_apply (Region4.G (V9 m ρ) c) shapeCasts_S500000x1_S500000 (ix1 e) (ix2 e (0 : Fin 1))
    (by rewrite [Shape.rowMajor_val_two, Shape.rowMajor_val_one]; show e.val * 1 + 0 = e.val; omega)).trans ?_
  show Cert.Layers.score (N := 500000) (K := 128) (B := 128) (V9 m ρ c main_v102) (V9 m ρ c main_v109) (V9 m ρ c main_v112)
      (V9 m ρ c main_v113) (Cert.Sage.rowOf (V9 m ρ c main_v114)) (V9 m ρ c main_arg19) (Cert.Sage.rowOf (V9 m ρ c main_v115)) e = _
  rw [V9_v102, V9_v109, V9_v112, V9_v113, V9_v114, V9_arg19, V9_v115, Cert.Sage.rowOf_shapeCast, Cert.Sage.rowOf_shapeCast,
    pick_u, pick_m, Cert.Bridge2.cutFirstT_eq, Cert.Bridge2.cutSecondT_eq]

end Cert.KernelIdeal.Peel

end
-- ==== Proof.lean ====
/-
  A two-layer network on a bipartite graph (users and merchants) with mean aggregation, followed by a scorer of edges:
  the kernel's program computes it with five kernel regions among host operations, the reference with host operations
  alone.  On the extended reals the two end with the same scores.

  Each layer is ∑ₖ a(p,k)·Wl(q,k) + ∑ₖ x(p,k)·Wr(q,k) + b(q) (the first layer followed by the maximum with zero), a the
  mean of the neighbours' rows and x the node's own row.  The programs differ in four ways, none of which changes a value
  on the extended reals.  (1) The mean: the kernel's program multiplies the aggregated sum by 1 / max(count, 1), the
  reference divides it by max(count, 1); a quotient by a non-zero number is the product with its inverse, and
  max(count, 1) ≥ 1 is not zero — for every extended real sum, so nothing has to be finite and the gathers and the
  scatter-adds are never looked into (both programs apply the same ones to the same words).  (2) The order of the three
  summands, (A + X) + b against (A + b) + X: addition is commutative and associative.  (3) The kernel regions work on
  blocks of 5000 rows and store the hidden rows in a shorter float format: an entry of a row depends on that row only,
  so the blocks are the restrictions of one array, and a change of float format is the identity here.  (4) The scorer:
  the reference joins the two embeddings (256 columns) and contracts once, the kernel region contracts each half with
  its half of the weight matrix — a sum over 256 columns is the sum over the first 128 plus the sum over the last 128 —,
  and its last 128-long contraction is written as a product and a sum along the row in the region, as a matrix product
  in the reference: the same sum.

  The three frame claims are the generated frames (the reference's is its generated run with the result dropped); the
  idealization rewrote nothing, so `preserves` asks nothing.
-/
import proofs.«117231_j34548716929465_2_alg».proof.Defs
import proofs.«117231_j34548716929465_2_alg».proof.Proof.Gen.Kernel
import proofs.«117231_j34548716929465_2_alg».proof.Proof.Gen.Kernel.Skeleton
import proofs.«117231_j34548716929465_2_alg».proof.Proof.Gen.Kernel.Launch
import proofs.«117231_j34548716929465_2_alg».proof.Proof.Gen.Kernel.Points
import proofs.«117231_j34548716929465_2_alg».proof.Proof.Gen.Kernel.Frame
import proofs.«117231_j34548716929465_2_alg».proof.Proof.Gen.KernelIdeal
import proofs.«117231_j34548716929465_2_alg».proof.Proof.Gen.KernelIdeal.Skeleton
import proofs.«117231_j34548716929465_2_alg».proof.Proof.Gen.KernelIdeal.Launch
import proofs.«117231_j34548716929465_2_alg».proof.Proof.Gen.KernelIdeal.Points
import proofs.«117231_j34548716929465_2_alg».proof.Proof.Gen.KernelIdeal.Frame
import proofs.«117231_j34548716929465_2_alg».proof.Proof.Gen.ReferenceIdeal
import proofs.«117231_j34548716929465_2_alg».proof.Proof.Gen.ReferenceIdeal.Run
import proofs.«117231_j34548716929465_2_alg».proof.Proof.Gen.ReferenceIdeal.Read
import proofs.«117231_j34548716929465_2_alg».proof.Proof.Gen.Pre_finite_inputs
import proofs.«117231_j34548716929465_2_alg».proof.Proof.KernelRun
import proofs.«117231_j34548716929465_2_alg».proof.Proof.KernelValue
import Idealize.ShloMosaic.Adequacy
import Idealize.ShloMosaic.Init

noncomputable section

namespace Cert.Proof

open Idealize.ShloMosaic Idealize.SL.Sem

/-- The kernel's program as printed runs, and leaves its arguments as launched. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same scores: the kernel's program with what its
    last segment leaves in the result buffer, which is the reference's result term of the same arguments. -/
theorem algebraic : Cert.algebraic_KernelIdeal_ReferenceIdeal := by
  intro m ρ m' ρ' _ hagree
  refine ⟨fun c => Cert.KernelIdeal.Gen.W11 m ρ c (Proc.devRef .tc Cert.KernelIdeal.main_v117),
    Cert.KernelIdeal.Result.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  rw [Cert.ReferenceIdeal.Read.val_main_v156_eq, h0, h1, h2, h3, h4, h5, h6, h7, h8, h9, h10, h11, h12, h13, h14, h15, h16, h17, h18, h19, h20]
  exact (Cert.KernelIdeal.Peel.value m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
